-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100001x64 : Shape := ⟨2, ![100001, 64]⟩
abbrev S256x64 : Shape := ⟨2, ![256, 64]⟩
abbrev S64 : Shape := ⟨1, ![64]⟩
abbrev S128x256 : Shape := ⟨2, ![128, 256]⟩
abbrev S256 : Shape := ⟨1, ![256]⟩
abbrev S192x384 : Shape := ⟨2, ![192, 384]⟩
abbrev S384 : Shape := ⟨1, ![384]⟩
abbrev S384x64 : Shape := ⟨2, ![384, 64]⟩
abbrev S100000 : Shape := ⟨1, ![100000]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100001x64 : S_.BroadcastsInDim S100001x64 (![] : Fin 0 → Fin S100001x64.rank)
  reducesTo_S100001x64_S_d0_1 : S100001x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S192x384 : S_.BroadcastsInDim S192x384 (![] : Fin 0 → Fin S192x384.rank)
  reducesTo_S192x384_S_d0_1 : S192x384.ReducesTo [0, 1] S_
  bcast_S_S384 : S_.BroadcastsInDim S384 (![] : Fin 0 → Fin S384.rank)
  reducesTo_S384_S_d0 : S384.ReducesTo [0] S_
  bcast_S_S384x64 : S_.BroadcastsInDim S384x64 (![] : Fin 0 → Fin S384x64.rank)
  reducesTo_S384x64_S_d0_1 : S384x64.ReducesTo [0, 1] S_

variable [Facts]

def fn_part3 {F : FTy → Type} [FloatOps F] (main_arg11 : FVec F S64 .f32) (main_v48 : IVec S_ 1) (main_v49 : FVec F S384x64 .f32) (main_v50 : FVec F S384x64 .f32) : IVec S_ 1 :=
  let main_v51 : IVec S384x64 1 := cmpf .olt main_v49 main_v50
  let main_c_19 : IVec S_ 1 := constantI S_ 1 1#1
  let main_v52 : IVec S_ 1 := (fun x v => Host.reduce IntOp.andi x v reducesTo_S384x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S192x384 .f32) (main_arg9 : FVec F S384 .f32) (main_arg10 : FVec F S384x64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x384 .f32 := Host.absf main_arg8
  let main_cst_14 : FVec F S_ .f32 := constant S_ .f32 0x7F800000#32
  let main_v40 : FVec F S192x384 .f32 := broadcastInDim S192x384 ![] bcast_S_S192x384 main_cst_14
  let main_v41 : IVec S192x384 1 := cmpf .olt main_v39 main_v40
  let main_c_15 : IVec S_ 1 := constantI S_ 1 1#1
  let main_v42 : IVec S_ 1 := (fun x v => Host.reduce IntOp.andi x v reducesTo_S192x384_S_d0_1 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384x64 .f32 := Host.absf main_arg10
  let main_cst_18 : FVec F S_ .f32 := constant S_ .f32 0x7F800000#32
  let main_v50 : FVec F S384x64 .f32 := broadcastInDim S384x64 ![] bcast_S_S384x64 main_cst_18
  fn_part3 (F := F) main_arg11 main_v48 main_v49 main_v50

def fn_part1 {F : FTy → Type} [FloatOps F] (main_arg4 : FVec F S128x256 .f32) (main_arg5 : FVec F S256 .f32) (main_arg6 : FVec F S256x64 .f32) (main_arg7 : FVec F S64 .f32) (main_arg8 : FVec F S192x384 .f32) (main_arg9 : FVec F S384 .f32) (main_arg10 : FVec F S384x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x256 .f32) (main_arg1 : FVec F S100001x64 .f32) (main_arg2 : FVec F S256x64 .f32) (main_arg3 : FVec F S64 .f32) (main_arg4 : FVec F S128x256 .f32) (main_arg5 : FVec F S256 .f32) (main_arg6 : FVec F S256x64 .f32) (main_arg7 : FVec F S64 .f32) (main_arg8 : FVec F S192x384 .f32) (main_arg9 : FVec F S384 .f32) (main_arg10 : FVec F S384x64 .f32) (main_arg11 : FVec F S64 .f32) (main_arg12 : IVec S100000 32) (main_arg13 : IVec S1600000 32) (main_arg14 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100001x64 .f32 := Host.absf main_arg1
  let main_cst_0 : FVec F S_ .f32 := constant S_ .f32 0x7F800000#32
  let main_v5 : FVec F S100001x64 .f32 := broadcastInDim S100001x64 ![] bcast_S_S100001x64 main_cst_0
  let main_v6 : IVec S100001x64 1 := cmpf .olt main_v4 main_v5
  let main_c_1 : IVec S_ 1 := constantI S_ 1 1#1
  let main_v7 : IVec S_ 1 := (fun x v => Host.reduce IntOp.andi x v reducesTo_S100001x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x256 : Shape := ⟨2, ![100000, 256]⟩
abbrev S100001x64 : Shape := ⟨2, ![100001, 64]⟩
abbrev S256x64 : Shape := ⟨2, ![256, 64]⟩
abbrev S64 : Shape := ⟨1, ![64]⟩
abbrev S128x256 : Shape := ⟨2, ![128, 256]⟩
abbrev S256 : Shape := ⟨1, ![256]⟩
abbrev S192x384 : Shape := ⟨2, ![192, 384]⟩
abbrev S384 : Shape := ⟨1, ![384]⟩
abbrev S384x64 : Shape := ⟨2, ![384, 64]⟩
abbrev S100000 : Shape := ⟨1, ![100000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S1x64 : Shape := ⟨2, ![1, 64]⟩
abbrev S2000x256 : Shape := ⟨2, ![2000, 256]⟩
abbrev S2000x64 : Shape := ⟨2, ![2000, 64]⟩
abbrev S1600000x1 : Shape := ⟨2, ![1600000, 1]⟩
abbrev S1600000x64 : Shape := ⟨2, ![1600000, 64]⟩
abbrev S64x256 : Shape := ⟨2, ![64, 256]⟩
abbrev S1x256 : Shape := ⟨2, ![1, 256]⟩
abbrev S2000x1 : Shape := ⟨2, ![2000, 1]⟩
abbrev S2000 : Shape := ⟨1, ![2000]⟩
abbrev S64x384 : Shape := ⟨2, ![64, 384]⟩
abbrev S1x384 : Shape := ⟨2, ![1, 384]⟩
abbrev S2000x384 : Shape := ⟨2, ![2000, 384]⟩

abbrev nBuf : Space → Nat
  | .hbm => 93
  | .vmem => 39
  | .smem => 0
  | _ => 0

abbrev bufTy : (tb : Table) → Fin (tcTables nBuf tb) → BufTy
  | .hbm, ⟨0, _⟩ => ⟨S100000x256, .f32⟩
  | .hbm, ⟨1, _⟩ => ⟨S100001x64, .f32⟩
  | .hbm, ⟨2, _⟩ => ⟨S256x64, .f32⟩
  | .hbm, ⟨3, _⟩ => ⟨S64, .f32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S192x384, .f32⟩
  | .hbm, ⟨9, _⟩ => ⟨S384, .f32⟩
  | .hbm, ⟨10, _⟩ => ⟨S384x64, .f32⟩
  | .hbm, ⟨11, _⟩ => ⟨S64, .f32⟩
  | .hbm, ⟨12, _⟩ => ⟨S100000, .i32⟩
  | .hbm, ⟨13, _⟩ => ⟨S1600000, .i32⟩
  | .hbm, ⟨14, _⟩ => ⟨S1600000, .i32⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S64x256, .f32⟩
  | .hbm, ⟨56, _⟩ => ⟨S64x256, .f32⟩
  | .hbm, ⟨57, _⟩ => ⟨S1x256, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S_, .f32⟩
  | .hbm, ⟨84, _⟩ => ⟨S100000x64, .f32⟩
  | .hbm, ⟨85, _⟩ => ⟨S1600000x1, .i32⟩
  | .hbm, ⟨86, _⟩ => ⟨S100000x64, .f32⟩
  | .hbm, ⟨87, _⟩ => ⟨S64x384, .f32⟩
  | .hbm, ⟨88, _⟩ => ⟨S64x384, .f32⟩
  | .hbm, ⟨89, _⟩ => ⟨S64x384, .f32⟩
  | .hbm, ⟨90, _⟩ => ⟨S1x384, .f32⟩
  | .hbm, ⟨91, _⟩ => ⟨S1x64, .f32⟩
  | .hbm, ⟨92, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S2000x64, .f32⟩
  | .local _ .vmem, ⟨3, _⟩ => ⟨S2000x64, .f32⟩
  | .local _ .vmem, ⟨4, _⟩ => ⟨S256x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x1, .f32⟩
  | .local _ .vmem, ⟨13, _⟩ => ⟨S2000x1, .f32⟩
  | .local _ .vmem, ⟨14, _⟩ => ⟨S64x256, .f32⟩
  | .local _ .vmem, ⟨15, _⟩ => ⟨S64x256, .f32⟩
  | .local _ .vmem, ⟨16, _⟩ => ⟨S1x256, .f32⟩
  | .local _ .vmem, ⟨17, _⟩ => ⟨S256x64, .f32⟩
  | .local _ .vmem, ⟨18, _⟩ => ⟨S1x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x1, .f32⟩
  | .local _ .vmem, ⟨30, _⟩ => ⟨S2000x1, .f32⟩
  | .local _ .vmem, ⟨31, _⟩ => ⟨S64x384, .f32⟩
  | .local _ .vmem, ⟨32, _⟩ => ⟨S64x384, .f32⟩
  | .local _ .vmem, ⟨33, _⟩ => ⟨S64x384, .f32⟩
  | .local _ .vmem, ⟨34, _⟩ => ⟨S1x384, .f32⟩
  | .local _ .vmem, ⟨35, _⟩ => ⟨S384x64, .f32⟩
  | .local _ .vmem, ⟨36, _⟩ => ⟨S1x64, .f32⟩
  | .local _ .vmem, ⟨37, _⟩ => ⟨S2000x64, .f32⟩
  | .local _ .vmem, ⟨38, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_c_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34_0 : Ref sig .tc := ⟨.hbm, 59, rfl⟩
abbrev main_v34_1 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_c_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg10_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem10_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S384x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  shapeCasts_S64_S1x64 : S64.ShapeCasts S1x64
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S128x256_S64x256_0_0 : S128x256.Slices ![0, 0] S64x256
  slices_S128x256_S64x256_64_0 : S128x256.Slices ![64, 0] S64x256
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x64_S2000 : S2000x64.Reduces [1] S2000
  shapeCasts_S2000_S2000x1 : S2000.ShapeCasts S2000x1
  slices_S192x384_S64x384_0_0 : S192x384.Slices ![0, 0] S64x384
  slices_S192x384_S64x384_64_0 : S192x384.Slices ![64, 0] S64x384
  slices_S192x384_S64x384_128_0 : S192x384.Slices ![128, 0] S64x384
  shapeCasts_S384_S1x384 : S384.ShapeCasts S1x384
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S384x64_S384x64_0_0 : ∀ a, (![0, 0] : Fin 2 → Nat) a + S384x64.size a ≤ S384x64.size a
  h_S384x64 : 0 < S384x64.numel
  gather_S100001x64_S100000x1_S100000x64_1_0_n_n_0_1_164_wf : GatherDims.WF S100001x64 S100000x1 S100000x64 [1] [0] [] [0] [] 1 ![1, 64]
  dot_S2000x256_S256x64_S2000x64_1_0_0_1_n_n_wf : DotDims.WF S2000x256 S256x64 S2000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x256_S2000x256_1_0_0_1_n_n_wf : DotDims.WF S2000x64 S64x256 S2000x256 [1] [0] [0] [1] [] []
  dot_S2000x64_S64x384_S2000x384_1_0_0_1_n_n_wf : DotDims.WF S2000x64 S64x384 S2000x384 [1] [0] [0] [1] [] []
  dot_S2000x384_S384x64_S2000x64_1_0_0_1_n_n_wf : DotDims.WF S2000x384 S384x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S64x256.size a
  hwx1_4 : ∀ i : grid1.Coords, EltTy.bits .f32 = 32 ∨ (Rect.block (s := S64x256) S64x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S256x64.size a
  hwx1_6 : ∀ i : grid1.Coords, EltTy.bits .f32 = 32 ∨ (Rect.block (s := S256x64) S256x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S100000x64.size a
  hwx1_9 : ∀ i : grid1.Coords, EltTy.bits .f32 = 32 ∨ (Rect.block (s := S100000x64) S2000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x384.size a ≤ S64x384.size a
  hwx2_4 : ∀ i : grid2.Coords, EltTy.bits .f32 = 32 ∨ (Rect.block (s := S64x384) S64x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x384.size a ≤ S64x384.size a
  hwx2_5 : ∀ i : grid2.Coords, EltTy.bits .f32 = 32 ∨ (Rect.block (s := S64x384) S64x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x384.size a ≤ S64x384.size a
  hwx2_6 : ∀ i : grid2.Coords, EltTy.bits .f32 = 32 ∨ (Rect.block (s := S64x384) S64x384.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x384.size a ≤ S1x384.size a
  hwx2_7 : ∀ i : grid2.Coords, EltTy.bits .f32 = 32 ∨ (Rect.block (s := S1x384) S1x384.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S384x64.size a ≤ S384x64.size a
  hwx2_8 : ∀ i : grid2.Coords, EltTy.bits .f32 = 32 ∨ (Rect.block (s := S384x64) S384x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x64.size a ≤ S100000x64.size a
  hwx2_10 : ∀ i : grid2.Coords, EltTy.bits .f32 = 32 ∨ (Rect.block (s := S100000x64) S2000x64.size (cc2_transform_10 i) (hinb2_10 i)).WholeWords (EltTy.packing .f32)

variable [Facts₀]

def gather_S100001x64_S100000x1_S100000x64_1_0_n_n_0_1_164 : GatherDims S100001x64 S100000x1 S100000x64 where
  offsetDims := [1]
  collapsedSliceDims := [0]
  operandBatchingDims := []
  startIndicesBatchingDims := []
  startIndexMap := [0]
  indexVectorDim := 1
  sliceSizes := ![1, 64]
  wf := gather_S100001x64_S100000x1_S100000x64_1_0_n_n_0_1_164_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x64_S64x384_S2000x384_1_0_0_1_n_n : DotDims S2000x64 S64x384 S2000x384 where
  lhsContracting := [1]
  rhsContracting := [0]
  lhsNonContracting := [0]
  rhsNonContracting := [1]
  lhsBatch := []
  rhsBatch := []
  wf := dot_S2000x64_S64x384_S2000x384_1_0_0_1_n_n_wf
def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S64x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S256x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34_0) S2000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v34_1) S2000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v34_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v55) S64x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S64x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S64x384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S1x384.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S384x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v59) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v60) S2000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x256 : Shape := ⟨2, ![100000, 256]⟩
abbrev S100001x64 : Shape := ⟨2, ![100001, 64]⟩
abbrev S256x64 : Shape := ⟨2, ![256, 64]⟩
abbrev S64 : Shape := ⟨1, ![64]⟩
abbrev S128x256 : Shape := ⟨2, ![128, 256]⟩
abbrev S256 : Shape := ⟨1, ![256]⟩
abbrev S192x384 : Shape := ⟨2, ![192, 384]⟩
abbrev S384 : Shape := ⟨1, ![384]⟩
abbrev S384x64 : Shape := ⟨2, ![384, 64]⟩
abbrev S100000 : Shape := ⟨1, ![100000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S1x64 : Shape := ⟨2, ![1, 64]⟩
abbrev S1600000x1 : Shape := ⟨2, ![1600000, 1]⟩
abbrev S1600000x64 : Shape := ⟨2, ![1600000, 64]⟩
abbrev S100000x128 : Shape := ⟨2, ![100000, 128]⟩
abbrev S1x256 : Shape := ⟨2, ![1, 256]⟩
abbrev S100000x192 : Shape := ⟨2, ![100000, 192]⟩
abbrev S100000x384 : Shape := ⟨2, ![100000, 384]⟩
abbrev S1x384 : Shape := ⟨2, ![1, 384]⟩

abbrev nBuf : Space → Nat
  | .hbm => 170
  | .vmem => 0
  | .smem => 0
  | _ => 0

abbrev hbmTy0_0 (i : Nat) : BufTy := match i % 128 with
  | 0 => ⟨S100000x256, .f32⟩
  | 1 => ⟨S100001x64, .f32⟩
  | 2 => ⟨S256x64, .f32⟩
  | 3 => ⟨S64, .f32⟩
  | 4 => ⟨S128x256, .f32⟩
  | 5 => ⟨S256, .f32⟩
  | 6 => ⟨S256x64, .f32⟩
  | 7 => ⟨S64, .f32⟩
  | 8 => ⟨S192x384, .f32⟩
  | 9 => ⟨S384, .f32⟩
  | 10 => ⟨S384x64, .f32⟩
  | 11 => ⟨S64, .f32⟩
  | 12 => ⟨S100000, .i32⟩
  | 13 => ⟨S1600000, .i32⟩
  | 14 => ⟨S1600000, .i32⟩
  | 15 => ⟨S_, .i32⟩
  | 16 => ⟨S100000, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S_, .f32⟩
  | 33 => ⟨S100000x64, .f32⟩
  | 34 => ⟨S100000x64, .i1⟩
  | 35 => ⟨S_, .f32⟩
  | 36 => ⟨S100000x64, .f32⟩
  | 37 => ⟨S100000x64, .f32⟩
  | 38 => ⟨S100000x64, .f32⟩
  | 39 => ⟨S100000x64, .f32⟩
  | 40 => ⟨S_, .f32⟩
  | 41 => ⟨S1600000, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S100000x64, .f32⟩
  | 67 => ⟨S100000x64, .f32⟩
  | 68 => ⟨S100000x64, .f32⟩
  | 69 => ⟨S100000x128, .f32⟩
  | 70 => ⟨S100000x256, .f32⟩
  | 71 => ⟨S1x256, .f32⟩
  | 72 => ⟨S100000x256, .f32⟩
  | 73 => ⟨S100000x256, .f32⟩
  | 74 => ⟨S_, .f32⟩
  | 75 => ⟨S_, .f32⟩
  | 76 => ⟨S100000x256, .f32⟩
  | 77 => ⟨S100000x256, .i1⟩
  | 78 => ⟨S_, .f32⟩
  | 79 => ⟨S100000x256, .f32⟩
  | 80 => ⟨S100000x256, .f32⟩
  | 81 => ⟨S100000x256, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S_, .f32⟩
  | 88 => ⟨S100000x64, .f32⟩
  | 89 => ⟨S100000x64, .i1⟩
  | 90 => ⟨S_, .f32⟩
  | 91 => ⟨S100000x64, .f32⟩
  | 92 => ⟨S100000x64, .f32⟩
  | 93 => ⟨S100000x64, .f32⟩
  | 94 => ⟨S100000x64, .f32⟩
  | 95 => ⟨S_, .f32⟩
  | 96 => ⟨S100000, .f32⟩
  | 97 => ⟨S100000x1, .f32⟩
  | 98 => ⟨S100000x1, .f32⟩
  | 99 => ⟨S_, .f32⟩
  | 100 => ⟨S100000x1, .f32⟩
  | 101 => ⟨S100000x1, .f32⟩
  | 102 => ⟨S100000x64, .f32⟩
  | 103 => ⟨S100000x64, .f32⟩
  | 104 => ⟨S100000x64, .f32⟩
  | 105 => ⟨S_, .f32⟩
  | 106 => ⟨S100000, .f32⟩
  | 107 => ⟨S100000x1, .f32⟩
  | 108 => ⟨S100000x1, .f32⟩
  | 109 => ⟨S_, .f32⟩
  | 110 => ⟨S100000x1, .f32⟩
  | 111 => ⟨S100000x1, .f32⟩
  | 112 => ⟨S100000x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S_, .i32⟩
  | _ => ⟨S100000x256, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S_, .f32⟩
  | 9 => ⟨S100000x64, .f32⟩
  | 10 => ⟨S1600000x1, .i32⟩
  | 11 => ⟨S100000x64, .f32⟩
  | 12 => ⟨S100000x64, .f32⟩
  | 13 => ⟨S100000x64, .f32⟩
  | 14 => ⟨S100000x64, .f32⟩
  | 15 => ⟨S100000x192, .f32⟩
  | 16 => ⟨S100000x384, .f32⟩
  | 17 => ⟨S1x384, .f32⟩
  | 18 => ⟨S100000x384, .f32⟩
  | 19 => ⟨S100000x384, .f32⟩
  | 20 => ⟨S_, .f32⟩
  | 21 => ⟨S_, .f32⟩
  | 22 => ⟨S100000x384, .f32⟩
  | 23 => ⟨S100000x384, .i1⟩
  | 24 => ⟨S_, .f32⟩
  | 25 => ⟨S100000x384, .f32⟩
  | 26 => ⟨S100000x384, .f32⟩
  | 27 => ⟨S100000x384, .f32⟩
  | 28 => ⟨S100000x64, .f32⟩
  | 29 => ⟨S1x64, .f32⟩
  | 30 => ⟨S100000x64, .f32⟩
  | 31 => ⟨S100000x64, .f32⟩
  | 32 => ⟨S100000x64, .f32⟩
  | 33 => ⟨S_, .f32⟩
  | 34 => ⟨S100000, .f32⟩
  | 35 => ⟨S100000x1, .f32⟩
  | 36 => ⟨S100000x1, .f32⟩
  | 37 => ⟨S_, .f32⟩
  | 38 => ⟨S100000x1, .f32⟩
  | 39 => ⟨S100000x1, .f32⟩
  | 40 => ⟨S100000x64, .f32⟩
  | 41 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_c_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_cst_3 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_4 : Ref sig .tc := ⟨.hbm, 46, rfl⟩
abbrev main_v19 : Ref sig .tc := ⟨.hbm, 47, rfl⟩
abbrev main_v20 : Ref sig .tc := ⟨.hbm, 48, rfl⟩
abbrev main_cst_5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_8 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_10 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v47 : Ref sig .tc := ⟨.hbm, 93, rfl⟩
abbrev main_call3_v0 : Ref sig .tc := ⟨.hbm, 94, rfl⟩
abbrev main_call3_cst : Ref sig .tc := ⟨.hbm, 95, rfl⟩
abbrev main_call3_v1 : Ref sig .tc := ⟨.hbm, 96, rfl⟩
abbrev main_call3_v2 : Ref sig .tc := ⟨.hbm, 97, rfl⟩
abbrev main_v48 : Ref sig .tc := ⟨.hbm, 98, rfl⟩
abbrev main_cst_11 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_call4_v0 : Ref sig .tc := ⟨.hbm, 104, rfl⟩
abbrev main_call4_cst : Ref sig .tc := ⟨.hbm, 105, rfl⟩
abbrev main_call4_v1 : Ref sig .tc := ⟨.hbm, 106, rfl⟩
abbrev main_call4_v2 : Ref sig .tc := ⟨.hbm, 107, rfl⟩
abbrev main_v53 : Ref sig .tc := ⟨.hbm, 108, rfl⟩
abbrev main_cst_12 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_c_13 : Ref sig .tc := ⟨.hbm, 114, rfl⟩
abbrev main_v58 : Ref sig .tc := ⟨.hbm, 115, rfl⟩
abbrev main_v59 : Ref sig .tc := ⟨.hbm, 116, rfl⟩
abbrev main_c_14 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_cst_15 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_c_16 : Ref sig .tc := ⟨.hbm, 127, rfl⟩
abbrev main_v68 : Ref sig .tc := ⟨.hbm, 128, rfl⟩
abbrev main_v69 : Ref sig .tc := ⟨.hbm, 129, rfl⟩
abbrev main_c_17 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_18 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_cst_19 : Ref sig .tc := ⟨.hbm, 148, rfl⟩
abbrev main_call5_cst : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_call6_v0 : Ref sig .tc := ⟨.hbm, 160, rfl⟩
abbrev main_call6_cst : Ref sig .tc := ⟨.hbm, 161, rfl⟩
abbrev main_call6_v1 : Ref sig .tc := ⟨.hbm, 162, rfl⟩
abbrev main_call6_v2 : Ref sig .tc := ⟨.hbm, 163, rfl⟩
abbrev main_v91 : Ref sig .tc := ⟨.hbm, 164, rfl⟩
abbrev main_cst_20 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x64_S100000_d1 : S100000x64.ReducesTo [1] S100000
  h_S_ : 0 < S_.numel
  bcast_S_S100000x1 : S_.BroadcastsInDim S100000x1 (![] : Fin 0 → Fin S100000x1.rank)
  concatenates_S100000x64_S100000x64_S100000x64_S100000x192_d1 : Shape.Concatenates [S100000x64, S100000x64, S100000x64] S100000x192 1
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  bcast_S_S100000x384 : S_.BroadcastsInDim S100000x384 (![] : Fin 0 → Fin S100000x384.rank)
  gather_S100001x64_S100000x1_S100000x64_1_0_n_n_0_1_164_wf : GatherDims.WF S100001x64 S100000x1 S100000x64 [1] [0] [] [0] [] 1 ![1, 64]
  dot_S100000x256_S256x64_S100000x64_1_0_0_1_n_n_wf : DotDims.WF S100000x256 S256x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x256_S100000x256_1_0_0_1_n_n_wf : DotDims.WF S100000x128 S128x256 S100000x256 [1] [0] [0] [1] [] []
  dot_S100000x192_S192x384_S100000x384_1_0_0_1_n_n_wf : DotDims.WF S100000x192 S192x384 S100000x384 [1] [0] [0] [1] [] []
  dot_S100000x384_S384x64_S100000x64_1_0_0_1_n_n_wf : DotDims.WF S100000x384 S384x64 S100000x64 [1] [0] [0] [1] [] []

variable [Facts₀]

def gather_S100001x64_S100000x1_S100000x64_1_0_n_n_0_1_164 : GatherDims S100001x64 S100000x1 S100000x64 where
  offsetDims := [1]
  collapsedSliceDims := [0]
  operandBatchingDims := []
  startIndicesBatchingDims := []
  startIndexMap := [0]
  indexVectorDim := 1
  sliceSizes := ![1, 64]
  wf := gather_S100001x64_S100000x1_S100000x64_1_0_n_n_0_1_164_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x192_S192x384_S100000x384_1_0_0_1_n_n : DotDims S100000x192 S192x384 S100000x384 where
  lhsContracting := [1]
  rhsContracting := [0]
  lhsNonContracting := [0]
  rhsNonContracting := [1]
  lhsBatch := []
  rhsBatch := []
  wf := dot_S100000x192_S192x384_S100000x384_1_0_0_1_n_n_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf

class Facts : Prop extends Facts₀ where

variable [Facts]
-- ==== Proof.KerRun.lean ====
import proofs.«157232_j15032385536064_1_alg».proof.Proof.Gen.KernelIdeal.Frame

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run with its result named

The program's last region writes its output window (window 10 of the third pipeline) into the buffer the program
returns. The run's contents at the last boundary are known by name, so the returned buffer ends at what the third
pipeline leaves in its output array, and every argument ends as launched. -/

/-- The third pipeline's output array is the returned buffer. -/
theorem arrRef2_out : Pipeline.arrRef spec2 (10 : Fin cfg2.W) = main_v60 := by decide

/-- At the last boundary the returned buffer holds what the third pipeline leaves in its output array. -/
theorem W6_result (c : Dev nD) : W6 m ρ c (Proc.devRef .tc main_v60) = (dat2 (V5 m ρ) c).arrAt 10 cfg2.N :=
  W6_arr m ρ c 10

-- the launch theorem's implicit arguments are found by unifying its conclusion with this one, which takes unfolding
-- plain definitions in a metavariable's type
set_option backward.isDefEq.respectTransparency.types false in
/-- From any memory with zero counters, every weakly fair execution of the program on the TensorCores terminates,
    nothing faulting; in every final state the returned buffer holds what the third pipeline leaves in its output
    array (from the contents that region is entered at), and every argument array is as launched. -/
theorem run_named : θ_run defs (onTc (τ := τ) (main (F := F))) ⟨m, fun _ => 0, ρ⟩ (fun r => ∀ c : Dev nD,
      r.2.mem ((c.tc : Thread nD τ).loc main_v60) = (Gen.dat2 (Gen.V5 m ρ) c).arrAt 10 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v60 (by decide))).trans (W6_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

/-! # What each region finds in its input arrays

Between the regions the program runs host operations. Each region's input arrays are therefore known as terms of the
launch memory's argument arrays and of the previous regions' output arrays. -/

/-! ## What the host stretches write, and what survives to each boundary -/

/-- The buffers the first host stretch writes, in order. -/
abbrev hostOps0_W : List (Ref sig .tc) := [main_c, main_v0, main_v1, main_c_0, main_v2, main_v3, main_c_1, main_v4, main_v5, main_v6, main_v7, main_v8, main_v9]
theorem hostOps0_writes : (hostOps0 : List (HloOp τ sig (Elt F))).Forall
    fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- The buffers the second host stretch writes, in order. -/
abbrev hostOps1_W : List (Ref sig .tc) := [main_cst, main_v11, main_cst_2, main_v12, main_v13, main_v14, main_cst_3, main_v15, main_v16, main_cst_4, main_v17, main_v18, main_v19, main_c_5, main_v20, main_v21, main_c_6, main_v22, main_v23, main_v24, main_v25, main_v26, main_cst_7, main_v27, main_v28, main_v29, main_v30, main_v31, main_v32, main_v33]
theorem hostOps1_writes : (hostOps1 : List (HloOp τ sig (Elt F))).Forall
    fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- The buffers the third host stretch writes, in order. -/
abbrev hostOps2_W : List (Ref sig .tc) := [main_c_8, main_v35, main_v36, main_c_9, main_v37, main_v38, main_v39, main_v40, main_v41, main_cst_10, main_v42, main_v43, main_v44, main_c_11, main_v45, main_v46, main_c_12, main_v47, main_v48, main_v49, main_v50, main_v51, main_cst_13, main_v52, main_v53, main_v54, main_v55, main_v56, main_v57, main_v58, main_v59]
theorem hostOps2_writes : (hostOps2 : List (HloOp τ sig (Elt F))).Forall
    fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

section Keep
variable (c : Dev nD) (r : Ref sig .tc)

/-- A buffer the first stretch does not write holds its launch contents when region 0 is entered. -/
theorem W1_keep (h0 : r ∉ hostOps0_W) : W1 m ρ c (Proc.devRef .tc r) = m ((c.tc : Thread nD τ).loc r) :=
  StableHlo.after_of_writes_sub hostOps0 _ hostOps0_writes h0
/-- … and, when it is no array of region 0, at that region's exit, -/
theorem W2_keep (h0 : r ∉ hostOps0_W) (n0 : ∀ w, Pipeline.arrRef spec0 w ≠ r) :
    W2 m ρ c (Proc.devRef .tc r) = m ((c.tc : Thread nD τ).loc r) :=
  (W2_of_ne m ρ c r n0).trans (W1_keep m ρ c r h0)
/-- … when the second stretch does not write it either, at region 1's entry, -/
theorem W3_keep (h0 : r ∉ hostOps0_W) (n0 : ∀ w, Pipeline.arrRef spec0 w ≠ r) (h1 : r ∉ hostOps1_W) :
    W3 m ρ c (Proc.devRef .tc r) = m ((c.tc : Thread nD τ).loc r) :=
  (StableHlo.after_of_writes_sub hostOps1 _ hostOps1_writes h1).trans (W2_keep m ρ c r h0 n0)
/-- … when it is no array of region 1, at that region's exit, -/
theorem W4_keep (h0 : r ∉ hostOps0_W) (n0 : ∀ w, Pipeline.arrRef spec0 w ≠ r) (h1 : r ∉ hostOps1_W)
    (n1 : ∀ w, Pipeline.arrRef spec1 w ≠ r) : W4 m ρ c (Proc.devRef .tc r) = m ((c.tc : Thread nD τ).loc r) :=
  (W4_of_ne m ρ c r n1).trans (W3_keep m ρ c r h0 n0 h1)
/-- … and when the third stretch does not write it, at region 2's entry. -/
theorem W5_keep (h0 : r ∉ hostOps0_W) (n0 : ∀ w, Pipeline.arrRef spec0 w ≠ r) (h1 : r ∉ hostOps1_W)
    (n1 : ∀ w, Pipeline.arrRef spec1 w ≠ r) (h2 : r ∉ hostOps2_W) :
    W5 m ρ c (Proc.devRef .tc r) = m ((c.tc : Thread nD τ).loc r) :=
  (StableHlo.after_of_writes_sub hostOps2 _ hostOps2_writes h2).trans (W4_keep m ρ c r h0 n0 h1 n1)

end Keep

/-! ## The host stretches' chains as functions -/

/-- The node embeddings region 0 reads: per node, row `idx + 1` of the embedding table, a negative row number
    wrapped by the table's length (the gather's index normalization). -/
def nembG (a1 : FVec F S100001x64 .f32) (a12 : IVec S100000 32) : FVec F S100000x64 .f32 :=
  Host.gather gather_S100001x64_S100000x1_S100000x64_1_0_n_n_0_1_164 a1
    (broadcastInDim S100000x1 ![0] bcast_S100000_S100000x1_0
      (select
        (cmpi CmpIPredicate.slt
          (addi a12 (broadcastInDim S100000 ![] bcast_S_S100000 (constantI S_ 32 1#32)))
          (broadcastInDim S100000 ![] bcast_S_S100000 (constantI S_ 32 0#32)))
        (addi
          (addi a12 (broadcastInDim S100000 ![] bcast_S_S100000 (constantI S_ 32 1#32)))
          (broadcastInDim S100000 ![] bcast_S_S100000 (constantI S_ 32 100001#32)))
        (addi a12 (broadcastInDim S100000 ![] bcast_S_S100000 (constantI S_ 32 1#32)))))

/-- The sum over edges into each node: the rows of `x` gathered at the edges' source nodes (a negative node number
    wrapped by the node count) and added, edge by edge, into the row of the edge's target node, from zero. -/
def segsum (x : FVec F S100000x64 .f32) (a13 a14 : IVec S1600000 32) : FVec F S100000x64 .f32 :=
  Host.scatterAdd (F := F) scatter_S100000x64_S1600000x1_S1600000x64_1_0_0_1
    (broadcastInDim S100000x64 ![] bcast_S_S100000x64 (constant (F := F) S_ .f32 0x00000000#32))
    (broadcastInDim S1600000x1 ![0] bcast_S1600000_S1600000x1_0 a14)
    (Host.gather gather_S100000x64_S1600000x1_S1600000x64_1_0_n_n_0_1_164 x
      (broadcastInDim S1600000x1 ![0] bcast_S1600000_S1600000x1_0
        (select
          (cmpi CmpIPredicate.slt a13 (broadcastInDim S1600000 ![] bcast_S_S1600000 (constantI S_ 32 0#32)))
          (addi a13 (broadcastInDim S1600000 ![] bcast_S_S1600000 (constantI S_ 32 100000#32)))
          a13)))

/-- The degree weight per node, as a column: the number of edges into the node (ones added per edge from zero), less
    one, and at least one. -/
def wden (a14 : IVec S1600000 32) : FVec F S100000x1 .f32 :=
  broadcastInDim S100000x1 ![0] bcast_S100000_S100000x1_0
    (maximumf (F := F)
      (subf (F := F)
        (Host.scatterAdd (F := F) scatter_S100000_S1600000x1_S1600000_n_0_0_1
          (broadcastInDim S100000 ![] bcast_S_S100000 (constant (F := F) S_ .f32 0x00000000#32))
          (broadcastInDim S1600000x1 ![0] bcast_S1600000_S1600000x1_0 a14)
          (broadcastInDim S1600000 ![] bcast_S_S1600000 (constant (F := F) S_ .f32 0x3F800000#32)))
        (broadcastInDim S100000 ![] bcast_S_S100000 (constant (F := F) S_ .f32 0x3F800000#32)))
      (broadcastInDim S100000 ![] bcast_S_S100000 (constant (F := F) S_ .f32 0x3F800000#32)))

/-! ## Region 0's input arrays (entered at `Gen.V1`) -/

section Entry0
variable (c : Dev nD)

/-- Window 0: the node features as launched. -/
theorem entry0_w0 : Gen.V1 m ρ c main_arg0 = (m ((c.tc : Thread nD τ).loc main_arg0)) :=
  W1_keep m ρ c main_arg0 (by decide)

/-- Window 1: the gathered node embeddings. -/
theorem entry0_w1 : Gen.V1 m ρ c main_v8 = nembG (m ((c.tc : Thread nD τ).loc main_arg1)) (m ((c.tc : Thread nD τ).loc main_arg12)) := by
  show StableHlo.after hostOps0 (W0 m ρ c) (Proc.devRef .tc main_v8) = _
  after_results_simp; rfl

/-- Window 2: the first weight matrix as launched. -/
theorem entry0_w2 : Gen.V1 m ρ c main_arg2 = (m ((c.tc : Thread nD τ).loc main_arg2)) :=
  W1_keep m ρ c main_arg2 (by decide)

/-- Window 3: the first bias as one row. -/
theorem entry0_w3 : Gen.V1 m ρ c main_v9
    = shapeCast S1x64 ((m ((c.tc : Thread nD τ).loc main_arg3)) : FVec F S64 .f32) shapeCasts_S64_S1x64 := by
  show StableHlo.after hostOps0 (W0 m ρ c) (Proc.devRef .tc main_v9) = _
  after_results_simp; rfl

end Entry0

/-! ## Region 1's input arrays (entered at `Gen.V3`) -/

section Entry1
variable (c : Dev nD)

/-- Region 0's output buffer at its exit: what its pipeline leaves in its output array. -/
theorem W2_out : W2 m ρ c (Proc.devRef .tc main_v10) = (Gen.dat0 (Gen.V1 m ρ) c).arrAt 4 cfg0.N :=
  W2_arr m ρ c 4

/-- Window 0: region 0's output. -/
theorem entry1_w0 : Gen.V3 m ρ c main_v10 = (Gen.dat0 (Gen.V1 m ρ) c).arrAt 4 cfg0.N :=
  (StableHlo.after_of_writes_sub hostOps1 _ hostOps1_writes (by decide)).trans (W2_out m ρ c)

/-- Window 1: the edge sums of region 0's output. -/
theorem entry1_w1 : Gen.V3 m ρ c main_v29 = segsum ((Gen.dat0 (Gen.V1 m ρ) c).arrAt 4 cfg0.N) (m ((c.tc : Thread nD τ).loc main_arg13)) (m ((c.tc : Thread nD τ).loc main_arg14)) := by
  have hx := W2_out m ρ c
  have h13 := W2_keep m ρ c main_arg13 (by decide) (by decide)
  have h14 := W2_keep m ρ c main_arg14 (by decide) (by decide)
  show StableHlo.after hostOps1 (W2 m ρ c) (Proc.devRef .tc main_v29) = _
  after_results_simp
  rw [hx, h13, h14]; rfl

/-- Window 2: the degree weights. -/
theorem entry1_w2 : Gen.V3 m ρ c main_v19 = wden (m ((c.tc : Thread nD τ).loc main_arg14)) := by
  have h14 := W2_keep m ρ c main_arg14 (by decide) (by decide)
  show StableHlo.after hostOps1 (W2 m ρ c) (Proc.devRef .tc main_v19) = _
  after_results_simp
  rw [h14]; rfl

/-- Window 3: the upper half of the second weight matrix. -/
theorem entry1_w3 : Gen.V3 m ρ c main_v30
    = extractStridedSlice S64x256 ![0, 0] ((m ((c.tc : Thread nD τ).loc main_arg4)) : FVec F S128x256 .f32) slices_S128x256_S64x256_0_0 := by
  have h4 := W2_keep m ρ c main_arg4 (by decide) (by decide)
  show StableHlo.after hostOps1 (W2 m ρ c) (Proc.devRef .tc main_v30) = _
  after_results_simp
  rw [h4]

/-- Window 4: its lower half. -/
theorem entry1_w4 : Gen.V3 m ρ c main_v31
    = extractStridedSlice S64x256 ![64, 0] ((m ((c.tc : Thread nD τ).loc main_arg4)) : FVec F S128x256 .f32) slices_S128x256_S64x256_64_0 := by
  have h4 := W2_keep m ρ c main_arg4 (by decide) (by decide)
  show StableHlo.after hostOps1 (W2 m ρ c) (Proc.devRef .tc main_v31) = _
  after_results_simp
  rw [h4]

/-- Window 5: the second bias as one row. -/
theorem entry1_w5 : Gen.V3 m ρ c main_v32
    = shapeCast S1x256 ((m ((c.tc : Thread nD τ).loc main_arg5)) : FVec F S256 .f32) shapeCasts_S256_S1x256 := by
  have h5 := W2_keep m ρ c main_arg5 (by decide) (by decide)
  show StableHlo.after hostOps1 (W2 m ρ c) (Proc.devRef .tc main_v32) = _
  after_results_simp
  rw [h5]; rfl

/-- Window 6: the third weight matrix as launched. -/
theorem entry1_w6 : Gen.V3 m ρ c main_arg6 = (m ((c.tc : Thread nD τ).loc main_arg6)) :=
  W3_keep m ρ c main_arg6 (by decide) (by decide) (by decide)

/-- Window 7: the third bias as one row. -/
theorem entry1_w7 : Gen.V3 m ρ c main_v33
    = shapeCast S1x64 ((m ((c.tc : Thread nD τ).loc main_arg7)) : FVec F S64 .f32) shapeCasts_S64_S1x64 := by
  have h7 := W2_keep m ρ c main_arg7 (by decide) (by decide)
  show StableHlo.after hostOps1 (W2 m ρ c) (Proc.devRef .tc main_v33) = _
  after_results_simp
  rw [h7]; rfl

end Entry1

/-! ## Region 2's input arrays (entered at `Gen.V5`) -/

section Entry2
variable (c : Dev nD)

/-- Region 1's two output buffers at its exit: what its pipeline leaves in its output arrays. -/
theorem W4_out0 : W4 m ρ c (Proc.devRef .tc main_v34_0) = (Gen.dat1 (Gen.V3 m ρ) c).arrAt 8 cfg1.N :=
  W4_arr m ρ c 8
theorem W4_out1 : W4 m ρ c (Proc.devRef .tc main_v34_1) = (Gen.dat1 (Gen.V3 m ρ) c).arrAt 9 cfg1.N :=
  W4_arr m ρ c 9

/-- Window 0: region 1's first output. -/
theorem entry2_w0 : Gen.V5 m ρ c main_v34_0 = (Gen.dat1 (Gen.V3 m ρ) c).arrAt 8 cfg1.N :=
  (StableHlo.after_of_writes_sub hostOps2 _ hostOps2_writes (by decide)).trans (W4_out0 m ρ c)

/-- Window 1: the edge sums of region 1's first output. -/
theorem entry2_w1 : Gen.V5 m ρ c main_v44 = segsum ((Gen.dat1 (Gen.V3 m ρ) c).arrAt 8 cfg1.N) (m ((c.tc : Thread nD τ).loc main_arg13)) (m ((c.tc : Thread nD τ).loc main_arg14)) := by
  have hx := W4_out0 m ρ c
  have h13 := W4_keep m ρ c main_arg13 (by decide) (by decide) (by decide) (by decide)
  have h14 := W4_keep m ρ c main_arg14 (by decide) (by decide) (by decide) (by decide)
  show StableHlo.after hostOps2 (W4 m ρ c) (Proc.devRef .tc main_v44) = _
  after_results_simp
  rw [hx, h13, h14]; rfl

/-- Window 2: the edge sums of region 1's second output. -/
theorem entry2_w2 : Gen.V5 m ρ c main_v54 = segsum ((Gen.dat1 (Gen.V3 m ρ) c).arrAt 9 cfg1.N) (m ((c.tc : Thread nD τ).loc main_arg13)) (m ((c.tc : Thread nD τ).loc main_arg14)) := by
  have hx := W4_out1 m ρ c
  have h13 := W4_keep m ρ c main_arg13 (by decide) (by decide) (by decide) (by decide)
  have h14 := W4_keep m ρ c main_arg14 (by decide) (by decide) (by decide) (by decide)
  show StableHlo.after hostOps2 (W4 m ρ c) (Proc.devRef .tc main_v54) = _
  after_results_simp
  rw [hx, h13, h14]; rfl

/-- Window 3: the degree weights, computed before region 1, which only reads them. -/
theorem entry2_w3 : Gen.V5 m ρ c main_v19 = wden (m ((c.tc : Thread nD τ).loc main_arg14)) :=
  calc Gen.V5 m ρ c main_v19
    _ = W4 m ρ c (Proc.devRef .tc main_v19) := StableHlo.after_of_writes_sub hostOps2 _ hostOps2_writes (by decide)
    _ = Gen.V3 m ρ c main_v19 :=
        (W4_arr m ρ c 2).trans (((dat1 (V3 m ρ) c).arrAt_in 2 rfl _).trans (A_eq1 (V3 m ρ) c 2))
    _ = wden (m ((c.tc : Thread nD τ).loc main_arg14)) := entry1_w2 m ρ c

/-- Window 4: the first third of the fourth weight matrix's rows. -/
theorem entry2_w4 : Gen.V5 m ρ c main_v55
    = extractStridedSlice S64x384 ![0, 0] ((m ((c.tc : Thread nD τ).loc main_arg8)) : FVec F S192x384 .f32) slices_S192x384_S64x384_0_0 := by
  have h8 := W4_keep m ρ c main_arg8 (by decide) (by decide) (by decide) (by decide)
  show StableHlo.after hostOps2 (W4 m ρ c) (Proc.devRef .tc main_v55) = _
  after_results_simp
  rw [h8]

/-- Window 5: the second third. -/
theorem entry2_w5 : Gen.V5 m ρ c main_v56
    = extractStridedSlice S64x384 ![64, 0] ((m ((c.tc : Thread nD τ).loc main_arg8)) : FVec F S192x384 .f32) slices_S192x384_S64x384_64_0 := by
  have h8 := W4_keep m ρ c main_arg8 (by decide) (by decide) (by decide) (by decide)
  show StableHlo.after hostOps2 (W4 m ρ c) (Proc.devRef .tc main_v56) = _
  after_results_simp
  rw [h8]

/-- Window 6: the last third. -/
theorem entry2_w6 : Gen.V5 m ρ c main_v57
    = extractStridedSlice S64x384 ![128, 0] ((m ((c.tc : Thread nD τ).loc main_arg8)) : FVec F S192x384 .f32) slices_S192x384_S64x384_128_0 := by
  have h8 := W4_keep m ρ c main_arg8 (by decide) (by decide) (by decide) (by decide)
  show StableHlo.after hostOps2 (W4 m ρ c) (Proc.devRef .tc main_v57) = _
  after_results_simp
  rw [h8]

/-- Window 7: the fourth bias as one row. -/
theorem entry2_w7 : Gen.V5 m ρ c main_v58
    = shapeCast S1x384 ((m ((c.tc : Thread nD τ).loc main_arg9)) : FVec F S384 .f32) shapeCasts_S384_S1x384 := by
  have h9 := W4_keep m ρ c main_arg9 (by decide) (by decide) (by decide) (by decide)
  show StableHlo.after hostOps2 (W4 m ρ c) (Proc.devRef .tc main_v58) = _
  after_results_simp
  rw [h9]; rfl

/-- Window 8: the fifth weight matrix as launched. -/
theorem entry2_w8 : Gen.V5 m ρ c main_arg10 = (m ((c.tc : Thread nD τ).loc main_arg10)) :=
  W5_keep m ρ c main_arg10 (by decide) (by decide) (by decide) (by decide) (by decide)

/-- Window 9: the fifth bias as one row. -/
theorem entry2_w9 : Gen.V5 m ρ c main_v59
    = shapeCast S1x64 ((m ((c.tc : Thread nD τ).loc main_arg11)) : FVec F S64 .f32) shapeCasts_S64_S1x64 := by
  have h11 := W4_keep m ρ c main_arg11 (by decide) (by decide) (by decide) (by decide)
  show StableHlo.after hostOps2 (W4 m ρ c) (Proc.devRef .tc main_v59) = _
  after_results_simp
  rw [h11]; rfl

end Entry2

/-! ## The windows' arrays by name

Each window's array is, by computation, the buffer named in the facts above: a fact stated at the named buffer is by
the same computation the fact at the window's array. -/

example : Pipeline.arrRef spec0 0 = main_arg0 ∧ Pipeline.arrRef spec0 1 = main_v8 ∧ Pipeline.arrRef spec0 2 = main_arg2
    ∧ Pipeline.arrRef spec0 3 = main_v9 := ⟨rfl, rfl, rfl, rfl⟩
example : Pipeline.arrRef spec1 0 = main_v10 ∧ Pipeline.arrRef spec1 1 = main_v29 ∧ Pipeline.arrRef spec1 2 = main_v19
    ∧ Pipeline.arrRef spec1 3 = main_v30 ∧ Pipeline.arrRef spec1 4 = main_v31 ∧ Pipeline.arrRef spec1 5 = main_v32
    ∧ Pipeline.arrRef spec1 6 = main_arg6 ∧ Pipeline.arrRef spec1 7 = main_v33 := ⟨rfl, rfl, rfl, rfl, rfl, rfl, rfl, rfl⟩
example : Pipeline.arrRef spec2 0 = main_v34_0 ∧ Pipeline.arrRef spec2 1 = main_v44 ∧ Pipeline.arrRef spec2 2 = main_v54
    ∧ Pipeline.arrRef spec2 3 = main_v19 ∧ Pipeline.arrRef spec2 4 = main_v55 ∧ Pipeline.arrRef spec2 5 = main_v56
    ∧ Pipeline.arrRef spec2 6 = main_v57 ∧ Pipeline.arrRef spec2 7 = main_v58 ∧ Pipeline.arrRef spec2 8 = main_arg10
    ∧ Pipeline.arrRef spec2 9 = main_v59 := ⟨rfl, rfl, rfl, rfl, rfl, rfl, rfl, rfl, rfl, rfl⟩
example (c : Dev nD) : Gen.V5 m ρ c (Pipeline.arrRef spec2 2)
    = segsum ((Gen.dat1 (Gen.V3 m ρ) c).arrAt 9 cfg1.N) (m ((c.tc : Thread nD τ).loc main_arg13))
        (m ((c.tc : Thread nD τ).loc main_arg14)) := entry2_w2 m ρ c

end Cert.KernelIdeal.KerRun

end
-- ==== Proof.Spec.lean ====
/-
  The per-row mathematics of the three dense stages of a two-layer graph network, over the extended reals.

  Every node (row) r of the graph carries a feature row; the three stages are row-wise:
    * the input stage:   e + φ(x·W + b), with φ the leaky rectifier of slope 0.1;
    * the first layer:   the neighbourhood mean  a = (s − h) / w  (s the sum over in-edges, w the clamped
      in-degree), the hidden row z = φ(h·W₁ᵃ + a·W₁ᵇ + b₁), the new feature row N(φ(z·W₂ + b₂)) and the
      residual row N(a), where N divides a row by its Euclidean norm clamped below at 10⁻⁶;
    * the second layer:  z = φ(h·Wʰ + a·Wᵃ + r·Wʳ + b₁) and the output N(z·W₂ + b₂).
  Sums over the feature axes are finite sums in the commutative monoid (EReal, +); the constants 0, 0.1 and
  10⁻⁶ are kept as the single-precision words both programs carry, never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The leaky rectifier of slope 0.1: x where x ≥ 0, 0.1·x elsewhere. -/
def lrelu (x : EReal) : EReal :=
  Scalar.select (Ideal.cmp .oge x (Ideal.ofBits .f32 0x00000000#32)) x (Ideal.ofBits .f32 0x3DCCCCCD#32 * x)

/-- A row times a matrix: the entry q of x·W. -/
def rowMul {K N : ℕ} (x : Fin K → EReal) (W : Fin K → Fin N → EReal) (q : Fin N) : EReal :=
  ∑ k : Fin K, x k * W k q

/-- A row divided by its Euclidean norm, the norm clamped below at 10⁻⁶. -/
def l2row {N : ℕ} (x : Fin N → EReal) (q : Fin N) : EReal :=
  Ideal.div (x q) (max (Ideal.sqrt (∑ k : Fin N, x k * x k)) (Ideal.ofBits .f32 0x358637BD#32))

/-- The input stage at one row: e + φ(x·W + b). -/
def hRow (x : Fin 256 → EReal) (e : Fin 64 → EReal) (W : Fin 256 → Fin 64 → EReal) (b : Fin 64 → EReal)
    (q : Fin 64) : EReal :=
  e q + lrelu (rowMul x W q + b q)

/-- The neighbourhood mean at one row: (s − h) / w. -/
def adjRow (s h : Fin 64 → EReal) (w : EReal) (q : Fin 64) : EReal :=
  Ideal.div (s q - h q) w

/-- The first layer's hidden row: φ(h·Wᵃ + a·Wᵇ + b). -/
def z0Row (h a : Fin 64 → EReal) (Wa Wb : Fin 64 → Fin 256 → EReal) (b : Fin 256 → EReal) (j : Fin 256) : EReal :=
  lrelu (rowMul h Wa j + rowMul a Wb j + b j)

/-- The first layer's pre-normalisation row: φ(z·W₂ + b₂). -/
def p0Row (z : Fin 256 → EReal) (W2 : Fin 256 → Fin 64 → EReal) (b2 : Fin 64 → EReal) (q : Fin 64) : EReal :=
  lrelu (rowMul z W2 q + b2 q)

/-- The first layer's new feature row. -/
def new0Row (h s : Fin 64 → EReal) (w : EReal) (Wa Wb : Fin 64 → Fin 256 → EReal) (b1 : Fin 256 → EReal)
    (W2 : Fin 256 → Fin 64 → EReal) (b2 : Fin 64 → EReal) (q : Fin 64) : EReal :=
  l2row (p0Row (z0Row h (adjRow s h w) Wa Wb b1) W2 b2) q

/-- The first layer's residual row. -/
def res0Row (h s : Fin 64 → EReal) (w : EReal) (q : Fin 64) : EReal :=
  l2row (adjRow s h w) q

/-- The second layer's hidden row: φ(h·Wʰ + a·Wᵃ + r·Wʳ + b). -/
def z1Row (h a r : Fin 64 → EReal) (Wh Wa Wr : Fin 64 → Fin 384 → EReal) (b : Fin 384 → EReal) (j : Fin 384) : EReal :=
  lrelu (rowMul h Wh j + rowMul a Wa j + rowMul r Wr j + b j)

/-- The second layer's pre-normalisation row: z·W₂ + b₂ (no rectifier). -/
def p1Row (z : Fin 384 → EReal) (W2 : Fin 384 → Fin 64 → EReal) (b2 : Fin 64 → EReal) (q : Fin 64) : EReal :=
  rowMul z W2 q + b2 q

/-- The second layer's output row. -/
def out1Row (h s r : Fin 64 → EReal) (w : EReal) (Wh Wa Wr : Fin 64 → Fin 384 → EReal) (b1 : Fin 384 → EReal)
    (W2 : Fin 384 → Fin 64 → EReal) (b2 : Fin 64 → EReal) (q : Fin 64) : EReal :=
  l2row (p1Row (z1Row h (adjRow s h w) r Wh Wa Wr b1) W2 b2) q

/-- A sum over a concatenated feature axis of 64 + 64 splits into the two halves' sums. -/
theorem sum_split2 (f : Fin 128 → EReal) :
    ∑ k : Fin 128, f k = (∑ k : Fin 64, f (Fin.castAdd 64 k)) + ∑ k : Fin 64, f (Fin.natAdd 64 k) :=
  Fin.sum_univ_add (a := 64) (b := 64) f

/-- A sum over a concatenated feature axis of 64 + 64 + 64 splits into the three parts' sums. -/
theorem sum_split3 (f : Fin 192 → EReal) :
    ∑ k : Fin 192, f k = (∑ k : Fin 64, f (Fin.castAdd 64 (Fin.castAdd 64 k)))
      + (∑ k : Fin 64, f (Fin.castAdd 64 (Fin.natAdd 64 k))) + ∑ k : Fin 64, f (Fin.natAdd 128 k) := by
  rw [Fin.sum_univ_add (a := 128) (b := 64) f, Fin.sum_univ_add (a := 64) (b := 64) fun k => f (Fin.castAdd 64 k)]

end Cert.Spec

end
-- ==== Proof.LibPlainMatmul.lean ====
/-
  A plain matrix product read at an index. For dimension numbers that contract the left operand's columns with the
  right operand's rows and have no batch axis, the product of an [M, K] by a [K, N] array into a zero accumulator,
  read at (p, q) over the extended reals, is the textbook sum over k of lhs (p, k) · rhs (k, q).
-/
import Idealize.ShloMosaic.PureOps.Ideal.Laws
import Idealize.ShloMosaic.Lib.ValueIdx

noncomputable section

namespace Idealize.ShloMosaic.PlainMatmul

open Idealize.ShloMosaic Idealize.ShloMosaic.ValueIdx

variable {M K N : Nat}

private theorem val_congr {n : Nat} {α : Fin n → Type} (f : (i : Fin n) → α i) (g : ∀ i, α i → Nat)
    (x y : Nat) (hx : x < n) (hy : y < n) (h : x = y) : g ⟨x, hx⟩ (f ⟨x, hx⟩) = g ⟨y, hy⟩ (f ⟨y, hy⟩) := by
  subst h; rfl

/-- The left operand's row coordinate is the output's row coordinate. -/
theorem lhsIdx_row (d : DotDims ⟨2, ![M, K]⟩ ⟨2, ![K, N]⟩ ⟨2, ![M, N]⟩)
    (hln : d.lhsNonContracting = [0]) (hlb : d.lhsBatch = [])
    (j : (⟨2, ![M, N]⟩ : Shape).Idx) (κ : d.contr.Idx) :
    (d.lhsIdx j κ (0 : Fin (⟨2, ![M, K]⟩ : Shape).rank)).val = (j (0 : Fin (⟨2, ![M, N]⟩ : Shape).rank)).val := by
  unfold DotDims.lhsIdx
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  rw [dif_neg hb, dif_pos hn]
  simp only [Fin.val_cast]
  exact val_congr j (fun _ v => v.val) _ 0 _ Nat.zero_lt_two (by simp [hlb, hln])

/-- The right operand's column coordinate is the output's column coordinate. -/
theorem rhsIdx_col (d : DotDims ⟨2, ![M, K]⟩ ⟨2, ![K, N]⟩ ⟨2, ![M, N]⟩)
    (hrn : d.rhsNonContracting = [1]) (hrb : d.rhsBatch = []) (hlb : d.lhsBatch = []) (hln : d.lhsNonContracting = [0])
    (j : (⟨2, ![M, N]⟩ : Shape).Idx) (κ : d.contr.Idx) :
    (d.rhsIdx j κ (1 : Fin (⟨2, ![K, N]⟩ : Shape).rank)).val = (j (1 : Fin (⟨2, ![M, N]⟩ : Shape).rank)).val := by
  unfold DotDims.rhsIdx
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  rw [dif_neg hb, dif_pos hn]
  simp only [Fin.val_cast]
  exact val_congr j (fun _ v => v.val) _ 1 _ Nat.one_lt_two (by simp [hlb, hln, hrn])

/-- The left operand's index at output (p, q) and contraction position k is (p, k). -/
theorem lhsIdx_plain (d : DotDims ⟨2, ![M, K]⟩ ⟨2, ![K, N]⟩ ⟨2, ![M, N]⟩)
    (hlc : d.lhsContracting = [1]) (hln : d.lhsNonContracting = [0]) (hlb : d.lhsBatch = [])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, _⟩ => exact lhsIdx_row d hln hlb (ix2 p q) _
  | ⟨1, _⟩ =>
    exact (d.lhsIdx_val_of_single (cl := (1 : Fin (⟨2, ![M, K]⟩ : Shape).rank)) hlc _ _).trans (contrEquiv1_symm_val d K hr hs k)

/-- The right operand's index at output (p, q) and contraction position k is (k, q). -/
theorem rhsIdx_plain (d : DotDims ⟨2, ![M, K]⟩ ⟨2, ![K, N]⟩ ⟨2, ![M, N]⟩)
    (hrc : d.rhsContracting = [0]) (hrn : d.rhsNonContracting = [1]) (hrb : d.rhsBatch = [])
    (hlb : d.lhsBatch = []) (hln : d.lhsNonContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, _⟩ =>
    exact (d.rhsIdx_val_of_single (cr := (0 : Fin (⟨2, ![K, N]⟩ : Shape).rank)) hrc _ _).trans (contrEquiv1_symm_val d K hr hs k)
  | ⟨1, _⟩ => exact rhsIdx_col d hrn hrb hlb hln (ix2 p q) _

/-- The product into a zero accumulator at (p, q) is the sum over k of lhs (p, k) · rhs (k, q). -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  rw [lhsIdx_plain d hlc hln hlb hr hs p q k, rhsIdx_plain d hrc hrn hrb hlb hln hr hs p q k]

end Idealize.ShloMosaic.PlainMatmul

end
-- ==== Proof.LibColumnBroadcast.lean ====
/-
  A column broadcast along the rows: an [a, 1] array broadcast to [a, b] reads, at (i, j), the operand's entry (i, 0).
-/
import Idealize.ShloMosaic.Lib.Pipeline.Value
import Idealize.ShloMosaic.Lib.ValueIdx

namespace Cert.Lib.ColumnBroadcast

open Idealize.ShloMosaic Idealize.ShloMosaic.ValueIdx

variable {α : Type}

/-- An [a, 1] column broadcast to [a, b] reads, at (i, j), the operand at (i, 0): the row coordinate is kept (also when
    a = 1, where the only row is row 0) and the unit axis is read at its one position. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.ColumnBroadcast
-- ==== Proof.LibColumnCast.lean ====
/-
  A vector and a one-column matrix hold the same entries: the shape casts between [a] and [a, 1], read at an index.
  (The casts a row sum kept as a column meets: the sum is taken as a vector, stored as a column, and read back as a vector.)
-/
import Idealize.ShloMosaic.Lib.ValueLayout
import Idealize.ShloMosaic.Lib.Pipeline.Value

namespace Cert.LibColumnCast

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnCast
-- ==== Proof.KerPay.lean ====
/-
  The three kernel bodies read at one entry: the value a body stores at row p, column q of its output block is
  the row-wise stage of Spec.lean applied to row p of the row-blocked operands and to the whole weight operands.
  Conversions between float formats are the identity over the extended reals; a block matrix product into a zero
  accumulator is the finite sum over the contraction axis; a lane sum is the finite sum over the row's entries.
-/
import proofs.«157232_j15032385536064_1_alg».proof.Proof.Gen.KernelIdeal.Skeleton
import proofs.«157232_j15032385536064_1_alg».proof.Proof.Spec
import proofs.«157232_j15032385536064_1_alg».proof.Proof.LibPlainMatmul
import proofs.«157232_j15032385536064_1_alg».proof.Proof.LibColumnBroadcast
import proofs.«157232_j15032385536064_1_alg».proof.Proof.LibColumnCast
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Cert.Spec Idealize.ShloMosaic Idealize.ShloMosaic.ValueIdx

/-- The vector form of the leaky rectifier, read at an index. -/
theorem lrelu_apply {s : Shape} (v : FVec Ideal s .f32) (i : s.Idx) :
    select (cmpf .oge v (broadcast s (Scalar.ofBits (F := Ideal) .f32 0x00000000#32))) v
        (mulf (broadcast s (Scalar.ofBits (F := Ideal) .f32 0x3DCCCCCD#32)) v) i = lrelu (v i) := rfl

/-- A bias row, cast to its own shape and broadcast over the rows, read at (p, j). -/
theorem bias_apply {a b : ℕ} (v : FVec Ideal ⟨2, ![1, b]⟩ .f32) (hc : (⟨2, ![1, b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ v hc) hb (ix2 p j) = v (ix2 (0 : Fin 1) j) := by
  rw [broadcastTo_1b_ab_apply, shapeCast_self]

/-- A row divided by its clamped Euclidean norm — the squares summed along the row, the sum kept as a column, its
    square root clamped below and spread back over the row — read at (p, q). -/
theorem l2_apply (v : FVec Ideal S2000x64 .f32) (p : Fin 2000) (q : Fin 64) :
    divf v (broadcastTo S2000x64
        (maximumf (sqrt (shapeCast S2000x1 (multiReduction (F := Ideal) .add [1] S2000 (mulf v v) 0x00000000#32
            reduces_S2000x64_S2000 (.inl rfl) rfl) shapeCasts_S2000_S2000x1))
          (broadcast S2000x1 (Scalar.ofBits (F := Ideal) .f32 0x358637BD#32)))
        broadcasts_S2000x1_S2000x64) (ix2 p q)
      = l2row (fun k => v (ix2 p k)) q := by
  rw [divf_apply, Cert.Lib.ColumnBroadcast.broadcastTo_a1_ab_apply, maximumf_apply]
  show Ideal.div (v (ix2 p q)) (max (Ideal.sqrt (shapeCast S2000x1 (multiReduction (F := Ideal) .add [1] S2000 (mulf v v) 0x00000000#32
            reduces_S2000x64_S2000 (.inl rfl) rfl) shapeCasts_S2000_S2000x1 (ix2 p (0 : Fin 1)))) (Ideal.ofBits .f32 0x358637BD#32)) = _
  rw [Cert.LibColumnCast.shapeCast_a_a1_apply]
  rw [(Ideal.multiReduction_add_single (mulf v v) 0x00000000#32 reduces_S2000x64_S2000 (.inl rfl) rfl (ix1 p))]
  have hl : ∀ k : Fin 64, reduces_S2000x64_S2000.lift (ix1 p) k = ix2 p k := fun k =>
    funext fun a => Fin.ext (by match a with | ⟨0, _⟩ => rfl | ⟨1, _⟩ => rfl)
  unfold l2row
  refine congrArg (fun t => Ideal.div (v (ix2 p q)) (max (Ideal.sqrt t) (Ideal.ofBits .f32 0x358637BD#32))) ?_
  exact Finset.sum_congr rfl fun k _ => by rw [hl k]; rfl

/-- A matrix product into a zero accumulator, read at (p, j): the row p of the left operand times the right operand. -/
theorem mm_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (a : FVec Ideal ⟨2, ![M, K]⟩ φ₁) (b : FVec Ideal ⟨2, ![K, N]⟩ φ₂) (p : Fin M) (j : Fin N) :
    matmul d none a b (constant (F := Ideal) ⟨2, ![M, N]⟩ .f32 0x00000000#32) (ix2 p j)
      = rowMul (fun k => a (ix2 p k)) (fun k j' => b (ix2 k j')) j :=
  PlainMatmul.matmul_zero_apply d hlc hrc hln hrn hlb hrb hr hs none a b p j

/-- The residual output's last step: each row of the operand divided by its clamped Euclidean norm. -/
theorem k1_pay2_apply (v8 : FVec Ideal S2000x64 .f32) (p : Fin 2000) (q : Fin 64) :
    k1_pay2 (F := Ideal) v8 (ix2 p q) = l2row (fun k => v8 (ix2 p k)) q := by
  unfold k1_pay2
  exact l2_apply v8 p q

/-- The neighbourhood mean at (p, k). -/
theorem k1_pay4_apply (v0 v2 : Vec Ideal S2000x64 .f32) (v4 : Vec Ideal S2000x1 .f32) (p : Fin 2000) (k : Fin 64) :
    k1_pay4 (F := Ideal) v0 v2 v4 (ix2 p k)
      = adjRow (fun k => v2 (ix2 p k)) (fun k => v0 (ix2 p k)) (v4 (ix2 p (0 : Fin 1))) k := by
  unfold k1_pay4 k1_pay3
  rw [divf_apply, subf_apply, shapeCast_self, shapeCast_self, Cert.Lib.ColumnBroadcast.broadcastTo_a1_ab_apply,
    shapeCast_self]
  rfl

/-- The new feature output's last step: each row of the operand rectified, then divided by its clamped Euclidean norm. -/
theorem k1_pay1_apply (v36 : FVec Ideal S2000x64 .f32) (p : Fin 2000) (q : Fin 64) :
    k1_pay1 (F := Ideal) v36 (Scalar.ofBits .f32 0x3DCCCCCD#32) (ix2 p q)
      = l2row (fun k => lrelu (v36 (ix2 p k))) q := by
  unfold k1_pay1
  exact l2_apply _ p q

/-- A cast of a block to its own shape is the block. -/
theorem k1_pay3_eq (v0 : Vec Ideal S2000x64 .f32) : k1_pay3 (F := Ideal) v0 = v0 := by
  unfold k1_pay3
  exact shapeCast_self _ _

/-- The first layer's pre-rectifier row at (p, q). -/
theorem k1_pay5_apply (v0 v2 : Vec Ideal S2000x64 .f32) (v4 : Vec Ideal S2000x1 .f32) (v11 v14 : Vec Ideal S64x256 .f32)
    (v20 : Vec Ideal S1x256 .f32) (v30 : Vec Ideal S256x64 .f32) (v33 : Vec Ideal S1x64 .f32) (p : Fin 2000) (q : Fin 64) :
    k1_pay5 (F := Ideal) v0 v2 v4 v11 v14 v20 v30 v33 (ix2 p q)
      = rowMul (z0Row (fun k => v0 (ix2 p k)) (adjRow (fun k => v2 (ix2 p k)) (fun k => v0 (ix2 p k)) (v4 (ix2 p (0 : Fin 1))))
          (fun k j => v11 (ix2 k j)) (fun k j => v14 (ix2 k j)) (fun j => v20 (ix2 (0 : Fin 1) j)))
          (fun j q' => v30 (ix2 j q')) q + v33 (ix2 (0 : Fin 1) q) := by
  unfold k1_pay5
  rw [addf_apply, bias_apply, mm_apply _ rfl rfl rfl rfl rfl rfl rfl rfl]
  refine congrArg (fun z => rowMul z (fun j q' => v30 (ix2 j q')) q + v33 (ix2 (0 : Fin 1) q)) (funext fun j => ?_)
  rw [truncf_apply, lrelu_apply, addf_apply, bias_apply, addf_apply, mm_apply _ rfl rfl rfl rfl rfl rfl rfl rfl,
    mm_apply _ rfl rfl rfl rfl rfl rfl rfl rfl]
  simp only [truncf_apply, k1_pay3_eq, k1_pay4_apply, shapeCast_self]
  rfl

/-- The second layer's output block from its hidden block at (p, q). -/
theorem k2_pay1_apply (v37 : FVec Ideal S2000x384 .bf16) (v38 : Vec Ideal S384x64 .f32) (v41 : Vec Ideal S1x64 .f32)
    (p : Fin 2000) (q : Fin 64) :
    k2_pay1 (F := Ideal) v37 v38 v41 (ix2 p q)
      = l2row (p1Row (fun j => v37 (ix2 p j)) (fun j q' => v38 (ix2 j q')) (fun q' => v41 (ix2 (0 : Fin 1) q'))) q := by
  unfold k2_pay1
  rw [l2_apply]
  refine congrArg (fun r => l2row r q) (funext fun k => ?_)
  rw [addf_apply, bias_apply, mm_apply _ rfl rfl rfl rfl rfl rfl rfl rfl]
  rfl

/-- The second layer's hidden block at (p, j). -/
theorem k2_pay2_apply (v0 v2 v4 : Vec Ideal S2000x64 .f32) (v6 : Vec Ideal S2000x1 .f32) (v14 v17 v20 : Vec Ideal S64x384 .f32)
    (v28 : Vec Ideal S1x384 .f32) (p : Fin 2000) (j : Fin 384) :
    k2_pay2 (F := Ideal) v0 v2 v4 v6 v14 v17 v20 v28 (ix2 p j)
      = z1Row (fun k => v0 (ix2 p k)) (adjRow (fun k => v2 (ix2 p k)) (fun k => v0 (ix2 p k)) (v6 (ix2 p (0 : Fin 1))))
          (fun k => v4 (ix2 p k)) (fun k j => v14 (ix2 k j)) (fun k j => v17 (ix2 k j)) (fun k j => v20 (ix2 k j))
          (fun j => v28 (ix2 (0 : Fin 1) j)) j := by
  unfold k2_pay2
  rw [truncf_apply, lrelu_apply, addf_apply, bias_apply, addf_apply, addf_apply,
    mm_apply _ rfl rfl rfl rfl rfl rfl rfl rfl, mm_apply _ rfl rfl rfl rfl rfl rfl rfl rfl,
    mm_apply _ rfl rfl rfl rfl rfl rfl rfl rfl]
  simp only [truncf_apply, shapeCast_self, divf_apply, subf_apply, Cert.Lib.ColumnBroadcast.broadcastTo_a1_ab_apply]
  rfl

/-- The input stage's body at (p, q). -/
theorem pay0 (v0 : Vec Ideal S2000x256 .f32) (v2 : Vec Ideal S256x64 .f32) (v5 : Vec Ideal S1x64 .f32)
    (v14 : Vec Ideal S2000x64 .f32) (p : Fin 2000) (q : Fin 64) :
    k0_pay1 (F := Ideal) v0 v2 v5 v14 (ix2 p q)
      = hRow (fun k => v0 (ix2 p k)) (fun q' => v14 (ix2 p q')) (fun k q' => v2 (ix2 k q'))
          (fun q' => v5 (ix2 (0 : Fin 1) q')) q := by
  unfold k0_pay1
  rw [addf_apply, shapeCast_self, lrelu_apply, addf_apply, bias_apply,
    mm_apply _ rfl rfl rfl rfl rfl rfl rfl rfl]
  rfl

/-- The first layer's body, new feature output, at (p, q). -/
theorem pay1_new (v0 v2 : Vec Ideal S2000x64 .f32) (v4 : Vec Ideal S2000x1 .f32) (v11 v14 : Vec Ideal S64x256 .f32)
    (v20 : Vec Ideal S1x256 .f32) (v30 : Vec Ideal S256x64 .f32) (v33 : Vec Ideal S1x64 .f32) (p : Fin 2000) (q : Fin 64) :
    k1_pay1 (F := Ideal) (k1_pay5 v0 v2 v4 v11 v14 v20 v30 v33) (Scalar.ofBits .f32 0x3DCCCCCD#32) (ix2 p q)
      = new0Row (fun k => v0 (ix2 p k)) (fun k => v2 (ix2 p k)) (v4 (ix2 p (0 : Fin 1)))
          (fun k j => v11 (ix2 k j)) (fun k j => v14 (ix2 k j)) (fun j => v20 (ix2 (0 : Fin 1) j))
          (fun j q' => v30 (ix2 j q')) (fun q' => v33 (ix2 (0 : Fin 1) q')) q := by
  rw [k1_pay1_apply]
  unfold new0Row
  exact congrArg (fun r => l2row r q) (funext fun k => congrArg lrelu (k1_pay5_apply v0 v2 v4 v11 v14 v20 v30 v33 p k))

/-- The first layer's body, residual output, at (p, q). -/
theorem pay1_res (v0 v2 : Vec Ideal S2000x64 .f32) (v4 : Vec Ideal S2000x1 .f32) (p : Fin 2000) (q : Fin 64) :
    k1_pay2 (F := Ideal) (k1_pay4 v0 v2 v4) (ix2 p q)
      = res0Row (fun k => v0 (ix2 p k)) (fun k => v2 (ix2 p k)) (v4 (ix2 p (0 : Fin 1))) q := by
  rw [k1_pay2_apply]
  unfold res0Row
  exact congrArg (fun r => l2row r q) (funext fun k => k1_pay4_apply v0 v2 v4 p k)

/-- The second layer's body at (p, q). -/
theorem pay2_out (v0 v2 v4 : Vec Ideal S2000x64 .f32) (v6 : Vec Ideal S2000x1 .f32) (v14 v17 v20 : Vec Ideal S64x384 .f32)
    (v28 : Vec Ideal S1x384 .f32) (v38 : Vec Ideal S384x64 .f32) (v41 : Vec Ideal S1x64 .f32) (p : Fin 2000) (q : Fin 64) :
    k2_pay1 (F := Ideal) (k2_pay2 v0 v2 v4 v6 v14 v17 v20 v28) v38 v41 (ix2 p q)
      = out1Row (fun k => v0 (ix2 p k)) (fun k => v2 (ix2 p k)) (fun k => v4 (ix2 p k)) (v6 (ix2 p (0 : Fin 1)))
          (fun k j => v14 (ix2 k j)) (fun k j => v17 (ix2 k j)) (fun k j => v20 (ix2 k j))
          (fun j => v28 (ix2 (0 : Fin 1) j)) (fun j q' => v38 (ix2 j q')) (fun q' => v41 (ix2 (0 : Fin 1) q')) q := by
  rw [k2_pay1_apply]
  unfold out1Row
  exact congrArg (fun z => l2row (p1Row z (fun j q' => v38 (ix2 j q')) (fun q' => v41 (ix2 (0 : Fin 1) q'))) q)
    (funext fun j => k2_pay2_apply v0 v2 v4 v6 v14 v17 v20 v28 p j)

end Cert.KernelIdeal.Pay

end
-- ==== Proof.Region0.lean ====
/-
  The input stage as one function of whole arrays: after the first region every row r of its output holds
  e_r + φ(x_r·W + b), where x_r, e_r are row r of the two row-blocked operands. Grid point t stages rows
  2000·t … 2000·t + 1999 of the row-blocked operands and the whole weight and bias; the fifty blocks tile the rows.
-/
import proofs.«157232_j15032385536064_1_alg».proof.Proof.Gen.KernelIdeal.Frame
import proofs.«157232_j15032385536064_1_alg».proof.Proof.KerPay
import proofs.«157232_j15032385536064_1_alg».proof.Proof.Spec
import Idealize.ShloMosaic.Lib.Pipeline.Value

set_option maxRecDepth 16384

noncomputable section

namespace Cert.KernelIdeal.Reg0

open Cert.KernelIdeal Cert.KernelIdeal.Gen Cert.Spec Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The input stage over whole arrays, index by index. -/
def G0 (X : S100000x256.Idx → Elt Ideal .f32) (E : S100000x64.Idx → Elt Ideal .f32) (W : S256x64.Idx → Elt Ideal .f32)
    (B : S1x64.Idx → Elt Ideal .f32) : S100000x64.Idx → Elt Ideal .f32 :=
  fun i => hRow (fun k => X (ix2 (i 0) k)) (fun q' => E (ix2 (i 0) q')) (fun k q' => W (ix2 k q'))
    (fun q' => B (ix2 (0 : Fin 1) q')) (i 1)

/-- Where the blocks sit: at point t the row-blocked windows stage block row t, the weight and bias windows
    their one block, and the output window block row t. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 49 :=
  (by decide +kernel : ∀ t : Fin grid0.N, _)

/-- Every block row is some point's. -/
theorem idx_onto : ∀ (q0 : Fin 50), ∃ t : Fin cfg0.N, win0_4.index t = ![q0.val, 0] :=
  (by decide +kernel : ∀ (q0 : Fin 50), ∃ t : Fin grid0.N, win0_4.index t = ![q0.val, 0])

/-- One entry of one block: if the staged blocks hold the rows of the arrays that the entry's row names,
    the body's value there is the stage's. -/
theorem point (x0 : Vec Ideal S2000x256 .f32) (x1 : Vec Ideal S2000x64 .f32) (x2 : Vec Ideal S256x64 .f32)
    (x3 : Vec Ideal S1x64 .f32) (X : S100000x256.Idx → Elt Ideal .f32) (E : S100000x64.Idx → Elt Ideal .f32)
    (W : S256x64.Idx → Elt Ideal .f32) (B : S1x64.Idx → Elt Ideal .f32) (i : S100000x64.Idx) (p : Fin 2000) (q : Fin 64)
    (h0 : ∀ k, x0 (ix2 p k) = X (ix2 (i 0) k)) (h1 : ∀ q', x1 (ix2 p q') = E (ix2 (i 0) q'))
    (h2 : ∀ k q', x2 (ix2 k q') = W (ix2 k q')) (h3 : ∀ q', x3 (ix2 (0 : Fin 1) q') = B (ix2 (0 : Fin 1) q'))
    (hq : i 1 = q) :
    k0_pay1 (F := Ideal) x0 x2 x3 x1 (ix2 p q) = G0 X E W B i := by
  rw [Pay.pay0]
  unfold G0
  rw [hq]
  simp only [h0, h1, h2, h3]

/-- What point t writes back is block t of the stage of the arrays as the region finds them. -/
theorem flushed_eq (c : Dev nD) (t : Fin cfg0.N) :
    (dat0 V c).flushed 4 t = ((cfg0.win 4).blk t).view.read (Elt Ideal)
      (G0 (V c main_arg0) (V c main_v8) (V c main_arg2) (V c main_v9)) := by
  show (cfg0.win 4).cut (grid0.coords t) ((dat0 V c).after 4 t) = _
  rw [after0_4]
  unfold out0_4
  rw [View.canon_unit_zero hz]
  simp only [View.ld_unit_zero (S := S2000x256) hz, View.ld_unit_zero (S := S2000x64) hz,
    View.ld_unit_zero (S := S256x64) hz, View.ld_unit_zero (S := S1x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  show k0_pay1 (F := Ideal) (iblk0 V c 0 t) (iblk0 V c 2 t) (iblk0 V c 3 t) (iblk0 V c 1 t) (ix2 p q)
    = G0 (V c main_arg0) (V c main_v8) (V c main_arg2) (V c main_v9) (((cfg0.win 4).blk t).view.emb (ix2 p q))
  refine point (iblk0 V c 0 t) (iblk0 V c 1 t) (iblk0 V c 2 t) (iblk0 V c 3 t) (V c main_arg0) (V c main_v8)
    (V c main_arg2) (V c main_v9) (((cfg0.win 4).blk t).view.emb (ix2 p q)) p q ?_ ?_ ?_ ?_ ?_
  · intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = win0_4.index t (0 : Fin 2) * 2000 + 1 * p.val; omega
    | ⟨1, _⟩ => show win0_0.index t (1 : Fin 2) * 256 + 1 * k.val = k.val; omega
  · intro q'
    show V c main_v8 (((cfg0.win 1).blk t).view.emb (ix2 p q')) = V c main_v8 _
    refine congrArg (V c main_v8) (funext fun a => Fin.ext ?_)
    match a with
    | ⟨0, _⟩ => show win0_1.index t (0 : Fin 2) * 2000 + 1 * p.val = win0_4.index t (0 : Fin 2) * 2000 + 1 * p.val; omega
    | ⟨1, _⟩ => show win0_1.index t (1 : Fin 2) * 64 + 1 * q'.val = q'.val; omega
  · intro k q'
    show V c main_arg2 (((cfg0.win 2).blk t).view.emb (ix2 k q')) = V c main_arg2 _
    refine congrArg (V c main_arg2) (funext fun a => Fin.ext ?_)
    match a with
    | ⟨0, _⟩ => show win0_2.index t (0 : Fin 2) * 256 + 1 * k.val = k.val; omega
    | ⟨1, _⟩ => show win0_2.index t (1 : Fin 2) * 64 + 1 * q'.val = q'.val; omega
  · intro q'
    show V c main_v9 (((cfg0.win 3).blk t).view.emb (ix2 (0 : Fin 1) q')) = V c main_v9 _
    refine congrArg (V c main_v9) (funext fun a => Fin.ext ?_)
    match a with
    | ⟨0, _⟩ => show win0_3.index t (0 : Fin 2) * 1 + 1 * 0 = 0; omega
    | ⟨1, _⟩ => show win0_3.index t (1 : Fin 2) * 64 + 1 * q'.val = q'.val; omega
  · refine Fin.ext ?_
    show win0_4.index t (1 : Fin 2) * 64 + 1 * q.val = q.val
    omega

/-- An index of the output array is in point t's block iff each coordinate is in the block's range. -/
theorem mem_blk (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v10).slice (win0_4.rect t)).set ↔ _
  rw [View.set_slice_whole, Rect.mem_set_unit]
  exact Iff.rfl

/-- The fifty blocks of 2000 rows cover the 100000 rows: row r lies in block r / 2000. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 64 ≤ (i 1).val ∧ (i 1).val < win0_4.index t (1 : Fin 2) * 64 + 64; omega

/-- The output array after the region: the input stage of the arrays the region found. -/
theorem final (c : Dev nD) :
    (dat0 V c).arrAt 4 cfg0.N = G0 (V c main_arg0) (V c main_v8) (V c main_arg2) (V c main_v9) :=
  (dat0 V c).arrAt_eq_of_cover 4 (G0 (V c main_arg0) (V c main_v8) (V c main_arg2) (V c main_v9))
    (fun t _ => flushed_eq V c t) cover

end Cert.KernelIdeal.Reg0

end
-- ==== Proof.Region1.lean ====
/-
  The first layer as functions of whole arrays: after the second region every row r of its two outputs holds
  the new feature row and the residual row of Spec.lean, computed from row r of the features h, of the edge
  sums s and of the clamped in-degree column w, and from the whole weights. Grid point t stages rows
  2000·t … 2000·t + 1999 of the row-blocked operands and the whole weights and biases; the fifty blocks tile the rows.
-/
import proofs.«157232_j15032385536064_1_alg».proof.Proof.Gen.KernelIdeal.Frame
import proofs.«157232_j15032385536064_1_alg».proof.Proof.KerPay
import proofs.«157232_j15032385536064_1_alg».proof.Proof.Spec
import Idealize.ShloMosaic.Lib.Pipeline.Value

set_option maxRecDepth 16384

noncomputable section

namespace Cert.KernelIdeal.Reg1

open Cert.KernelIdeal Cert.KernelIdeal.Gen Cert.Spec Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first layer's new features over whole arrays, index by index. -/
def G1new (H S : S100000x64.Idx → Elt Ideal .f32) (Wd : S100000x1.Idx → Elt Ideal .f32) (Wa Wb : S64x256.Idx → Elt Ideal .f32)
    (B1 : S1x256.Idx → Elt Ideal .f32) (W2 : S256x64.Idx → Elt Ideal .f32) (B2 : S1x64.Idx → Elt Ideal .f32) :
    S100000x64.Idx → Elt Ideal .f32 :=
  fun i => new0Row (fun k => H (ix2 (i 0) k)) (fun k => S (ix2 (i 0) k)) (Wd (ix2 (i 0) (0 : Fin 1)))
    (fun k j => Wa (ix2 k j)) (fun k j => Wb (ix2 k j)) (fun j => B1 (ix2 (0 : Fin 1) j))
    (fun k j => W2 (ix2 k j)) (fun j => B2 (ix2 (0 : Fin 1) j)) (i 1)

/-- The first layer's residual over whole arrays, index by index. -/
def G1res (H S : S100000x64.Idx → Elt Ideal .f32) (Wd : S100000x1.Idx → Elt Ideal .f32) : S100000x64.Idx → Elt Ideal .f32 :=
  fun i => res0Row (fun k => H (ix2 (i 0) k)) (fun k => S (ix2 (i 0) k)) (Wd (ix2 (i 0) (0 : Fin 1))) (i 1)

/-- Where the blocks sit: at point t the row-blocked windows stage block row t, the weight and bias windows
    their one block, and the output windows block row t. -/
theorem idx_facts : ∀ t : Fin cfg1.N, win1_0.index t (0 : Fin 2) = win1_8.index t (0 : Fin 2)
    ∧ win1_0.index t (1 : Fin 2) = 0
    ∧ win1_1.index t (0 : Fin 2) = win1_8.index t (0 : Fin 2)
    ∧ win1_1.index t (1 : Fin 2) = 0
    ∧ win1_2.index t (0 : Fin 2) = win1_8.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (1 : Fin 2) = 0
    ∧ win1_9.index t (0 : Fin 2) = win1_8.index t (0 : Fin 2)
    ∧ win1_9.index t (1 : Fin 2) = 0
    ∧ win1_8.index t (0 : Fin 2) ≤ 49 :=
  (by decide +kernel : ∀ t : Fin grid1.N, _)

/-- Every block row is some point's. -/
theorem idx_onto : ∀ (q0 : Fin 50), ∃ t : Fin cfg1.N, win1_8.index t = ![q0.val, 0] ∧ win1_9.index t = ![q0.val, 0] :=
  (by decide +kernel : ∀ (q0 : Fin 50), ∃ t : Fin grid1.N, win1_8.index t = ![q0.val, 0] ∧ win1_9.index t = ![q0.val, 0])

/-- One entry of one block: if the staged blocks hold the rows of the arrays that the entry's row names,
    the body's value there is the stage's. -/
theorem point_new (x0 : Vec Ideal S2000x64 .f32) (x1 : Vec Ideal S2000x64 .f32) (x2 : Vec Ideal S2000x1 .f32) (x3 : Vec Ideal S64x256 .f32) (x4 : Vec Ideal S64x256 .f32) (x5 : Vec Ideal S1x256 .f32) (x6 : Vec Ideal S256x64 .f32) (x7 : Vec Ideal S1x64 .f32)
    (A0 : S100000x64.Idx → Elt Ideal .f32) (A1 : S100000x64.Idx → Elt Ideal .f32) (A2 : S100000x1.Idx → Elt Ideal .f32) (A3 : S64x256.Idx → Elt Ideal .f32) (A4 : S64x256.Idx → Elt Ideal .f32) (A5 : S1x256.Idx → Elt Ideal .f32) (A6 : S256x64.Idx → Elt Ideal .f32) (A7 : S1x64.Idx → Elt Ideal .f32) (i : S100000x64.Idx) (p : Fin 2000) (q : Fin 64)
    (h0 : ∀ k, x0 (ix2 p k) = A0 (ix2 (i 0) k))
    (h1 : ∀ k, x1 (ix2 p k) = A1 (ix2 (i 0) k))
    (h2 : x2 (ix2 p (0 : Fin 1)) = A2 (ix2 (i 0) (0 : Fin 1)))
    (h3 : ∀ k j, x3 (ix2 k j) = A3 (ix2 k j))
    (h4 : ∀ k j, x4 (ix2 k j) = A4 (ix2 k j))
    (h5 : ∀ j, x5 (ix2 (0 : Fin 1) j) = A5 (ix2 (0 : Fin 1) j))
    (h6 : ∀ k j, x6 (ix2 k j) = A6 (ix2 k j))
    (h7 : ∀ j, x7 (ix2 (0 : Fin 1) j) = A7 (ix2 (0 : Fin 1) j))
    (hq : i 1 = q) :
    k1_pay1 (F := Ideal) (k1_pay5 x0 x1 x2 x3 x4 x5 x6 x7) (Scalar.ofBits .f32 0x3DCCCCCD#32) (ix2 p q) = G1new A0 A1 A2 A3 A4 A5 A6 A7 i := by
  rw [Pay.pay1_new]
  unfold G1new
  rw [hq]
  simp only [h0, h1, h2, h3, h4, h5, h6, h7]

/-- What point t writes back is block t of the stage of the arrays as the region finds them. -/
theorem flushed_new (c : Dev nD) (t : Fin cfg1.N) :
    (dat1 V c).flushed 8 t = ((cfg1.win 8).blk t).view.read (Elt Ideal)
      (G1new (V c main_v10) (V c main_v29) (V c main_v19) (V c main_v30) (V c main_v31) (V c main_v32) (V c main_arg6) (V c main_v33)) := by
  show (cfg1.win 8).cut (grid1.coords t) ((dat1 V c).after 8 t) = _
  rw [after1_8]
  unfold out1_8
  rw [View.canon_unit_zero hz]
  simp only [View.ld_unit_zero (S := S2000x64) hz, View.ld_unit_zero (S := S2000x1) hz, View.ld_unit_zero (S := S64x256) hz, View.ld_unit_zero (S := S1x256) hz, View.ld_unit_zero (S := S256x64) hz, View.ld_unit_zero (S := S1x64) hz]
  obtain ⟨e0, e1, e2, e3, e4, e5, e6, e7, e8, e9, e10, e11, e12, e13, e14, e15, e16, e17, e18, elast⟩ := idx_facts t
  funext j
  obtain ⟨p, q, rfl⟩ : ∃ (p : Fin 2000) (q : Fin 64), j = ix2 p q := ⟨j 0, j 1, eq_ix2 j⟩
  show k1_pay1 (F := Ideal) (k1_pay5 (iblk1 V c 0 t) (iblk1 V c 1 t) (iblk1 V c 2 t) (iblk1 V c 3 t) (iblk1 V c 4 t) (iblk1 V c 5 t) (iblk1 V c 6 t) (iblk1 V c 7 t)) (Scalar.ofBits .f32 0x3DCCCCCD#32) (ix2 p q)
    = G1new (V c main_v10) (V c main_v29) (V c main_v19) (V c main_v30) (V c main_v31) (V c main_v32) (V c main_arg6) (V c main_v33) (((cfg1.win 8).blk t).view.emb (ix2 p q))
  refine point_new (iblk1 V c 0 t) (iblk1 V c 1 t) (iblk1 V c 2 t) (iblk1 V c 3 t) (iblk1 V c 4 t) (iblk1 V c 5 t) (iblk1 V c 6 t) (iblk1 V c 7 t) (V c main_v10) (V c main_v29) (V c main_v19) (V c main_v30) (V c main_v31) (V c main_v32) (V c main_arg6) (V c main_v33)
    (((cfg1.win 8).blk t).view.emb (ix2 p q)) p q ?_ ?_ ?_ ?_ ?_ ?_ ?_ ?_ ?_
  · intro k
    show V c main_v10 (((cfg1.win 0).blk t).view.emb (ix2 p k)) = V c main_v10 _
    refine congrArg (V c main_v10) (funext fun a => Fin.ext ?_)
    match a with
    | ⟨0, _⟩ => show win1_0.index t (0 : Fin 2) * 2000 + 1 * p.val = win1_8.index t (0 : Fin 2) * 2000 + 1 * p.val; omega
    | ⟨1, _⟩ => show win1_0.index t (1 : Fin 2) * 64 + 1 * k.val = k.val; omega
  · intro k
    show V c main_v29 (((cfg1.win 1).blk t).view.emb (ix2 p k)) = V c main_v29 _
    refine congrArg (V c main_v29) (funext fun a => Fin.ext ?_)
    match a with
    | ⟨0, _⟩ => show win1_1.index t (0 : Fin 2) * 2000 + 1 * p.val = win1_8.index t (0 : Fin 2) * 2000 + 1 * p.val; omega
    | ⟨1, _⟩ => show win1_1.index t (1 : Fin 2) * 64 + 1 * k.val = k.val; omega
  · show V c main_v19 (((cfg1.win 2).blk t).view.emb (ix2 p (0 : Fin 1))) = V c main_v19 _
    refine congrArg (V c main_v19) (funext fun a => Fin.ext ?_)
    match a with
    | ⟨0, _⟩ => show win1_2.index t (0 : Fin 2) * 2000 + 1 * p.val = win1_8.index t (0 : Fin 2) * 2000 + 1 * p.val; omega
    | ⟨1, _⟩ => show win1_2.index t (1 : Fin 2) * 1 + 1 * 0 = 0; omega
  · intro k j
    show V c main_v30 (((cfg1.win 3).blk t).view.emb (ix2 k j)) = V c main_v30 _
    refine congrArg (V c main_v30) (funext fun a => Fin.ext ?_)
    match a with
    | ⟨0, _⟩ => show win1_3.index t (0 : Fin 2) * 64 + 1 * k.val = k.val; omega
    | ⟨1, _⟩ => show win1_3.index t (1 : Fin 2) * 256 + 1 * j.val = j.val; omega
  · intro k j
    show V c main_v31 (((cfg1.win 4).blk t).view.emb (ix2 k j)) = V c main_v31 _
    refine congrArg (V c main_v31) (funext fun a => Fin.ext ?_)
    match a with
    | ⟨0, _⟩ => show win1_4.index t (0 : Fin 2) * 64 + 1 * k.val = k.val; omega
    | ⟨1, _⟩ => show win1_4.index t (1 : Fin 2) * 256 + 1 * j.val = j.val; omega
  · intro j
    show V c main_v32 (((cfg1.win 5).blk t).view.emb (ix2 (0 : Fin 1) j)) = V c main_v32 _
    refine congrArg (V c main_v32) (funext fun a => Fin.ext ?_)
    match a with
    | ⟨0, _⟩ => show win1_5.index t (0 : Fin 2) * 1 + 1 * 0 = 0; omega
    | ⟨1, _⟩ => show win1_5.index t (1 : Fin 2) * 256 + 1 * j.val = j.val; omega
  · intro k j
    show V c main_arg6 (((cfg1.win 6).blk t).view.emb (ix2 k j)) = V c main_arg6 _
    refine congrArg (V c main_arg6) (funext fun a => Fin.ext ?_)
    match a with
    | ⟨0, _⟩ => show win1_6.index t (0 : Fin 2) * 256 + 1 * k.val = k.val; omega
    | ⟨1, _⟩ => show win1_6.index t (1 : Fin 2) * 64 + 1 * j.val = j.val; omega
  · intro j
    show V c main_v33 (((cfg1.win 7).blk t).view.emb (ix2 (0 : Fin 1) j)) = V c main_v33 _
    refine congrArg (V c main_v33) (funext fun a => Fin.ext ?_)
    match a with
    | ⟨0, _⟩ => show win1_7.index t (0 : Fin 2) * 1 + 1 * 0 = 0; omega
    | ⟨1, _⟩ => show win1_7.index t (1 : Fin 2) * 64 + 1 * j.val = j.val; omega
  · refine Fin.ext ?_
    show win1_8.index t (1 : Fin 2) * 64 + 1 * q.val = q.val
    omega

/-- An index of the output array is in point t's block iff each coordinate is in the block's range. -/
theorem mem_blk_new (t : Fin cfg1.N) (i : S100000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v34_0).slice (win1_8.rect t)).set ↔ _
  rw [View.set_slice_whole, Rect.mem_set_unit]
  exact Iff.rfl

/-- The fifty blocks of 2000 rows cover the 100000 rows: row r lies in block r / 2000. -/
theorem cover_new (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  obtain ⟨t, ht⟩ := idx_onto ⟨(i 0).val / 2000, by omega⟩
  have q0 : win1_8.index t (0 : Fin 2) = (i 0).val / 2000 := congrFun ht.1 0
  have q1 : win1_8.index t (1 : Fin 2) = 0 := congrFun ht.1 1
  refine ⟨t, flush1_8 t, ?_⟩
  rw [mem_blk_new]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 64 ≤ (i 1).val ∧ (i 1).val < win1_8.index t (1 : Fin 2) * 64 + 64; omega

/-- The output array after the region: the stage of the arrays the region found. -/
theorem final_new (c : Dev nD) :
    (dat1 V c).arrAt 8 cfg1.N = G1new (V c main_v10) (V c main_v29) (V c main_v19) (V c main_v30) (V c main_v31) (V c main_v32) (V c main_arg6) (V c main_v33) :=
  (dat1 V c).arrAt_eq_of_cover 8 (G1new (V c main_v10) (V c main_v29) (V c main_v19) (V c main_v30) (V c main_v31) (V c main_v32) (V c main_arg6) (V c main_v33))
    (fun t _ => flushed_new V c t) cover_new

/-- One entry of one block: if the staged blocks hold the rows of the arrays that the entry's row names,
    the body's value there is the stage's. -/
theorem point_res (x0 : Vec Ideal S2000x64 .f32) (x1 : Vec Ideal S2000x64 .f32) (x2 : Vec Ideal S2000x1 .f32)
    (A0 : S100000x64.Idx → Elt Ideal .f32) (A1 : S100000x64.Idx → Elt Ideal .f32) (A2 : S100000x1.Idx → Elt Ideal .f32) (i : S100000x64.Idx) (p : Fin 2000) (q : Fin 64)
    (h0 : ∀ k, x0 (ix2 p k) = A0 (ix2 (i 0) k))
    (h1 : ∀ k, x1 (ix2 p k) = A1 (ix2 (i 0) k))
    (h2 : x2 (ix2 p (0 : Fin 1)) = A2 (ix2 (i 0) (0 : Fin 1)))
    (hq : i 1 = q) :
    k1_pay2 (F := Ideal) (k1_pay4 x0 x1 x2) (ix2 p q) = G1res A0 A1 A2 i := by
  rw [Pay.pay1_res]
  unfold G1res
  rw [hq]
  simp only [h0, h1, h2]

/-- What point t writes back is block t of the stage of the arrays as the region finds them. -/
theorem flushed_res (c : Dev nD) (t : Fin cfg1.N) :
    (dat1 V c).flushed 9 t = ((cfg1.win 9).blk t).view.read (Elt Ideal)
      (G1res (V c main_v10) (V c main_v29) (V c main_v19)) := by
  show (cfg1.win 9).cut (grid1.coords t) ((dat1 V c).after 9 t) = _
  rw [after1_9]
  unfold out1_9
  rw [View.canon_unit_zero hz]
  simp only [View.ld_unit_zero (S := S2000x64) hz, View.ld_unit_zero (S := S2000x1) hz, View.ld_unit_zero (S := S64x256) hz, View.ld_unit_zero (S := S1x256) hz, View.ld_unit_zero (S := S256x64) hz, View.ld_unit_zero (S := S1x64) hz]
  obtain ⟨e0, e1, e2, e3, e4, e5, e6, e7, e8, e9, e10, e11, e12, e13, e14, e15, e16, e17, e18, elast⟩ := idx_facts t
  funext j
  obtain ⟨p, q, rfl⟩ : ∃ (p : Fin 2000) (q : Fin 64), j = ix2 p q := ⟨j 0, j 1, eq_ix2 j⟩
  show k1_pay2 (F := Ideal) (k1_pay4 (iblk1 V c 0 t) (iblk1 V c 1 t) (iblk1 V c 2 t)) (ix2 p q)
    = G1res (V c main_v10) (V c main_v29) (V c main_v19) (((cfg1.win 9).blk t).view.emb (ix2 p q))
  refine point_res (iblk1 V c 0 t) (iblk1 V c 1 t) (iblk1 V c 2 t) (V c main_v10) (V c main_v29) (V c main_v19)
    (((cfg1.win 9).blk t).view.emb (ix2 p q)) p q ?_ ?_ ?_ ?_
  · intro k
    show V c main_v10 (((cfg1.win 0).blk t).view.emb (ix2 p k)) = V c main_v10 _
    refine congrArg (V c main_v10) (funext fun a => Fin.ext ?_)
    match a with
    | ⟨0, _⟩ => show win1_0.index t (0 : Fin 2) * 2000 + 1 * p.val = win1_9.index t (0 : Fin 2) * 2000 + 1 * p.val; omega
    | ⟨1, _⟩ => show win1_0.index t (1 : Fin 2) * 64 + 1 * k.val = k.val; omega
  · intro k
    show V c main_v29 (((cfg1.win 1).blk t).view.emb (ix2 p k)) = V c main_v29 _
    refine congrArg (V c main_v29) (funext fun a => Fin.ext ?_)
    match a with
    | ⟨0, _⟩ => show win1_1.index t (0 : Fin 2) * 2000 + 1 * p.val = win1_9.index t (0 : Fin 2) * 2000 + 1 * p.val; omega
    | ⟨1, _⟩ => show win1_1.index t (1 : Fin 2) * 64 + 1 * k.val = k.val; omega
  · show V c main_v19 (((cfg1.win 2).blk t).view.emb (ix2 p (0 : Fin 1))) = V c main_v19 _
    refine congrArg (V c main_v19) (funext fun a => Fin.ext ?_)
    match a with
    | ⟨0, _⟩ => show win1_2.index t (0 : Fin 2) * 2000 + 1 * p.val = win1_9.index t (0 : Fin 2) * 2000 + 1 * p.val; omega
    | ⟨1, _⟩ => show win1_2.index t (1 : Fin 2) * 1 + 1 * 0 = 0; omega
  · refine Fin.ext ?_
    show win1_9.index t (1 : Fin 2) * 64 + 1 * q.val = q.val
    omega

/-- An index of the output array is in point t's block iff each coordinate is in the block's range. -/
theorem mem_blk_res (t : Fin cfg1.N) (i : S100000x64.Idx) :
    i ∈ ((cfg1.win 9).blk t).view.set ↔ ∀ a : Fin 2, win1_9.index t a * S2000x64.size a ≤ (i a).val ∧ (i a).val < win1_9.index t a * S2000x64.size a + S2000x64.size a := by
  show i ∈ ((View.whole main_v34_1).slice (win1_9.rect t)).set ↔ _
  rw [View.set_slice_whole, Rect.mem_set_unit]
  exact Iff.rfl

/-- The fifty blocks of 2000 rows cover the 100000 rows: row r lies in block r / 2000. -/
theorem cover_res (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ := idx_onto ⟨(i 0).val / 2000, by omega⟩
  have q0 : win1_9.index t (0 : Fin 2) = (i 0).val / 2000 := congrFun ht.2 0
  have q1 : win1_9.index t (1 : Fin 2) = 0 := congrFun ht.2 1
  refine ⟨t, flush1_9 t, ?_⟩
  rw [mem_blk_res]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 64 ≤ (i 1).val ∧ (i 1).val < win1_9.index t (1 : Fin 2) * 64 + 64; omega

/-- The output array after the region: the stage of the arrays the region found. -/
theorem final_res (c : Dev nD) :
    (dat1 V c).arrAt 9 cfg1.N = G1res (V c main_v10) (V c main_v29) (V c main_v19) :=
  (dat1 V c).arrAt_eq_of_cover 9 (G1res (V c main_v10) (V c main_v29) (V c main_v19))
    (fun t _ => flushed_res V c t) cover_res

end Cert.KernelIdeal.Reg1

end
-- ==== Proof.Region2.lean ====
/-
  The second layer as one function of whole arrays: after the third region every row r of its output holds the
  output row of Spec.lean, computed from row r of the features h, of the two edge sums and of the clamped
  in-degree column, and from the whole weights. Grid point t stages rows 2000·t … 2000·t + 1999 of the
  row-blocked operands and the whole weights and biases; the fifty blocks tile the rows.
-/
import proofs.«157232_j15032385536064_1_alg».proof.Proof.Gen.KernelIdeal.Frame
import proofs.«157232_j15032385536064_1_alg».proof.Proof.KerPay
import proofs.«157232_j15032385536064_1_alg».proof.Proof.Spec
import Idealize.ShloMosaic.Lib.Pipeline.Value

set_option maxRecDepth 16384

noncomputable section

namespace Cert.KernelIdeal.Reg2

open Cert.KernelIdeal Cert.KernelIdeal.Gen Cert.Spec Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The second layer over whole arrays, index by index. -/
def G2out (H S R : S100000x64.Idx → Elt Ideal .f32) (Wd : S100000x1.Idx → Elt Ideal .f32) (Wh Wa Wr : S64x384.Idx → Elt Ideal .f32)
    (B1 : S1x384.Idx → Elt Ideal .f32) (W2 : S384x64.Idx → Elt Ideal .f32) (B2 : S1x64.Idx → Elt Ideal .f32) :
    S100000x64.Idx → Elt Ideal .f32 :=
  fun i => out1Row (fun k => H (ix2 (i 0) k)) (fun k => S (ix2 (i 0) k)) (fun k => R (ix2 (i 0) k))
    (Wd (ix2 (i 0) (0 : Fin 1))) (fun k j => Wh (ix2 k j)) (fun k j => Wa (ix2 k j)) (fun k j => Wr (ix2 k j))
    (fun j => B1 (ix2 (0 : Fin 1) j)) (fun k j => W2 (ix2 k j)) (fun j => B2 (ix2 (0 : Fin 1) j)) (i 1)

/-- Where the blocks sit: at point t the row-blocked windows stage block row t, the weight and bias windows
    their one block, and the output windows block row t. -/
theorem idx_facts : ∀ t : Fin cfg2.N, win2_0.index t (0 : Fin 2) = win2_10.index t (0 : Fin 2)
    ∧ win2_0.index t (1 : Fin 2) = 0
    ∧ win2_1.index t (0 : Fin 2) = win2_10.index t (0 : Fin 2)
    ∧ win2_1.index t (1 : Fin 2) = 0
    ∧ win2_2.index t (0 : Fin 2) = win2_10.index t (0 : Fin 2)
    ∧ win2_2.index t (1 : Fin 2) = 0
    ∧ win2_3.index t (0 : Fin 2) = win2_10.index t (0 : Fin 2)
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (1 : Fin 2) = 0
    ∧ win2_10.index t (0 : Fin 2) ≤ 49 :=
  (by decide +kernel : ∀ t : Fin grid2.N, _)

/-- Every block row is some point's. -/
theorem idx_onto : ∀ (q0 : Fin 50), ∃ t : Fin cfg2.N, win2_10.index t = ![q0.val, 0] :=
  (by decide +kernel : ∀ (q0 : Fin 50), ∃ t : Fin grid2.N, win2_10.index t = ![q0.val, 0])

/-- One entry of one block: if the staged blocks hold the rows of the arrays that the entry's row names,
    the body's value there is the stage's. -/
theorem point_out (x0 : Vec Ideal S2000x64 .f32) (x1 : Vec Ideal S2000x64 .f32) (x2 : Vec Ideal S2000x64 .f32) (x3 : Vec Ideal S2000x1 .f32) (x4 : Vec Ideal S64x384 .f32) (x5 : Vec Ideal S64x384 .f32) (x6 : Vec Ideal S64x384 .f32) (x7 : Vec Ideal S1x384 .f32) (x8 : Vec Ideal S384x64 .f32) (x9 : Vec Ideal S1x64 .f32)
    (A0 : S100000x64.Idx → Elt Ideal .f32) (A1 : S100000x64.Idx → Elt Ideal .f32) (A2 : S100000x64.Idx → Elt Ideal .f32) (A3 : S100000x1.Idx → Elt Ideal .f32) (A4 : S64x384.Idx → Elt Ideal .f32) (A5 : S64x384.Idx → Elt Ideal .f32) (A6 : S64x384.Idx → Elt Ideal .f32) (A7 : S1x384.Idx → Elt Ideal .f32) (A8 : S384x64.Idx → Elt Ideal .f32) (A9 : S1x64.Idx → Elt Ideal .f32) (i : S100000x64.Idx) (p : Fin 2000) (q : Fin 64)
    (h0 : ∀ k, x0 (ix2 p k) = A0 (ix2 (i 0) k))
    (h1 : ∀ k, x1 (ix2 p k) = A1 (ix2 (i 0) k))
    (h2 : ∀ k, x2 (ix2 p k) = A2 (ix2 (i 0) k))
    (h3 : x3 (ix2 p (0 : Fin 1)) = A3 (ix2 (i 0) (0 : Fin 1)))
    (h4 : ∀ k j, x4 (ix2 k j) = A4 (ix2 k j))
    (h5 : ∀ k j, x5 (ix2 k j) = A5 (ix2 k j))
    (h6 : ∀ k j, x6 (ix2 k j) = A6 (ix2 k j))
    (h7 : ∀ j, x7 (ix2 (0 : Fin 1) j) = A7 (ix2 (0 : Fin 1) j))
    (h8 : ∀ k j, x8 (ix2 k j) = A8 (ix2 k j))
    (h9 : ∀ j, x9 (ix2 (0 : Fin 1) j) = A9 (ix2 (0 : Fin 1) j))
    (hq : i 1 = q) :
    k2_pay1 (F := Ideal) (k2_pay2 x0 x1 x2 x3 x4 x5 x6 x7) x8 x9 (ix2 p q) = G2out A0 A1 A2 A3 A4 A5 A6 A7 A8 A9 i := by
  rw [Pay.pay2_out]
  unfold G2out
  rw [hq]
  simp only [h0, h1, h2, h3, h4, h5, h6, h7, h8, h9]

set_option maxHeartbeats 1600000 in
/-- What point t writes back is block t of the stage of the arrays as the region finds them. -/
theorem flushed_out (c : Dev nD) (t : Fin cfg2.N) :
    (dat2 V c).flushed 10 t = ((cfg2.win 10).blk t).view.read (Elt Ideal)
      (G2out (V c main_v34_0) (V c main_v44) (V c main_v54) (V c main_v19) (V c main_v55) (V c main_v56) (V c main_v57) (V c main_v58) (V c main_arg10) (V c main_v59)) := by
  show (cfg2.win 10).cut (grid2.coords t) ((dat2 V c).after 10 t) = _
  rw [after2_10]
  unfold out2_10
  rw [View.canon_unit_zero hz]
  simp only [View.ld_unit_zero (S := S2000x64) hz, View.ld_unit_zero (S := S2000x1) hz, View.ld_unit_zero (S := S64x384) hz, View.ld_unit_zero (S := S1x384) hz, View.ld_unit_zero (S := S384x64) hz, View.ld_unit_zero (S := S1x64) hz]
  obtain ⟨e0, e1, e2, e3, e4, e5, e6, e7, e8, e9, e10, e11, e12, e13, e14, e15, e16, e17, e18, e19, e20, elast⟩ := idx_facts t
  funext j
  obtain ⟨p, q, rfl⟩ : ∃ (p : Fin 2000) (q : Fin 64), j = ix2 p q := ⟨j 0, j 1, eq_ix2 j⟩
  show k2_pay1 (F := Ideal) (k2_pay2 (iblk2 V c 0 t) (iblk2 V c 1 t) (iblk2 V c 2 t) (iblk2 V c 3 t) (iblk2 V c 4 t) (iblk2 V c 5 t) (iblk2 V c 6 t) (iblk2 V c 7 t)) (iblk2 V c 8 t) (iblk2 V c 9 t) (ix2 p q)
    = G2out (V c main_v34_0) (V c main_v44) (V c main_v54) (V c main_v19) (V c main_v55) (V c main_v56) (V c main_v57) (V c main_v58) (V c main_arg10) (V c main_v59) (((cfg2.win 10).blk t).view.emb (ix2 p q))
  refine point_out (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (V c main_v34_0) (V c main_v44) (V c main_v54) (V c main_v19) (V c main_v55) (V c main_v56) (V c main_v57) (V c main_v58) (V c main_arg10) (V c main_v59)
    (((cfg2.win 10).blk t).view.emb (ix2 p q)) p q ?_ ?_ ?_ ?_ ?_ ?_ ?_ ?_ ?_ ?_ ?_
  · intro k
    show V c main_v34_0 (((cfg2.win 0).blk t).view.emb (ix2 p k)) = V c main_v34_0 _
    refine congrArg (V c main_v34_0) (funext fun a => Fin.ext ?_)
    match a with
    | ⟨0, _⟩ => show win2_0.index t (0 : Fin 2) * 2000 + 1 * p.val = win2_10.index t (0 : Fin 2) * 2000 + 1 * p.val; omega
    | ⟨1, _⟩ => show win2_0.index t (1 : Fin 2) * 64 + 1 * k.val = k.val; omega
  · intro k
    show V c main_v44 (((cfg2.win 1).blk t).view.emb (ix2 p k)) = V c main_v44 _
    refine congrArg (V c main_v44) (funext fun a => Fin.ext ?_)
    match a with
    | ⟨0, _⟩ => show win2_1.index t (0 : Fin 2) * 2000 + 1 * p.val = win2_10.index t (0 : Fin 2) * 2000 + 1 * p.val; omega
    | ⟨1, _⟩ => show win2_1.index t (1 : Fin 2) * 64 + 1 * k.val = k.val; omega
  · intro k
    show V c main_v54 (((cfg2.win 2).blk t).view.emb (ix2 p k)) = V c main_v54 _
    refine congrArg (V c main_v54) (funext fun a => Fin.ext ?_)
    match a with
    | ⟨0, _⟩ => show win2_2.index t (0 : Fin 2) * 2000 + 1 * p.val = win2_10.index t (0 : Fin 2) * 2000 + 1 * p.val; omega
    | ⟨1, _⟩ => show win2_2.index t (1 : Fin 2) * 64 + 1 * k.val = k.val; omega
  · show V c main_v19 (((cfg2.win 3).blk t).view.emb (ix2 p (0 : Fin 1))) = V c main_v19 _
    refine congrArg (V c main_v19) (funext fun a => Fin.ext ?_)
    match a with
    | ⟨0, _⟩ => show win2_3.index t (0 : Fin 2) * 2000 + 1 * p.val = win2_10.index t (0 : Fin 2) * 2000 + 1 * p.val; omega
    | ⟨1, _⟩ => show win2_3.index t (1 : Fin 2) * 1 + 1 * 0 = 0; omega
  · intro k j
    show V c main_v55 (((cfg2.win 4).blk t).view.emb (ix2 k j)) = V c main_v55 _
    refine congrArg (V c main_v55) (funext fun a => Fin.ext ?_)
    match a with
    | ⟨0, _⟩ => show win2_4.index t (0 : Fin 2) * 64 + 1 * k.val = k.val; omega
    | ⟨1, _⟩ => show win2_4.index t (1 : Fin 2) * 384 + 1 * j.val = j.val; omega
  · intro k j
    show V c main_v56 (((cfg2.win 5).blk t).view.emb (ix2 k j)) = V c main_v56 _
    refine congrArg (V c main_v56) (funext fun a => Fin.ext ?_)
    match a with
    | ⟨0, _⟩ => show win2_5.index t (0 : Fin 2) * 64 + 1 * k.val = k.val; omega
    | ⟨1, _⟩ => show win2_5.index t (1 : Fin 2) * 384 + 1 * j.val = j.val; omega
  · intro k j
    show V c main_v57 (((cfg2.win 6).blk t).view.emb (ix2 k j)) = V c main_v57 _
    refine congrArg (V c main_v57) (funext fun a => Fin.ext ?_)
    match a with
    | ⟨0, _⟩ => show win2_6.index t (0 : Fin 2) * 64 + 1 * k.val = k.val; omega
    | ⟨1, _⟩ => show win2_6.index t (1 : Fin 2) * 384 + 1 * j.val = j.val; omega
  · intro j
    show V c main_v58 (((cfg2.win 7).blk t).view.emb (ix2 (0 : Fin 1) j)) = V c main_v58 _
    refine congrArg (V c main_v58) (funext fun a => Fin.ext ?_)
    match a with
    | ⟨0, _⟩ => show win2_7.index t (0 : Fin 2) * 1 + 1 * 0 = 0; omega
    | ⟨1, _⟩ => show win2_7.index t (1 : Fin 2) * 384 + 1 * j.val = j.val; omega
  · intro k j
    show V c main_arg10 (((cfg2.win 8).blk t).view.emb (ix2 k j)) = V c main_arg10 _
    refine congrArg (V c main_arg10) (funext fun a => Fin.ext ?_)
    match a with
    | ⟨0, _⟩ => show win2_8.index t (0 : Fin 2) * 384 + 1 * k.val = k.val; omega
    | ⟨1, _⟩ => show win2_8.index t (1 : Fin 2) * 64 + 1 * j.val = j.val; omega
  · intro j
    show V c main_v59 (((cfg2.win 9).blk t).view.emb (ix2 (0 : Fin 1) j)) = V c main_v59 _
    refine congrArg (V c main_v59) (funext fun a => Fin.ext ?_)
    match a with
    | ⟨0, _⟩ => show win2_9.index t (0 : Fin 2) * 1 + 1 * 0 = 0; omega
    | ⟨1, _⟩ => show win2_9.index t (1 : Fin 2) * 64 + 1 * j.val = j.val; omega
  · refine Fin.ext ?_
    show win2_10.index t (1 : Fin 2) * 64 + 1 * q.val = q.val
    omega

/-- An index of the output array is in point t's block iff each coordinate is in the block's range. -/
theorem mem_blk_out (t : Fin cfg2.N) (i : S100000x64.Idx) :
    i ∈ ((cfg2.win 10).blk t).view.set ↔ ∀ a : Fin 2, win2_10.index t a * S2000x64.size a ≤ (i a).val ∧ (i a).val < win2_10.index t a * S2000x64.size a + S2000x64.size a := by
  show i ∈ ((View.whole main_v60).slice (win2_10.rect t)).set ↔ _
  rw [View.set_slice_whole, Rect.mem_set_unit]
  exact Iff.rfl

/-- The fifty blocks of 2000 rows cover the 100000 rows: row r lies in block r / 2000. -/
theorem cover_out (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  obtain ⟨t, ht⟩ := idx_onto ⟨(i 0).val / 2000, by omega⟩
  have q0 : win2_10.index t (0 : Fin 2) = (i 0).val / 2000 := congrFun ht 0
  have q1 : win2_10.index t (1 : Fin 2) = 0 := congrFun ht 1
  refine ⟨t, flush2_10 t, ?_⟩
  rw [mem_blk_out]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 64 ≤ (i 1).val ∧ (i 1).val < win2_10.index t (1 : Fin 2) * 64 + 64; omega

/-- The output array after the region: the stage of the arrays the region found. -/
theorem final_out (c : Dev nD) :
    (dat2 V c).arrAt 10 cfg2.N = G2out (V c main_v34_0) (V c main_v44) (V c main_v54) (V c main_v19) (V c main_v55) (V c main_v56) (V c main_v57) (V c main_v58) (V c main_arg10) (V c main_v59) :=
  (dat2 V c).arrAt_eq_of_cover 10 (G2out (V c main_v34_0) (V c main_v44) (V c main_v54) (V c main_v19) (V c main_v55) (V c main_v56) (V c main_v57) (V c main_v58) (V c main_arg10) (V c main_v59))
    (fun t _ => flushed_out V c t) cover_out

end Cert.KernelIdeal.Reg2

end
-- ==== Proof.KerValue.lean ====
/-
  The kernel program's result as one function of its fifteen arguments: the three row-wise stages composed
  through the host's edge sums. Each region's output array is the stage of the arrays the region finds
  (Region0–2), and what it finds is the previous stage's output, an edge sum of it, the clamped in-degree
  column, or a slice or a one-row view of an argument.
-/
import proofs.«157232_j15032385536064_1_alg».proof.Proof.KerRun
import proofs.«157232_j15032385536064_1_alg».proof.Proof.Region0
import proofs.«157232_j15032385536064_1_alg».proof.Proof.Region1
import proofs.«157232_j15032385536064_1_alg».proof.Proof.Region2

set_option maxRecDepth 16384

noncomputable section

namespace Cert.KernelIdeal.KerValue

open Cert.KernelIdeal Cert.KernelIdeal.Gen Cert.KernelIdeal.KerRun Idealize.ShloMosaic Idealize.ShloMosaic.TcCoe Idealize.SL.Sem

/-- The input features: the input stage of the content rows and the gathered node embeddings. -/
def kH (a0 : FVec Ideal S100000x256 .f32) (a1 : FVec Ideal S100001x64 .f32) (a2 : FVec Ideal S256x64 .f32)
    (a3 : FVec Ideal S64 .f32) (a12 : IVec S100000 32) : FVec Ideal S100000x64 .f32 :=
  Reg0.G0 a0 (nembG (F := Ideal) a1 a12) a2 (shapeCast S1x64 a3 shapeCasts_S64_S1x64)

/-- The first layer's new features from the input features h. -/
def kN (h : FVec Ideal S100000x64 .f32) (a4 : FVec Ideal S128x256 .f32) (a5 : FVec Ideal S256 .f32)
    (a6 : FVec Ideal S256x64 .f32) (a7 : FVec Ideal S64 .f32) (a13 a14 : IVec S1600000 32) : FVec Ideal S100000x64 .f32 :=
  Reg1.G1new h (segsum (F := Ideal) h a13 a14) (wden (F := Ideal) a14)
    (extractStridedSlice S64x256 ![0, 0] a4 slices_S128x256_S64x256_0_0)
    (extractStridedSlice S64x256 ![64, 0] a4 slices_S128x256_S64x256_64_0)
    (shapeCast S1x256 a5 shapeCasts_S256_S1x256) a6 (shapeCast S1x64 a7 shapeCasts_S64_S1x64)

/-- The first layer's residual from the input features h. -/
def kR (h : FVec Ideal S100000x64 .f32) (a13 a14 : IVec S1600000 32) : FVec Ideal S100000x64 .f32 :=
  Reg1.G1res h (segsum (F := Ideal) h a13 a14) (wden (F := Ideal) a14)

/-- The second layer from the new features n and the residual r. -/
def kO (n r : FVec Ideal S100000x64 .f32) (a8 : FVec Ideal S192x384 .f32) (a9 : FVec Ideal S384 .f32)
    (a10 : FVec Ideal S384x64 .f32) (a11 : FVec Ideal S64 .f32) (a13 a14 : IVec S1600000 32) : FVec Ideal S100000x64 .f32 :=
  Reg2.G2out n (segsum (F := Ideal) n a13 a14) (segsum (F := Ideal) r a13 a14) (wden (F := Ideal) a14)
    (extractStridedSlice S64x384 ![0, 0] a8 slices_S192x384_S64x384_0_0)
    (extractStridedSlice S64x384 ![64, 0] a8 slices_S192x384_S64x384_64_0)
    (extractStridedSlice S64x384 ![128, 0] a8 slices_S192x384_S64x384_128_0)
    (shapeCast S1x384 a9 shapeCasts_S384_S1x384) a10 (shapeCast S1x64 a11 shapeCasts_S64_S1x64)

variable (m : (ℓ : Loc nD τ sig) → Buf (Elt Ideal) ℓ) (ρ : Dev nD → PrngReg) (c : Dev nD)

/-- The input features after the first region. -/
theorem value0 : (dat0 (V1 m ρ) c).arrAt 4 cfg0.N
    = kH (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg12)) := by
  rw [Reg0.final (V1 m ρ) c, entry0_w0 m ρ c, entry0_w1 m ρ c, entry0_w2 m ρ c, entry0_w3 m ρ c]
  rfl

/-- The new features after the second region. -/
theorem value1_new : (dat1 (V3 m ρ) c).arrAt 8 cfg1.N
    = kN ((dat0 (V1 m ρ) c).arrAt 4 cfg0.N) (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg13)) (m ((c.tc : Thread nD τ).loc main_arg14)) := by
  rw [Reg1.final_new (V3 m ρ) c, entry1_w0 m ρ c, entry1_w1 m ρ c, entry1_w2 m ρ c, entry1_w3 m ρ c, entry1_w4 m ρ c, entry1_w5 m ρ c, entry1_w6 m ρ c, entry1_w7 m ρ c]
  rfl

/-- The residual after the second region. -/
theorem value1_res : (dat1 (V3 m ρ) c).arrAt 9 cfg1.N
    = kR ((dat0 (V1 m ρ) c).arrAt 4 cfg0.N) (m ((c.tc : Thread nD τ).loc main_arg13)) (m ((c.tc : Thread nD τ).loc main_arg14)) := by
  rw [Reg1.final_res (V3 m ρ) c, entry1_w0 m ρ c, entry1_w1 m ρ c, entry1_w2 m ρ c]
  rfl

set_option maxHeartbeats 2000000 in
/-- The result after the third region. -/
theorem value2 : (dat2 (V5 m ρ) c).arrAt 10 cfg2.N
    = kO ((dat1 (V3 m ρ) c).arrAt 8 cfg1.N) ((dat1 (V3 m ρ) c).arrAt 9 cfg1.N) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg13)) (m ((c.tc : Thread nD τ).loc main_arg14)) := by
  rw [Reg2.final_out (V5 m ρ) c, entry2_w0 m ρ c, entry2_w1 m ρ c, entry2_w2 m ρ c, entry2_w3 m ρ c, entry2_w4 m ρ c, entry2_w5 m ρ c, entry2_w6 m ρ c, entry2_w7 m ρ c,
    entry2_w8 m ρ c, entry2_w9 m ρ c]
  rfl

/-- The kernel program as one function of its arguments. -/
def kout (a0 : FVec Ideal S100000x256 .f32) (a1 : FVec Ideal S100001x64 .f32) (a2 : FVec Ideal S256x64 .f32)
    (a3 : FVec Ideal S64 .f32) (a4 : FVec Ideal S128x256 .f32) (a5 : FVec Ideal S256 .f32) (a6 : FVec Ideal S256x64 .f32)
    (a7 : FVec Ideal S64 .f32) (a8 : FVec Ideal S192x384 .f32) (a9 : FVec Ideal S384 .f32) (a10 : FVec Ideal S384x64 .f32)
    (a11 : FVec Ideal S64 .f32) (a12 : IVec S100000 32) (a13 a14 : IVec S1600000 32) : FVec Ideal S100000x64 .f32 :=
  kO (kN (kH a0 a1 a2 a3 a12) a4 a5 a6 a7 a13 a14) (kR (kH a0 a1 a2 a3 a12) a13 a14) a8 a9 a10 a11 a13 a14

/-- The result array after the whole program. -/
theorem value : (dat2 (V5 m ρ) c).arrAt 10 cfg2.N
    = kout (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) := by
  rw [value2 m ρ c, value1_new m ρ c, value1_res m ρ c, value0 m ρ c]
  rfl

end Cert.KernelIdeal.KerValue

end
-- ==== Proof.RefStages.lean ====
/-
  The reference program's stages as functions of whole arrays, each the composition of the operations the
  reference applies, in its order: the gathered node embeddings, the input stage, the clamped in-degree column,
  the sum over in-edges (a gather at the edges' sources added into the edges' targets), the neighbourhood mean,
  the row normalisation, and the two layers' pre-normalisation rows over the concatenated features.
-/
import proofs.«157232_j15032385536064_1_alg».proof.Proof.Gen.ReferenceIdeal

noncomputable section

namespace Cert.ReferenceIdeal.RefStages

open Cert.ReferenceIdeal Cert.ReferenceIdeal.Gen Idealize.ShloMosaic

variable {F : FTy → Type} [FloatOps F]

/-- The leaky rectifier of slope 0.1 over an array of any shape: x where x ≥ 0, 0.1·x elsewhere. -/
def lreluV (S : Shape) (hb : S_.BroadcastsInDim S (![] : Fin 0 → Fin S.rank)) (x : FVec F S .f32) : FVec F S .f32 :=
  select (cmpf .oge x (broadcastInDim S ![] hb (constant (F := F) S_ .f32 0x00000000#32))) x
    (mulf (broadcastInDim S ![] hb (id (constant (F := F) S_ .f32 0x3DCCCCCD#32))) x)

/-- The node embeddings: per node, row nid + 1 of the embedding table (a negative row number wrapped by the
    table's length). -/
def nembG (a1 : FVec F S100001x64 .f32) (a12 : IVec S100000 32) : FVec F S100000x64 .f32 :=
  Host.gather gather_S100001x64_S100000x1_S100000x64_1_0_n_n_0_1_164 a1
    (broadcastInDim S100000x1 ![0] bcast_S100000_S100000x1_0
      (select
        (cmpi CmpIPredicate.slt
          (addi a12 (broadcastInDim S100000 ![] bcast_S_S100000 (constantI S_ 32 1#32)))
          (broadcastInDim S100000 ![] bcast_S_S100000 (constantI S_ 32 0#32)))
        (addi
          (addi a12 (broadcastInDim S100000 ![] bcast_S_S100000 (constantI S_ 32 1#32)))
          (broadcastInDim S100000 ![] bcast_S_S100000 (constantI S_ 32 100001#32)))
        (addi a12 (broadcastInDim S100000 ![] bcast_S_S100000 (constantI S_ 32 1#32)))))

/-- The sum over edges into each node: the rows of x gathered at the edges' source nodes, added edge by edge
    into the row of the edge's target node, from zero. -/
def segsum (x : FVec F S100000x64 .f32) (a13 a14 : IVec S1600000 32) : FVec F S100000x64 .f32 :=
  Host.scatterAdd (F := F) scatter_S100000x64_S1600000x1_S1600000x64_1_0_0_1
    (broadcastInDim S100000x64 ![] bcast_S_S100000x64 (constant (F := F) S_ .f32 0x00000000#32))
    (broadcastInDim S1600000x1 ![0] bcast_S1600000_S1600000x1_0 a14)
    (Host.gather gather_S100000x64_S1600000x1_S1600000x64_1_0_n_n_0_1_164 x
      (broadcastInDim S1600000x1 ![0] bcast_S1600000_S1600000x1_0
        (select
          (cmpi CmpIPredicate.slt a13 (broadcastInDim S1600000 ![] bcast_S_S1600000 (constantI S_ 32 0#32)))
          (addi a13 (broadcastInDim S1600000 ![] bcast_S_S1600000 (constantI S_ 32 100000#32)))
          a13)))

/-- The degree weight per node, as a column: the number of edges into the node less one, and at least one. -/
def wden (a14 : IVec S1600000 32) : FVec F S100000x1 .f32 :=
  broadcastInDim S100000x1 ![0] bcast_S100000_S100000x1_0
    (maximumf (F := F)
      (subf (F := F)
        (Host.scatterAdd (F := F) scatter_S100000_S1600000x1_S1600000_n_0_0_1
          (broadcastInDim S100000 ![] bcast_S_S100000 (constant (F := F) S_ .f32 0x00000000#32))
          (broadcastInDim S1600000x1 ![0] bcast_S1600000_S1600000x1_0 a14)
          (broadcastInDim S1600000 ![] bcast_S_S1600000 (constant (F := F) S_ .f32 0x3F800000#32)))
        (broadcastInDim S100000 ![] bcast_S_S100000 (constant (F := F) S_ .f32 0x3F800000#32)))
      (broadcastInDim S100000 ![] bcast_S_S100000 (constant (F := F) S_ .f32 0x3F800000#32)))

/-- The input stage: e + φ(a0·a2 + a3). -/
def hInit (a0 : FVec F S100000x256 .f32) (e : FVec F S100000x64 .f32) (a2 : FVec F S256x64 .f32) (a3 : FVec F S64 .f32) :
    FVec F S100000x64 .f32 :=
  addf e (lreluV S100000x64 bcast_S_S100000x64
    (addf (Host.dotGeneral dot_S100000x256_S256x64_S100000x64_1_0_0_1_n_n none a0 a2)
      (broadcastInDim S100000x64 ![0, 1] bcast_S1x64_S100000x64_0_1 (broadcastInDim S1x64 ![1] bcast_S64_S1x64_1 a3))))

/-- The neighbourhood mean: (s − x) / w, the column w spread over the feature axis. -/
def adj (s x : FVec F S100000x64 .f32) (wd : FVec F S100000x1 .f32) : FVec F S100000x64 .f32 :=
  Host.divf (subf s x) (broadcastInDim S100000x64 ![0, 1] bcast_S100000x1_S100000x64_0_1 wd)

/-- The row normalisation: each row divided by its Euclidean norm clamped below at 10⁻⁶. -/
def l2n (x : FVec F S100000x64 .f32) : FVec F S100000x64 .f32 :=
  Host.divf x (broadcastInDim S100000x64 ![0, 1] bcast_S100000x1_S100000x64_0_1
    (maximumf
      (Host.sqrt (broadcastInDim S100000x1 ![0] bcast_S100000_S100000x1_0
        (Host.reduceAdd (mulf x x) (constant (F := F) S_ .f32 0x00000000#32) reducesTo_S100000x64_S100000_d1 h_S_)))
      (broadcastInDim S100000x1 ![] bcast_S_S100000x1 (constant (F := F) S_ .f32 0x358637BD#32))))

/-- The first layer before normalisation: φ(φ([h | a]·a4 + a5)·a6 + a7). -/
def l0pre (h ha : FVec F S100000x64 .f32) (a4 : FVec F S128x256 .f32) (a5 : FVec F S256 .f32) (a6 : FVec F S256x64 .f32)
    (a7 : FVec F S64 .f32) : FVec F S100000x64 .f32 :=
  lreluV S100000x64 bcast_S_S100000x64
    (addf (Host.dotGeneral dot_S100000x256_S256x64_S100000x64_1_0_0_1_n_n none
        (lreluV S100000x256 bcast_S_S100000x256
          (addf (Host.dotGeneral dot_S100000x128_S128x256_S100000x256_1_0_0_1_n_n none
              (concatenate S100000x128 1 [⟨S100000x64, h⟩, ⟨S100000x64, ha⟩] concatenates_S100000x64_S100000x64_S100000x128_d1) a4)
            (broadcastInDim S100000x256 ![0, 1] bcast_S1x256_S100000x256_0_1 (broadcastInDim S1x256 ![1] bcast_S256_S1x256_1 a5))))
        a6)
      (broadcastInDim S100000x64 ![0, 1] bcast_S1x64_S100000x64_0_1 (broadcastInDim S1x64 ![1] bcast_S64_S1x64_1 a7)))

/-- The second layer before normalisation: φ([hn | a | r]·a8 + a9)·a10 + a11. -/
def l1pre (hn ha hr : FVec F S100000x64 .f32) (a8 : FVec F S192x384 .f32) (a9 : FVec F S384 .f32) (a10 : FVec F S384x64 .f32)
    (a11 : FVec F S64 .f32) : FVec F S100000x64 .f32 :=
  addf (Host.dotGeneral dot_S100000x384_S384x64_S100000x64_1_0_0_1_n_n none
      (lreluV S100000x384 bcast_S_S100000x384
        (addf (Host.dotGeneral dot_S100000x192_S192x384_S100000x384_1_0_0_1_n_n none
            (concatenate S100000x192 1 [⟨S100000x64, hn⟩, ⟨S100000x64, ha⟩, ⟨S100000x64, hr⟩]
              concatenates_S100000x64_S100000x64_S100000x64_S100000x192_d1) a8)
          (broadcastInDim S100000x384 ![0, 1] bcast_S1x384_S100000x384_0_1 (broadcastInDim S1x384 ![1] bcast_S384_S1x384_1 a9))))
      a10)
    (broadcastInDim S100000x64 ![0, 1] bcast_S1x64_S100000x64_0_1 (broadcastInDim S1x64 ![1] bcast_S64_S1x64_1 a11))

/-- The input features. -/
def rH (a0 : FVec F S100000x256 .f32) (a1 : FVec F S100001x64 .f32) (a2 : FVec F S256x64 .f32) (a3 : FVec F S64 .f32)
    (a12 : IVec S100000 32) : FVec F S100000x64 .f32 :=
  hInit a0 (nembG a1 a12) a2 a3

/-- The first layer's new features from the input features h. -/
def rN (h : FVec F S100000x64 .f32) (a4 : FVec F S128x256 .f32) (a5 : FVec F S256 .f32) (a6 : FVec F S256x64 .f32)
    (a7 : FVec F S64 .f32) (a13 a14 : IVec S1600000 32) : FVec F S100000x64 .f32 :=
  l2n (l0pre h (adj (segsum h a13 a14) h (wden a14)) a4 a5 a6 a7)

/-- The first layer's residual from the input features h. -/
def rR (h : FVec F S100000x64 .f32) (a13 a14 : IVec S1600000 32) : FVec F S100000x64 .f32 :=
  l2n (adj (segsum h a13 a14) h (wden a14))

/-- The second layer from the new features n and the residual r. -/
def rO (n r : FVec F S100000x64 .f32) (a8 : FVec F S192x384 .f32) (a9 : FVec F S384 .f32) (a10 : FVec F S384x64 .f32)
    (a11 : FVec F S64 .f32) (a13 a14 : IVec S1600000 32) : FVec F S100000x64 .f32 :=
  l2n (l1pre n (adj (segsum n a13 a14) n (wden a14)) (segsum r a13 a14) a8 a9 a10 a11)

/-- The reference program as one function of its arguments. -/
def out (a0 : FVec F S100000x256 .f32) (a1 : FVec F S100001x64 .f32) (a2 : FVec F S256x64 .f32) (a3 : FVec F S64 .f32)
    (a4 : FVec F S128x256 .f32) (a5 : FVec F S256 .f32) (a6 : FVec F S256x64 .f32) (a7 : FVec F S64 .f32)
    (a8 : FVec F S192x384 .f32) (a9 : FVec F S384 .f32) (a10 : FVec F S384x64 .f32) (a11 : FVec F S64 .f32)
    (a12 : IVec S100000 32) (a13 a14 : IVec S1600000 32) : FVec F S100000x64 .f32 :=
  rO (rN (rH a0 a1 a2 a3 a12) a4 a5 a6 a7 a13 a14) (rR (rH a0 a1 a2 a3 a12) a13 a14) a8 a9 a10 a11 a13 a14

end Cert.ReferenceIdeal.RefStages

end
-- ==== Proof.RefRun.lean ====
import proofs.«157232_j15032385536064_1_alg».proof.Proof.Gen.ReferenceIdeal
import proofs.«157232_j15032385536064_1_alg».proof.Proof.RefStages
import Idealize.ShloMosaic.Lib.StableHlo.Run

noncomputable section

/-! # The reference program's run

The reference's main function is a straight line of tensor operations, some of them inside called functions
(a leaky ReLU that itself calls a selection, and a row norm). This file lists the line with every called body
written out at its call site, shows the main function equal to that line, and reads the line's run back: every
weakly fair execution terminates, the result buffer holds `out` of the arguments' launch contents — `out` the
composition of the stage functions stated beside this file — and no argument buffer changes. The value is read window by window, one
window per stage, so that a stage's result is named once however many later stages consume it. -/

namespace Cert.ReferenceIdeal.RefRun

open Cert.ReferenceIdeal Cert.ReferenceIdeal.Gen Cert.ReferenceIdeal.RefStages Idealize.ShloMosaic Idealize.ShloMosaic.TcCoe Idealize.SL.Sem Idealize.ShloMosaic.StableHlo

variable {F : FTy → Type} [FloatOps F]
/-- The reference's operations in program order: the operations of the main function with each called
    function's body written out at its call site over that call's own buffers (a leaky-ReLU call is seven
    operations ending in the selection of its nested call, a row-norm call is five). -/
abbrev ops : List (HloOp τ sig (Elt F)) :=
  [ nullary main_c (constantI S_ 32 1#32),
    unary main_c main_v0 (broadcastInDim S100000 ![] bcast_S_S100000 : (⟨S_, .i32⟩ : BufTy).Contents (Elt F) → (⟨S100000, .i32⟩ : BufTy).Contents (Elt F)),
    binary main_arg12 main_v0 main_v1 (addi : (⟨S100000, .i32⟩ : BufTy).Contents (Elt F) → (⟨S100000, .i32⟩ : BufTy).Contents (Elt F) → (⟨S100000, .i32⟩ : BufTy).Contents (Elt F)),
    nullary main_c_0 (constantI S_ 32 0#32),
    unary main_c_0 main_v2 (broadcastInDim S100000 ![] bcast_S_S100000 : (⟨S_, .i32⟩ : BufTy).Contents (Elt F) → (⟨S100000, .i32⟩ : BufTy).Contents (Elt F)),
    binary main_v1 main_v2 main_v3 (cmpi .slt : (⟨S100000, .i32⟩ : BufTy).Contents (Elt F) → (⟨S100000, .i32⟩ : BufTy).Contents (Elt F) → (⟨S100000, .i1⟩ : BufTy).Contents (Elt F)),
    nullary main_c_1 (constantI S_ 32 100001#32),
    unary main_c_1 main_v4 (broadcastInDim S100000 ![] bcast_S_S100000 : (⟨S_, .i32⟩ : BufTy).Contents (Elt F) → (⟨S100000, .i32⟩ : BufTy).Contents (Elt F)),
    binary main_v1 main_v4 main_v5 (addi : (⟨S100000, .i32⟩ : BufTy).Contents (Elt F) → (⟨S100000, .i32⟩ : BufTy).Contents (Elt F) → (⟨S100000, .i32⟩ : BufTy).Contents (Elt F)),
    ternary main_v3 main_v5 main_v1 main_v6 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v6 main_v7 (broadcastInDim S100000x1 ![0] bcast_S100000_S100000x1_0 : (⟨S100000, .i32⟩ : BufTy).Contents (Elt F) → (⟨S100000x1, .i32⟩ : BufTy).Contents (Elt F)),
    binary main_arg1 main_v7 main_v8 ((fun x i => Host.gather gather_S100001x64_S100000x1_S100000x64_1_0_n_n_0_1_164 x i) : (⟨S100001x64, .f32⟩ : BufTy).Contents (Elt F) → (⟨S100000x1, .i32⟩ : BufTy).Contents (Elt F) → (⟨S100000x64, .f32⟩ : BufTy).Contents (Elt F)),
    binary main_arg0 main_arg2 main_v9 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg3 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    nullary main_cst (constant S_ .f32 0x3DCCCCCD#32),
    TRef.nullary main_call0.cst (constant S_ .f32 0x00000000#32),
    TRef.unary main_call0.cst main_call0.v0 (broadcastInDim S100000x64 ![] bcast_S_S100000x64),
    TRef.binary (.of main_v12 : TRef sig ⟨S100000x64, .f32⟩) main_call0.v0 main_call0.v1 (cmpf .oge),
    TRef.unary (.of main_cst : TRef sig ⟨S_, .f32⟩) main_call0.v2 id,
    TRef.unary main_call0.v2 main_call0.v3 (broadcastInDim S100000x64 ![] bcast_S_S100000x64),
    TRef.binary main_call0.v3 (.of main_v12 : TRef sig ⟨S100000x64, .f32⟩) main_call0.v4 mulf,
    TRef.ternary main_call0.v1 (.of main_v12 : TRef sig ⟨S100000x64, .f32⟩) main_call0.v4 main_call0.call0.v0 select,
    binary main_v8 main_v13 main_v14 (addf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3F800000#32),
    unary main_cst_2 main_v15 (broadcastInDim S1600000 ![] bcast_S_S1600000 : (⟨S_, .f32⟩ : BufTy).Contents (Elt F) → (⟨S1600000, .f32⟩ : BufTy).Contents (Elt F)),
    nullary main_cst_3 (constant S_ .f32 0x00000000#32),
    unary main_cst_3 main_v16 (broadcastInDim S100000 ![] bcast_S_S100000 : (⟨S_, .f32⟩ : BufTy).Contents (Elt F) → (⟨S100000, .f32⟩ : BufTy).Contents (Elt F)),
    unary main_arg14 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_4 (constant S_ .f32 0x3F800000#32),
    unary main_cst_4 main_v19 (broadcastInDim S100000 ![] bcast_S_S100000 : (⟨S_, .f32⟩ : BufTy).Contents (Elt F) → (⟨S100000, .f32⟩ : BufTy).Contents (Elt F)),
    binary main_v18 main_v19 main_v20 (subf : (⟨S100000, .f32⟩ : BufTy).Contents (Elt F) → (⟨S100000, .f32⟩ : BufTy).Contents (Elt F) → (⟨S100000, .f32⟩ : BufTy).Contents (Elt F)),
    nullary main_cst_5 (constant S_ .f32 0x3F800000#32),
    unary main_cst_5 main_v21 (broadcastInDim S100000 ![] bcast_S_S100000 : (⟨S_, .f32⟩ : BufTy).Contents (Elt F) → (⟨S100000, .f32⟩ : BufTy).Contents (Elt F)),
    binary main_v20 main_v21 main_v22 (maximumf : (⟨S100000, .f32⟩ : BufTy).Contents (Elt F) → (⟨S100000, .f32⟩ : BufTy).Contents (Elt F) → (⟨S100000, .f32⟩ : BufTy).Contents (Elt F)),
    unary main_v22 main_v23 (broadcastInDim S100000x1 ![0] bcast_S100000_S100000x1_0 : (⟨S100000, .f32⟩ : BufTy).Contents (Elt F) → (⟨S100000x1, .f32⟩ : BufTy).Contents (Elt F)),
    nullary main_c_6 (constantI S_ 32 0#32),
    unary main_c_6 main_v24 (broadcastInDim S1600000 ![] bcast_S_S1600000 : (⟨S_, .i32⟩ : BufTy).Contents (Elt F) → (⟨S1600000, .i32⟩ : BufTy).Contents (Elt F)),
    binary main_arg13 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v26 (broadcastInDim S1600000 ![] bcast_S_S1600000 : (⟨S_, .i32⟩ : BufTy).Contents (Elt F) → (⟨S1600000, .i32⟩ : BufTy).Contents (Elt F)),
    binary main_arg13 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg13 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v14 main_v29 main_v30 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_8 (constant S_ .f32 0x00000000#32),
    unary main_cst_8 main_v31 (broadcastInDim S100000x64 ![] bcast_S_S100000x64 : (⟨S_, .f32⟩ : BufTy).Contents (Elt F) → (⟨S100000x64, .f32⟩ : BufTy).Contents (Elt F)),
    unary main_arg14 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v33 main_v14 main_v34 (subf : (⟨S100000x64, .f32⟩ : BufTy).Contents (Elt F) → (⟨S100000x64, .f32⟩ : BufTy).Contents (Elt F) → (⟨S100000x64, .f32⟩ : BufTy).Contents (Elt F)),
    unary main_v23 main_v35 (broadcastInDim S100000x64 ![0, 1] bcast_S100000x1_S100000x64_0_1 : (⟨S100000x1, .f32⟩ : BufTy).Contents (Elt F) → (⟨S100000x64, .f32⟩ : BufTy).Contents (Elt F)),
    binary main_v34 main_v35 main_v36 (Host.divf : (⟨S100000x64, .f32⟩ : BufTy).Contents (Elt F) → (⟨S100000x64, .f32⟩ : BufTy).Contents (Elt F) → (⟨S100000x64, .f32⟩ : BufTy).Contents (Elt F)),
    binary main_v14 main_v36 main_v37 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v37 main_arg4 main_v38 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg5 main_v39 (broadcastInDim S1x256 ![1] bcast_S256_S1x256_1 : (⟨S256, .f32⟩ : BufTy).Contents (Elt F) → (⟨S1x256, .f32⟩ : BufTy).Contents (Elt F)),
    unary main_v39 main_v40 (broadcastInDim S100000x256 ![0, 1] bcast_S1x256_S100000x256_0_1 : (⟨S1x256, .f32⟩ : BufTy).Contents (Elt F) → (⟨S100000x256, .f32⟩ : BufTy).Contents (Elt F)),
    binary main_v38 main_v40 main_v41 (addf : (⟨S100000x256, .f32⟩ : BufTy).Contents (Elt F) → (⟨S100000x256, .f32⟩ : BufTy).Contents (Elt F) → (⟨S100000x256, .f32⟩ : BufTy).Contents (Elt F)),
    nullary main_cst_9 (constant S_ .f32 0x3DCCCCCD#32),
    TRef.nullary main_call1.cst (constant S_ .f32 0x00000000#32),
    TRef.unary main_call1.cst main_call1.v0 (broadcastInDim S100000x256 ![] bcast_S_S100000x256),
    TRef.binary (.of main_v41 : TRef sig ⟨S100000x256, .f32⟩) main_call1.v0 main_call1.v1 (cmpf .oge),
    TRef.unary (.of main_cst_9 : TRef sig ⟨S_, .f32⟩) main_call1.v2 id,
    TRef.unary main_call1.v2 main_call1.v3 (broadcastInDim S100000x256 ![] bcast_S_S100000x256),
    TRef.binary main_call1.v3 (.of main_v41 : TRef sig ⟨S100000x256, .f32⟩) main_call1.v4 mulf,
    TRef.ternary main_call1.v1 (.of main_v41 : TRef sig ⟨S100000x256, .f32⟩) main_call1.v4 main_call1.call0.v0 select,
    binary main_v42 main_arg6 main_v43 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg7 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3DCCCCCD#32),
    TRef.nullary main_call2.cst (constant S_ .f32 0x00000000#32),
    TRef.unary main_call2.cst main_call2.v0 (broadcastInDim S100000x64 ![] bcast_S_S100000x64),
    TRef.binary (.of main_v46 : TRef sig ⟨S100000x64, .f32⟩) main_call2.v0 main_call2.v1 (cmpf .oge),
    TRef.unary (.of main_cst_10 : TRef sig ⟨S_, .f32⟩) main_call2.v2 id,
    TRef.unary main_call2.v2 main_call2.v3 (broadcastInDim S100000x64 ![] bcast_S_S100000x64),
    TRef.binary main_call2.v3 (.of main_v46 : TRef sig ⟨S100000x64, .f32⟩) main_call2.v4 mulf,
    TRef.ternary main_call2.v1 (.of main_v46 : TRef sig ⟨S100000x64, .f32⟩) main_call2.v4 main_call2.call0.v0 select,
    TRef.binary (.of main_v47 : TRef sig ⟨S100000x64, .f32⟩) (.of main_v47 : TRef sig ⟨S100000x64, .f32⟩) main_call3.v0 mulf,
    TRef.nullary main_call3.cst (constant S_ .f32 0x00000000#32),
    TRef.binary main_call3.v0 main_call3.cst main_call3.v1 (fun x v => Host.reduceAdd x v reducesTo_S100000x64_S100000_d1 h_S_),
    TRef.unary main_call3.v1 main_call3.v2 (broadcastInDim S100000x1 ![0] bcast_S100000_S100000x1_0),
    TRef.unary main_call3.v2 main_call3.v3 Host.sqrt,
    nullary main_cst_11 (constant S_ .f32 0x358637BD#32),
    unary main_cst_11 main_v49 (broadcastInDim S100000x1 ![] bcast_S_S100000x1 : (⟨S_, .f32⟩ : BufTy).Contents (Elt F) → (⟨S100000x1, .f32⟩ : BufTy).Contents (Elt F)),
    binary main_v48 main_v49 main_v50 (maximumf : (⟨S100000x1, .f32⟩ : BufTy).Contents (Elt F) → (⟨S100000x1, .f32⟩ : BufTy).Contents (Elt F) → (⟨S100000x1, .f32⟩ : BufTy).Contents (Elt F)),
    unary main_v50 main_v51 (broadcastInDim S100000x64 ![0, 1] bcast_S100000x1_S100000x64_0_1 : (⟨S100000x1, .f32⟩ : BufTy).Contents (Elt F) → (⟨S100000x64, .f32⟩ : BufTy).Contents (Elt F)),
    binary main_v47 main_v51 main_v52 (Host.divf : (⟨S100000x64, .f32⟩ : BufTy).Contents (Elt F) → (⟨S100000x64, .f32⟩ : BufTy).Contents (Elt F) → (⟨S100000x64, .f32⟩ : BufTy).Contents (Elt F)),
    TRef.binary (.of main_v36 : TRef sig ⟨S100000x64, .f32⟩) (.of main_v36 : TRef sig ⟨S100000x64, .f32⟩) main_call4.v0 mulf,
    TRef.nullary main_call4.cst (constant S_ .f32 0x00000000#32),
    TRef.binary main_call4.v0 main_call4.cst main_call4.v1 (fun x v => Host.reduceAdd x v reducesTo_S100000x64_S100000_d1 h_S_),
    TRef.unary main_call4.v1 main_call4.v2 (broadcastInDim S100000x1 ![0] bcast_S100000_S100000x1_0),
    TRef.unary main_call4.v2 main_call4.v3 Host.sqrt,
    nullary main_cst_12 (constant S_ .f32 0x358637BD#32),
    unary main_cst_12 main_v54 (broadcastInDim S100000x1 ![] bcast_S_S100000x1 : (⟨S_, .f32⟩ : BufTy).Contents (Elt F) → (⟨S100000x1, .f32⟩ : BufTy).Contents (Elt F)),
    binary main_v53 main_v54 main_v55 (maximumf : (⟨S100000x1, .f32⟩ : BufTy).Contents (Elt F) → (⟨S100000x1, .f32⟩ : BufTy).Contents (Elt F) → (⟨S100000x1, .f32⟩ : BufTy).Contents (Elt F)),
    unary main_v55 main_v56 (broadcastInDim S100000x64 ![0, 1] bcast_S100000x1_S100000x64_0_1 : (⟨S100000x1, .f32⟩ : BufTy).Contents (Elt F) → (⟨S100000x64, .f32⟩ : BufTy).Contents (Elt F)),
    binary main_v36 main_v56 main_v57 (Host.divf : (⟨S100000x64, .f32⟩ : BufTy).Contents (Elt F) → (⟨S100000x64, .f32⟩ : BufTy).Contents (Elt F) → (⟨S100000x64, .f32⟩ : BufTy).Contents (Elt F)),
    nullary main_c_13 (constantI S_ 32 0#32),
    unary main_c_13 main_v58 (broadcastInDim S1600000 ![] bcast_S_S1600000 : (⟨S_, .i32⟩ : BufTy).Contents (Elt F) → (⟨S1600000, .i32⟩ : BufTy).Contents (Elt F)),
    binary main_arg13 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v60 (broadcastInDim S1600000 ![] bcast_S_S1600000 : (⟨S_, .i32⟩ : BufTy).Contents (Elt F) → (⟨S1600000, .i32⟩ : BufTy).Contents (Elt F)),
    binary main_arg13 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_arg13 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v52 main_v63 main_v64 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_15 (constant S_ .f32 0x00000000#32),
    unary main_cst_15 main_v65 (broadcastInDim S100000x64 ![] bcast_S_S100000x64 : (⟨S_, .f32⟩ : BufTy).Contents (Elt F) → (⟨S100000x64, .f32⟩ : BufTy).Contents (Elt F)),
    unary main_arg14 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_c_16 (constantI S_ 32 0#32),
    unary main_c_16 main_v68 (broadcastInDim S1600000 ![] bcast_S_S1600000 : (⟨S_, .i32⟩ : BufTy).Contents (Elt F) → (⟨S1600000, .i32⟩ : BufTy).Contents (Elt F)),
    binary main_arg13 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v70 (broadcastInDim S1600000 ![] bcast_S_S1600000 : (⟨S_, .i32⟩ : BufTy).Contents (Elt F) → (⟨S1600000, .i32⟩ : BufTy).Contents (Elt F)),
    binary main_arg13 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_arg13 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v57 main_v73 main_v74 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_18 (constant S_ .f32 0x00000000#32),
    unary main_cst_18 main_v75 (broadcastInDim S100000x64 ![] bcast_S_S100000x64 : (⟨S_, .f32⟩ : BufTy).Contents (Elt F) → (⟨S100000x64, .f32⟩ : BufTy).Contents (Elt F)),
    unary main_arg14 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v67 main_v52 main_v78 (subf : (⟨S100000x64, .f32⟩ : BufTy).Contents (Elt F) → (⟨S100000x64, .f32⟩ : BufTy).Contents (Elt F) → (⟨S100000x64, .f32⟩ : BufTy).Contents (Elt F)),
    unary main_v23 main_v79 (broadcastInDim S100000x64 ![0, 1] bcast_S100000x1_S100000x64_0_1 : (⟨S100000x1, .f32⟩ : BufTy).Contents (Elt F) → (⟨S100000x64, .f32⟩ : BufTy).Contents (Elt F)),
    binary main_v78 main_v79 main_v80 (Host.divf : (⟨S100000x64, .f32⟩ : BufTy).Contents (Elt F) → (⟨S100000x64, .f32⟩ : BufTy).Contents (Elt F) → (⟨S100000x64, .f32⟩ : BufTy).Contents (Elt F)),
    nary ![main_v52, main_v80, main_v77] main_v81 (fun u => concatenate S100000x192 1 [⟨S100000x64, u 0⟩, ⟨S100000x64, u 1⟩, ⟨S100000x64, u 2⟩] concatenates_S100000x64_S100000x64_S100000x64_S100000x192_d1),
    binary main_v81 main_arg8 main_v82 ((fun l r => Host.dotGeneral dot_S100000x192_S192x384_S100000x384_1_0_0_1_n_n none l r) : (⟨S100000x192, .f32⟩ : BufTy).Contents (Elt F) → (⟨S192x384, .f32⟩ : BufTy).Contents (Elt F) → (⟨S100000x384, .f32⟩ : BufTy).Contents (Elt F)),
    unary main_arg9 main_v83 (broadcastInDim S1x384 ![1] bcast_S384_S1x384_1 : (⟨S384, .f32⟩ : BufTy).Contents (Elt F) → (⟨S1x384, .f32⟩ : BufTy).Contents (Elt F)),
    unary main_v83 main_v84 (broadcastInDim S100000x384 ![0, 1] bcast_S1x384_S100000x384_0_1 : (⟨S1x384, .f32⟩ : BufTy).Contents (Elt F) → (⟨S100000x384, .f32⟩ : BufTy).Contents (Elt F)),
    binary main_v82 main_v84 main_v85 (addf : (⟨S100000x384, .f32⟩ : BufTy).Contents (Elt F) → (⟨S100000x384, .f32⟩ : BufTy).Contents (Elt F) → (⟨S100000x384, .f32⟩ : BufTy).Contents (Elt F)),
    nullary main_cst_19 (constant S_ .f32 0x3DCCCCCD#32),
    TRef.nullary main_call5.cst (constant S_ .f32 0x00000000#32),
    TRef.unary main_call5.cst main_call5.v0 (broadcastInDim S100000x384 ![] bcast_S_S100000x384),
    TRef.binary (.of main_v85 : TRef sig ⟨S100000x384, .f32⟩) main_call5.v0 main_call5.v1 (cmpf .oge),
    TRef.unary (.of main_cst_19 : TRef sig ⟨S_, .f32⟩) main_call5.v2 id,
    TRef.unary main_call5.v2 main_call5.v3 (broadcastInDim S100000x384 ![] bcast_S_S100000x384),
    TRef.binary main_call5.v3 (.of main_v85 : TRef sig ⟨S100000x384, .f32⟩) main_call5.v4 mulf,
    TRef.ternary main_call5.v1 (.of main_v85 : TRef sig ⟨S100000x384, .f32⟩) main_call5.v4 main_call5.call0.v0 select,
    binary main_v86 main_arg10 main_v87 ((fun l r => Host.dotGeneral dot_S100000x384_S384x64_S100000x64_1_0_0_1_n_n none l r) : (⟨S100000x384, .f32⟩ : BufTy).Contents (Elt F) → (⟨S384x64, .f32⟩ : BufTy).Contents (Elt F) → (⟨S100000x64, .f32⟩ : BufTy).Contents (Elt F)),
    unary main_arg11 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v87 main_v89 main_v90 (addf : (⟨S100000x64, .f32⟩ : BufTy).Contents (Elt F) → (⟨S100000x64, .f32⟩ : BufTy).Contents (Elt F) → (⟨S100000x64, .f32⟩ : BufTy).Contents (Elt F)),
    TRef.binary (.of main_v90 : TRef sig ⟨S100000x64, .f32⟩) (.of main_v90 : TRef sig ⟨S100000x64, .f32⟩) main_call6.v0 mulf,
    TRef.nullary main_call6.cst (constant S_ .f32 0x00000000#32),
    TRef.binary main_call6.v0 main_call6.cst main_call6.v1 (fun x v => Host.reduceAdd x v reducesTo_S100000x64_S100000_d1 h_S_),
    TRef.unary main_call6.v1 main_call6.v2 (broadcastInDim S100000x1 ![0] bcast_S100000_S100000x1_0),
    TRef.unary main_call6.v2 main_call6.v3 Host.sqrt,
    nullary main_cst_20 (constant S_ .f32 0x358637BD#32),
    unary main_cst_20 main_v92 (broadcastInDim S100000x1 ![] bcast_S_S100000x1 : (⟨S_, .f32⟩ : BufTy).Contents (Elt F) → (⟨S100000x1, .f32⟩ : BufTy).Contents (Elt F)),
    binary main_v91 main_v92 main_v93 (maximumf : (⟨S100000x1, .f32⟩ : BufTy).Contents (Elt F) → (⟨S100000x1, .f32⟩ : BufTy).Contents (Elt F) → (⟨S100000x1, .f32⟩ : BufTy).Contents (Elt F)),
    unary main_v93 main_v94 (broadcastInDim S100000x64 ![0, 1] bcast_S100000x1_S100000x64_0_1 : (⟨S100000x1, .f32⟩ : BufTy).Contents (Elt F) → (⟨S100000x64, .f32⟩ : BufTy).Contents (Elt F)),
    binary main_v90 main_v94 main_v95 (Host.divf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- The main function is that straight line: both halves and every called body unfolded, the sequencing
    reassociated to the right and the empty returns dropped. -/
theorem main_eq (c : Dev nD) : main (F := F) c = seq ops := by
  simp only [main, main_part0, main_part1, fn_leaky_relu.body, fn_leaky_relu_0.body, fn_leaky_relu_2.body,
    fn_where.body, fn_where_1.body, fn_where_3.body, fn_norm.body, seq, bind_assoc, pure_bind]

set_option maxRecDepth 100000 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., nary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- From any memory with zero counters every weakly fair execution of the main function terminates, and every
    buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The run, window by window

The line is cut into thirteen consecutive windows, one per stage. For each window: its operations, the buffers it
writes, that any other buffer keeps its contents across it, and that its last buffer ends at the stage function
of the contents the window starts from. -/

/-- A line run after another is the two run in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation writing the one buffer `y` writes inside any list of references that has `y`. -/
theorem writes_sub_of_mem {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The operations of the embedding lookup. -/
def wA : List (HloOp τ sig (Elt F)) :=
  [ nullary main_c (constantI S_ 32 1#32),
    unary main_c main_v0 (broadcastInDim S100000 ![] bcast_S_S100000 : (⟨S_, .i32⟩ : BufTy).Contents (Elt F) → (⟨S100000, .i32⟩ : BufTy).Contents (Elt F)),
    binary main_arg12 main_v0 main_v1 (addi : (⟨S100000, .i32⟩ : BufTy).Contents (Elt F) → (⟨S100000, .i32⟩ : BufTy).Contents (Elt F) → (⟨S100000, .i32⟩ : BufTy).Contents (Elt F)),
    nullary main_c_0 (constantI S_ 32 0#32),
    unary main_c_0 main_v2 (broadcastInDim S100000 ![] bcast_S_S100000 : (⟨S_, .i32⟩ : BufTy).Contents (Elt F) → (⟨S100000, .i32⟩ : BufTy).Contents (Elt F)),
    binary main_v1 main_v2 main_v3 (cmpi .slt : (⟨S100000, .i32⟩ : BufTy).Contents (Elt F) → (⟨S100000, .i32⟩ : BufTy).Contents (Elt F) → (⟨S100000, .i1⟩ : BufTy).Contents (Elt F)),
    nullary main_c_1 (constantI S_ 32 100001#32),
    unary main_c_1 main_v4 (broadcastInDim S100000 ![] bcast_S_S100000 : (⟨S_, .i32⟩ : BufTy).Contents (Elt F) → (⟨S100000, .i32⟩ : BufTy).Contents (Elt F)),
    binary main_v1 main_v4 main_v5 (addi : (⟨S100000, .i32⟩ : BufTy).Contents (Elt F) → (⟨S100000, .i32⟩ : BufTy).Contents (Elt F) → (⟨S100000, .i32⟩ : BufTy).Contents (Elt F)),
    ternary main_v3 main_v5 main_v1 main_v6 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v6 main_v7 (broadcastInDim S100000x1 ![0] bcast_S100000_S100000x1_0 : (⟨S100000, .i32⟩ : BufTy).Contents (Elt F) → (⟨S100000x1, .i32⟩ : BufTy).Contents (Elt F)),
    binary main_arg1 main_v7 main_v8 ((fun x i => Host.gather gather_S100001x64_S100000x1_S100000x64_1_0_n_n_0_1_164 x i) : (⟨S100001x64, .f32⟩ : BufTy).Contents (Elt F) → (⟨S100000x1, .i32⟩ : BufTy).Contents (Elt F) → (⟨S100000x64, .f32⟩ : BufTy).Contents (Elt F)) ]

/-- The buffers they write. -/
def WA : List (Ref sig .tc) :=
  [main_c, main_v0, main_v1, main_c_0, main_v2, main_v3, main_c_1, main_v4, main_v5, main_v6, main_v7, main_v8]

theorem wA_writes : (wA : List (HloOp τ sig (Elt F))).Forall fun op => op.writes ⊆ (WA.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_A (V : Valuation τ sig (Elt F)) {r : Ref sig .tc} (hr : r ∉ WA) :
    after wA V (no_index (Proc.devRef .tc r)) = V (Proc.devRef .tc r) :=
  after_of_writes_sub wA V wA_writes hr

theorem val_A (V : Valuation τ sig (Elt F)) :
    after wA V (no_index (main_v8 : DevRef τ sig)) = nembG (V (main_arg1 : DevRef τ sig)) (V (main_arg12 : DevRef τ sig)) := by
  unfold wA
  after_results_simp <;> rfl

/-- The operations of the initial node state. -/
def wB : List (HloOp τ sig (Elt F)) :=
  [ binary main_arg0 main_arg2 main_v9 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg3 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    nullary main_cst (constant S_ .f32 0x3DCCCCCD#32),
    TRef.nullary main_call0.cst (constant S_ .f32 0x00000000#32),
    TRef.unary main_call0.cst main_call0.v0 (broadcastInDim S100000x64 ![] bcast_S_S100000x64),
    TRef.binary (.of main_v12 : TRef sig ⟨S100000x64, .f32⟩) main_call0.v0 main_call0.v1 (cmpf .oge),
    TRef.unary (.of main_cst : TRef sig ⟨S_, .f32⟩) main_call0.v2 id,
    TRef.unary main_call0.v2 main_call0.v3 (broadcastInDim S100000x64 ![] bcast_S_S100000x64),
    TRef.binary main_call0.v3 (.of main_v12 : TRef sig ⟨S100000x64, .f32⟩) main_call0.v4 mulf,
    TRef.ternary main_call0.v1 (.of main_v12 : TRef sig ⟨S100000x64, .f32⟩) main_call0.v4 main_call0.call0.v0 select,
    binary main_v8 main_v13 main_v14 (addf : (⟨S100000x64, .f32⟩ : BufTy).Contents (Elt F) → (⟨S100000x64, .f32⟩ : BufTy).Contents (Elt F) → (⟨S100000x64, .f32⟩ : BufTy).Contents (Elt F)) ]

/-- The buffers they write. -/
def WB : List (Ref sig .tc) :=
  [main_v9, main_v10, main_v11, main_v12, main_cst, main_call0.cst.ref, main_call0.v0.ref, main_call0.v1.ref, main_call0.v2.ref, main_call0.v3.ref, main_call0.v4.ref, main_call0.call0.v0.ref, main_v14]

theorem wB_writes : (wB : List (HloOp τ sig (Elt F))).Forall fun op => op.writes ⊆ (WB.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_B (V : Valuation τ sig (Elt F)) {r : Ref sig .tc} (hr : r ∉ WB) :
    after wB V (no_index (Proc.devRef .tc r)) = V (Proc.devRef .tc r) :=
  after_of_writes_sub wB V wB_writes hr

theorem val_B (V : Valuation τ sig (Elt F)) :
    after wB V (no_index (main_v14 : DevRef τ sig)) = hInit (V (main_arg0 : DevRef τ sig)) (V (main_v8 : DevRef τ sig)) (V (main_arg2 : DevRef τ sig)) (V (main_arg3 : DevRef τ sig)) := by
  unfold wB
  after_results_simp <;> rfl

/-- The operations of the divisor of the neighbour mean. -/
def wC : List (HloOp τ sig (Elt F)) :=
  [ nullary main_cst_2 (constant S_ .f32 0x3F800000#32),
    unary main_cst_2 main_v15 (broadcastInDim S1600000 ![] bcast_S_S1600000 : (⟨S_, .f32⟩ : BufTy).Contents (Elt F) → (⟨S1600000, .f32⟩ : BufTy).Contents (Elt F)),
    nullary main_cst_3 (constant S_ .f32 0x00000000#32),
    unary main_cst_3 main_v16 (broadcastInDim S100000 ![] bcast_S_S100000 : (⟨S_, .f32⟩ : BufTy).Contents (Elt F) → (⟨S100000, .f32⟩ : BufTy).Contents (Elt F)),
    unary main_arg14 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_4 (constant S_ .f32 0x3F800000#32),
    unary main_cst_4 main_v19 (broadcastInDim S100000 ![] bcast_S_S100000 : (⟨S_, .f32⟩ : BufTy).Contents (Elt F) → (⟨S100000, .f32⟩ : BufTy).Contents (Elt F)),
    binary main_v18 main_v19 main_v20 (subf : (⟨S100000, .f32⟩ : BufTy).Contents (Elt F) → (⟨S100000, .f32⟩ : BufTy).Contents (Elt F) → (⟨S100000, .f32⟩ : BufTy).Contents (Elt F)),
    nullary main_cst_5 (constant S_ .f32 0x3F800000#32),
    unary main_cst_5 main_v21 (broadcastInDim S100000 ![] bcast_S_S100000 : (⟨S_, .f32⟩ : BufTy).Contents (Elt F) → (⟨S100000, .f32⟩ : BufTy).Contents (Elt F)),
    binary main_v20 main_v21 main_v22 (maximumf : (⟨S100000, .f32⟩ : BufTy).Contents (Elt F) → (⟨S100000, .f32⟩ : BufTy).Contents (Elt F) → (⟨S100000, .f32⟩ : BufTy).Contents (Elt F)),
    unary main_v22 main_v23 (broadcastInDim S100000x1 ![0] bcast_S100000_S100000x1_0 : (⟨S100000, .f32⟩ : BufTy).Contents (Elt F) → (⟨S100000x1, .f32⟩ : BufTy).Contents (Elt F)) ]

/-- The buffers they write. -/
def WC : List (Ref sig .tc) :=
  [main_cst_2, main_v15, main_cst_3, main_v16, main_v17, main_v18, main_cst_4, main_v19, main_v20, main_cst_5, main_v21, main_v22, main_v23]

theorem wC_writes : (wC : List (HloOp τ sig (Elt F))).Forall fun op => op.writes ⊆ (WC.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_C (V : Valuation τ sig (Elt F)) {r : Ref sig .tc} (hr : r ∉ WC) :
    after wC V (no_index (Proc.devRef .tc r)) = V (Proc.devRef .tc r) :=
  after_of_writes_sub wC V wC_writes hr

theorem val_C (V : Valuation τ sig (Elt F)) :
    after wC V (no_index (main_v23 : DevRef τ sig)) = wden (V (main_arg14 : DevRef τ sig)) := by
  unfold wC
  after_results_simp <;> rfl

/-- The operations of the first edge sum. -/
def wD : List (HloOp τ sig (Elt F)) :=
  [ nullary main_c_6 (constantI S_ 32 0#32),
    unary main_c_6 main_v24 (broadcastInDim S1600000 ![] bcast_S_S1600000 : (⟨S_, .i32⟩ : BufTy).Contents (Elt F) → (⟨S1600000, .i32⟩ : BufTy).Contents (Elt F)),
    binary main_arg13 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v26 (broadcastInDim S1600000 ![] bcast_S_S1600000 : (⟨S_, .i32⟩ : BufTy).Contents (Elt F) → (⟨S1600000, .i32⟩ : BufTy).Contents (Elt F)),
    binary main_arg13 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg13 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v14 main_v29 main_v30 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_8 (constant S_ .f32 0x00000000#32),
    unary main_cst_8 main_v31 (broadcastInDim S100000x64 ![] bcast_S_S100000x64 : (⟨S_, .f32⟩ : BufTy).Contents (Elt F) → (⟨S100000x64, .f32⟩ : BufTy).Contents (Elt F)),
    unary main_arg14 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers they write. -/
def WD : List (Ref sig .tc) :=
  [main_c_6, main_v24, main_v25, main_c_7, main_v26, main_v27, main_v28, main_v29, main_v30, main_cst_8, main_v31, main_v32, main_v33]

theorem wD_writes : (wD : List (HloOp τ sig (Elt F))).Forall fun op => op.writes ⊆ (WD.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_D (V : Valuation τ sig (Elt F)) {r : Ref sig .tc} (hr : r ∉ WD) :
    after wD V (no_index (Proc.devRef .tc r)) = V (Proc.devRef .tc r) :=
  after_of_writes_sub wD V wD_writes hr

theorem val_D (V : Valuation τ sig (Elt F)) :
    after wD V (no_index (main_v33 : DevRef τ sig)) = segsum (V (main_v14 : DevRef τ sig)) (V (main_arg13 : DevRef τ sig)) (V (main_arg14 : DevRef τ sig)) := by
  unfold wD
  after_results_simp <;> rfl

/-- The operations of the first neighbour mean. -/
def wE : List (HloOp τ sig (Elt F)) :=
  [ binary main_v33 main_v14 main_v34 (subf : (⟨S100000x64, .f32⟩ : BufTy).Contents (Elt F) → (⟨S100000x64, .f32⟩ : BufTy).Contents (Elt F) → (⟨S100000x64, .f32⟩ : BufTy).Contents (Elt F)),
    unary main_v23 main_v35 (broadcastInDim S100000x64 ![0, 1] bcast_S100000x1_S100000x64_0_1 : (⟨S100000x1, .f32⟩ : BufTy).Contents (Elt F) → (⟨S100000x64, .f32⟩ : BufTy).Contents (Elt F)),
    binary main_v34 main_v35 main_v36 (Host.divf : (⟨S100000x64, .f32⟩ : BufTy).Contents (Elt F) → (⟨S100000x64, .f32⟩ : BufTy).Contents (Elt F) → (⟨S100000x64, .f32⟩ : BufTy).Contents (Elt F)) ]

/-- The buffers they write. -/
def WE : List (Ref sig .tc) :=
  [main_v34, main_v35, main_v36]

theorem wE_writes : (wE : List (HloOp τ sig (Elt F))).Forall fun op => op.writes ⊆ (WE.map (Proc.devRef (τ := τ) .tc)).toFinset :=
  ⟨writes_sub_of_mem rfl (by decide), writes_sub_of_mem rfl (by decide), writes_sub_of_mem rfl (by decide)⟩

/-- A buffer outside them keeps its contents. -/
theorem frame_E (V : Valuation τ sig (Elt F)) {r : Ref sig .tc} (hr : r ∉ WE) :
    after wE V (no_index (Proc.devRef .tc r)) = V (Proc.devRef .tc r) :=
  after_of_writes_sub wE V wE_writes hr

theorem val_E (V : Valuation τ sig (Elt F)) :
    after wE V (no_index (main_v36 : DevRef τ sig)) = adj (V (main_v33 : DevRef τ sig)) (V (main_v14 : DevRef τ sig)) (V (main_v23 : DevRef τ sig)) := by
  unfold wE
  after_results_simp <;> rfl

/-- The operations of the first round before normalization. -/
def wF : List (HloOp τ sig (Elt F)) :=
  [ binary main_v14 main_v36 main_v37 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v37 main_arg4 main_v38 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg5 main_v39 (broadcastInDim S1x256 ![1] bcast_S256_S1x256_1 : (⟨S256, .f32⟩ : BufTy).Contents (Elt F) → (⟨S1x256, .f32⟩ : BufTy).Contents (Elt F)),
    unary main_v39 main_v40 (broadcastInDim S100000x256 ![0, 1] bcast_S1x256_S100000x256_0_1 : (⟨S1x256, .f32⟩ : BufTy).Contents (Elt F) → (⟨S100000x256, .f32⟩ : BufTy).Contents (Elt F)),
    binary main_v38 main_v40 main_v41 (addf : (⟨S100000x256, .f32⟩ : BufTy).Contents (Elt F) → (⟨S100000x256, .f32⟩ : BufTy).Contents (Elt F) → (⟨S100000x256, .f32⟩ : BufTy).Contents (Elt F)),
    nullary main_cst_9 (constant S_ .f32 0x3DCCCCCD#32),
    TRef.nullary main_call1.cst (constant S_ .f32 0x00000000#32),
    TRef.unary main_call1.cst main_call1.v0 (broadcastInDim S100000x256 ![] bcast_S_S100000x256),
    TRef.binary (.of main_v41 : TRef sig ⟨S100000x256, .f32⟩) main_call1.v0 main_call1.v1 (cmpf .oge),
    TRef.unary (.of main_cst_9 : TRef sig ⟨S_, .f32⟩) main_call1.v2 id,
    TRef.unary main_call1.v2 main_call1.v3 (broadcastInDim S100000x256 ![] bcast_S_S100000x256),
    TRef.binary main_call1.v3 (.of main_v41 : TRef sig ⟨S100000x256, .f32⟩) main_call1.v4 mulf,
    TRef.ternary main_call1.v1 (.of main_v41 : TRef sig ⟨S100000x256, .f32⟩) main_call1.v4 main_call1.call0.v0 select,
    binary main_v42 main_arg6 main_v43 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg7 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3DCCCCCD#32),
    TRef.nullary main_call2.cst (constant S_ .f32 0x00000000#32),
    TRef.unary main_call2.cst main_call2.v0 (broadcastInDim S100000x64 ![] bcast_S_S100000x64),
    TRef.binary (.of main_v46 : TRef sig ⟨S100000x64, .f32⟩) main_call2.v0 main_call2.v1 (cmpf .oge),
    TRef.unary (.of main_cst_10 : TRef sig ⟨S_, .f32⟩) main_call2.v2 id,
    TRef.unary main_call2.v2 main_call2.v3 (broadcastInDim S100000x64 ![] bcast_S_S100000x64),
    TRef.binary main_call2.v3 (.of main_v46 : TRef sig ⟨S100000x64, .f32⟩) main_call2.v4 mulf,
    TRef.ternary main_call2.v1 (.of main_v46 : TRef sig ⟨S100000x64, .f32⟩) main_call2.v4 main_call2.call0.v0 select ]

/-- The buffers they write. -/
def WF : List (Ref sig .tc) :=
  [main_v37, main_v38, main_v39, main_v40, main_v41, main_cst_9, main_call1.cst.ref, main_call1.v0.ref, main_call1.v1.ref, main_call1.v2.ref, main_call1.v3.ref, main_call1.v4.ref, main_call1.call0.v0.ref, main_v43, main_v44, main_v45, main_v46, main_cst_10, main_call2.cst.ref, main_call2.v0.ref, main_call2.v1.ref, main_call2.v2.ref, main_call2.v3.ref, main_call2.v4.ref, main_call2.call0.v0.ref]

theorem wF_writes : (wF : List (HloOp τ sig (Elt F))).Forall fun op => op.writes ⊆ (WF.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_F (V : Valuation τ sig (Elt F)) {r : Ref sig .tc} (hr : r ∉ WF) :
    after wF V (no_index (Proc.devRef .tc r)) = V (Proc.devRef .tc r) :=
  after_of_writes_sub wF V wF_writes hr

theorem val_F (V : Valuation τ sig (Elt F)) :
    after wF V (no_index (main_v47 : DevRef τ sig)) = l0pre (V (main_v14 : DevRef τ sig)) (V (main_v36 : DevRef τ sig)) (V (main_arg4 : DevRef τ sig)) (V (main_arg5 : DevRef τ sig)) (V (main_arg6 : DevRef τ sig)) (V (main_arg7 : DevRef τ sig)) := by
  unfold wF
  after_results_simp <;> rfl

/-- The operations of the first round's normalization. -/
def wG : List (HloOp τ sig (Elt F)) :=
  [ TRef.binary (.of main_v47 : TRef sig ⟨S100000x64, .f32⟩) (.of main_v47 : TRef sig ⟨S100000x64, .f32⟩) main_call3.v0 mulf,
    TRef.nullary main_call3.cst (constant S_ .f32 0x00000000#32),
    TRef.binary main_call3.v0 main_call3.cst main_call3.v1 (fun x v => Host.reduceAdd x v reducesTo_S100000x64_S100000_d1 h_S_),
    TRef.unary main_call3.v1 main_call3.v2 (broadcastInDim S100000x1 ![0] bcast_S100000_S100000x1_0),
    TRef.unary main_call3.v2 main_call3.v3 Host.sqrt,
    nullary main_cst_11 (constant S_ .f32 0x358637BD#32),
    unary main_cst_11 main_v49 (broadcastInDim S100000x1 ![] bcast_S_S100000x1 : (⟨S_, .f32⟩ : BufTy).Contents (Elt F) → (⟨S100000x1, .f32⟩ : BufTy).Contents (Elt F)),
    binary main_v48 main_v49 main_v50 (maximumf : (⟨S100000x1, .f32⟩ : BufTy).Contents (Elt F) → (⟨S100000x1, .f32⟩ : BufTy).Contents (Elt F) → (⟨S100000x1, .f32⟩ : BufTy).Contents (Elt F)),
    unary main_v50 main_v51 (broadcastInDim S100000x64 ![0, 1] bcast_S100000x1_S100000x64_0_1 : (⟨S100000x1, .f32⟩ : BufTy).Contents (Elt F) → (⟨S100000x64, .f32⟩ : BufTy).Contents (Elt F)),
    binary main_v47 main_v51 main_v52 (Host.divf : (⟨S100000x64, .f32⟩ : BufTy).Contents (Elt F) → (⟨S100000x64, .f32⟩ : BufTy).Contents (Elt F) → (⟨S100000x64, .f32⟩ : BufTy).Contents (Elt F)) ]

/-- The buffers they write. -/
def WG : List (Ref sig .tc) :=
  [main_call3.v0.ref, main_call3.cst.ref, main_call3.v1.ref, main_call3.v2.ref, main_call3.v3.ref, main_cst_11, main_v49, main_v50, main_v51, main_v52]

theorem wG_writes : (wG : List (HloOp τ sig (Elt F))).Forall fun op => op.writes ⊆ (WG.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_G (V : Valuation τ sig (Elt F)) {r : Ref sig .tc} (hr : r ∉ WG) :
    after wG V (no_index (Proc.devRef .tc r)) = V (Proc.devRef .tc r) :=
  after_of_writes_sub wG V wG_writes hr

theorem val_G (V : Valuation τ sig (Elt F)) :
    after wG V (no_index (main_v52 : DevRef τ sig)) = l2n (V (main_v47 : DevRef τ sig)) := by
  unfold wG
  after_results_simp <;> rfl

/-- The operations of the normalization of the first neighbour mean. -/
def wH : List (HloOp τ sig (Elt F)) :=
  [ TRef.binary (.of main_v36 : TRef sig ⟨S100000x64, .f32⟩) (.of main_v36 : TRef sig ⟨S100000x64, .f32⟩) main_call4.v0 mulf,
    TRef.nullary main_call4.cst (constant S_ .f32 0x00000000#32),
    TRef.binary main_call4.v0 main_call4.cst main_call4.v1 (fun x v => Host.reduceAdd x v reducesTo_S100000x64_S100000_d1 h_S_),
    TRef.unary main_call4.v1 main_call4.v2 (broadcastInDim S100000x1 ![0] bcast_S100000_S100000x1_0),
    TRef.unary main_call4.v2 main_call4.v3 Host.sqrt,
    nullary main_cst_12 (constant S_ .f32 0x358637BD#32),
    unary main_cst_12 main_v54 (broadcastInDim S100000x1 ![] bcast_S_S100000x1 : (⟨S_, .f32⟩ : BufTy).Contents (Elt F) → (⟨S100000x1, .f32⟩ : BufTy).Contents (Elt F)),
    binary main_v53 main_v54 main_v55 (maximumf : (⟨S100000x1, .f32⟩ : BufTy).Contents (Elt F) → (⟨S100000x1, .f32⟩ : BufTy).Contents (Elt F) → (⟨S100000x1, .f32⟩ : BufTy).Contents (Elt F)),
    unary main_v55 main_v56 (broadcastInDim S100000x64 ![0, 1] bcast_S100000x1_S100000x64_0_1 : (⟨S100000x1, .f32⟩ : BufTy).Contents (Elt F) → (⟨S100000x64, .f32⟩ : BufTy).Contents (Elt F)),
    binary main_v36 main_v56 main_v57 (Host.divf : (⟨S100000x64, .f32⟩ : BufTy).Contents (Elt F) → (⟨S100000x64, .f32⟩ : BufTy).Contents (Elt F) → (⟨S100000x64, .f32⟩ : BufTy).Contents (Elt F)) ]

/-- The buffers they write. -/
def WH : List (Ref sig .tc) :=
  [main_call4.v0.ref, main_call4.cst.ref, main_call4.v1.ref, main_call4.v2.ref, main_call4.v3.ref, main_cst_12, main_v54, main_v55, main_v56, main_v57]

theorem wH_writes : (wH : List (HloOp τ sig (Elt F))).Forall fun op => op.writes ⊆ (WH.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_H (V : Valuation τ sig (Elt F)) {r : Ref sig .tc} (hr : r ∉ WH) :
    after wH V (no_index (Proc.devRef .tc r)) = V (Proc.devRef .tc r) :=
  after_of_writes_sub wH V wH_writes hr

theorem val_H (V : Valuation τ sig (Elt F)) :
    after wH V (no_index (main_v57 : DevRef τ sig)) = l2n (V (main_v36 : DevRef τ sig)) := by
  unfold wH
  after_results_simp <;> rfl

/-- The operations of the edge sum of the normalized state. -/
def wI : List (HloOp τ sig (Elt F)) :=
  [ nullary main_c_13 (constantI S_ 32 0#32),
    unary main_c_13 main_v58 (broadcastInDim S1600000 ![] bcast_S_S1600000 : (⟨S_, .i32⟩ : BufTy).Contents (Elt F) → (⟨S1600000, .i32⟩ : BufTy).Contents (Elt F)),
    binary main_arg13 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v60 (broadcastInDim S1600000 ![] bcast_S_S1600000 : (⟨S_, .i32⟩ : BufTy).Contents (Elt F) → (⟨S1600000, .i32⟩ : BufTy).Contents (Elt F)),
    binary main_arg13 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_arg13 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v52 main_v63 main_v64 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_15 (constant S_ .f32 0x00000000#32),
    unary main_cst_15 main_v65 (broadcastInDim S100000x64 ![] bcast_S_S100000x64 : (⟨S_, .f32⟩ : BufTy).Contents (Elt F) → (⟨S100000x64, .f32⟩ : BufTy).Contents (Elt F)),
    unary main_arg14 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers they write. -/
def WI : List (Ref sig .tc) :=
  [main_c_13, main_v58, main_v59, main_c_14, main_v60, main_v61, main_v62, main_v63, main_v64, main_cst_15, main_v65, main_v66, main_v67]

theorem wI_writes : (wI : List (HloOp τ sig (Elt F))).Forall fun op => op.writes ⊆ (WI.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_I (V : Valuation τ sig (Elt F)) {r : Ref sig .tc} (hr : r ∉ WI) :
    after wI V (no_index (Proc.devRef .tc r)) = V (Proc.devRef .tc r) :=
  after_of_writes_sub wI V wI_writes hr

theorem val_I (V : Valuation τ sig (Elt F)) :
    after wI V (no_index (main_v67 : DevRef τ sig)) = segsum (V (main_v52 : DevRef τ sig)) (V (main_arg13 : DevRef τ sig)) (V (main_arg14 : DevRef τ sig)) := by
  unfold wI
  after_results_simp <;> rfl

/-- The operations of the edge sum of the normalized first mean. -/
def wJ : List (HloOp τ sig (Elt F)) :=
  [ nullary main_c_16 (constantI S_ 32 0#32),
    unary main_c_16 main_v68 (broadcastInDim S1600000 ![] bcast_S_S1600000 : (⟨S_, .i32⟩ : BufTy).Contents (Elt F) → (⟨S1600000, .i32⟩ : BufTy).Contents (Elt F)),
    binary main_arg13 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v70 (broadcastInDim S1600000 ![] bcast_S_S1600000 : (⟨S_, .i32⟩ : BufTy).Contents (Elt F) → (⟨S1600000, .i32⟩ : BufTy).Contents (Elt F)),
    binary main_arg13 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_arg13 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v57 main_v73 main_v74 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_18 (constant S_ .f32 0x00000000#32),
    unary main_cst_18 main_v75 (broadcastInDim S100000x64 ![] bcast_S_S100000x64 : (⟨S_, .f32⟩ : BufTy).Contents (Elt F) → (⟨S100000x64, .f32⟩ : BufTy).Contents (Elt F)),
    unary main_arg14 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers they write. -/
def WJ : List (Ref sig .tc) :=
  [main_c_16, main_v68, main_v69, main_c_17, main_v70, main_v71, main_v72, main_v73, main_v74, main_cst_18, main_v75, main_v76, main_v77]

theorem wJ_writes : (wJ : List (HloOp τ sig (Elt F))).Forall fun op => op.writes ⊆ (WJ.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_J (V : Valuation τ sig (Elt F)) {r : Ref sig .tc} (hr : r ∉ WJ) :
    after wJ V (no_index (Proc.devRef .tc r)) = V (Proc.devRef .tc r) :=
  after_of_writes_sub wJ V wJ_writes hr

theorem val_J (V : Valuation τ sig (Elt F)) :
    after wJ V (no_index (main_v77 : DevRef τ sig)) = segsum (V (main_v57 : DevRef τ sig)) (V (main_arg13 : DevRef τ sig)) (V (main_arg14 : DevRef τ sig)) := by
  unfold wJ
  after_results_simp <;> rfl

/-- The operations of the second neighbour mean. -/
def wK : List (HloOp τ sig (Elt F)) :=
  [ binary main_v67 main_v52 main_v78 (subf : (⟨S100000x64, .f32⟩ : BufTy).Contents (Elt F) → (⟨S100000x64, .f32⟩ : BufTy).Contents (Elt F) → (⟨S100000x64, .f32⟩ : BufTy).Contents (Elt F)),
    unary main_v23 main_v79 (broadcastInDim S100000x64 ![0, 1] bcast_S100000x1_S100000x64_0_1 : (⟨S100000x1, .f32⟩ : BufTy).Contents (Elt F) → (⟨S100000x64, .f32⟩ : BufTy).Contents (Elt F)),
    binary main_v78 main_v79 main_v80 (Host.divf : (⟨S100000x64, .f32⟩ : BufTy).Contents (Elt F) → (⟨S100000x64, .f32⟩ : BufTy).Contents (Elt F) → (⟨S100000x64, .f32⟩ : BufTy).Contents (Elt F)) ]

/-- The buffers they write. -/
def WK : List (Ref sig .tc) :=
  [main_v78, main_v79, main_v80]

theorem wK_writes : (wK : List (HloOp τ sig (Elt F))).Forall fun op => op.writes ⊆ (WK.map (Proc.devRef (τ := τ) .tc)).toFinset :=
  ⟨writes_sub_of_mem rfl (by decide), writes_sub_of_mem rfl (by decide), writes_sub_of_mem rfl (by decide)⟩

/-- A buffer outside them keeps its contents. -/
theorem frame_K (V : Valuation τ sig (Elt F)) {r : Ref sig .tc} (hr : r ∉ WK) :
    after wK V (no_index (Proc.devRef .tc r)) = V (Proc.devRef .tc r) :=
  after_of_writes_sub wK V wK_writes hr

theorem val_K (V : Valuation τ sig (Elt F)) :
    after wK V (no_index (main_v80 : DevRef τ sig)) = adj (V (main_v67 : DevRef τ sig)) (V (main_v52 : DevRef τ sig)) (V (main_v23 : DevRef τ sig)) := by
  unfold wK
  after_results_simp <;> rfl

/-- The operations of the second round before normalization. -/
def wL : List (HloOp τ sig (Elt F)) :=
  [ nary ![main_v52, main_v80, main_v77] main_v81 (fun u => concatenate S100000x192 1 [⟨S100000x64, u 0⟩, ⟨S100000x64, u 1⟩, ⟨S100000x64, u 2⟩] concatenates_S100000x64_S100000x64_S100000x64_S100000x192_d1),
    binary main_v81 main_arg8 main_v82 ((fun l r => Host.dotGeneral dot_S100000x192_S192x384_S100000x384_1_0_0_1_n_n none l r) : (⟨S100000x192, .f32⟩ : BufTy).Contents (Elt F) → (⟨S192x384, .f32⟩ : BufTy).Contents (Elt F) → (⟨S100000x384, .f32⟩ : BufTy).Contents (Elt F)),
    unary main_arg9 main_v83 (broadcastInDim S1x384 ![1] bcast_S384_S1x384_1 : (⟨S384, .f32⟩ : BufTy).Contents (Elt F) → (⟨S1x384, .f32⟩ : BufTy).Contents (Elt F)),
    unary main_v83 main_v84 (broadcastInDim S100000x384 ![0, 1] bcast_S1x384_S100000x384_0_1 : (⟨S1x384, .f32⟩ : BufTy).Contents (Elt F) → (⟨S100000x384, .f32⟩ : BufTy).Contents (Elt F)),
    binary main_v82 main_v84 main_v85 (addf : (⟨S100000x384, .f32⟩ : BufTy).Contents (Elt F) → (⟨S100000x384, .f32⟩ : BufTy).Contents (Elt F) → (⟨S100000x384, .f32⟩ : BufTy).Contents (Elt F)),
    nullary main_cst_19 (constant S_ .f32 0x3DCCCCCD#32),
    TRef.nullary main_call5.cst (constant S_ .f32 0x00000000#32),
    TRef.unary main_call5.cst main_call5.v0 (broadcastInDim S100000x384 ![] bcast_S_S100000x384),
    TRef.binary (.of main_v85 : TRef sig ⟨S100000x384, .f32⟩) main_call5.v0 main_call5.v1 (cmpf .oge),
    TRef.unary (.of main_cst_19 : TRef sig ⟨S_, .f32⟩) main_call5.v2 id,
    TRef.unary main_call5.v2 main_call5.v3 (broadcastInDim S100000x384 ![] bcast_S_S100000x384),
    TRef.binary main_call5.v3 (.of main_v85 : TRef sig ⟨S100000x384, .f32⟩) main_call5.v4 mulf,
    TRef.ternary main_call5.v1 (.of main_v85 : TRef sig ⟨S100000x384, .f32⟩) main_call5.v4 main_call5.call0.v0 select,
    binary main_v86 main_arg10 main_v87 ((fun l r => Host.dotGeneral dot_S100000x384_S384x64_S100000x64_1_0_0_1_n_n none l r) : (⟨S100000x384, .f32⟩ : BufTy).Contents (Elt F) → (⟨S384x64, .f32⟩ : BufTy).Contents (Elt F) → (⟨S100000x64, .f32⟩ : BufTy).Contents (Elt F)),
    unary main_arg11 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v87 main_v89 main_v90 (addf : (⟨S100000x64, .f32⟩ : BufTy).Contents (Elt F) → (⟨S100000x64, .f32⟩ : BufTy).Contents (Elt F) → (⟨S100000x64, .f32⟩ : BufTy).Contents (Elt F)) ]

/-- The buffers they write. -/
def WL : List (Ref sig .tc) :=
  [main_v81, main_v82, main_v83, main_v84, main_v85, main_cst_19, main_call5.cst.ref, main_call5.v0.ref, main_call5.v1.ref, main_call5.v2.ref, main_call5.v3.ref, main_call5.v4.ref, main_call5.call0.v0.ref, main_v87, main_v88, main_v89, main_v90]

theorem wL_writes : (wL : List (HloOp τ sig (Elt F))).Forall fun op => op.writes ⊆ (WL.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_L (V : Valuation τ sig (Elt F)) {r : Ref sig .tc} (hr : r ∉ WL) :
    after wL V (no_index (Proc.devRef .tc r)) = V (Proc.devRef .tc r) :=
  after_of_writes_sub wL V wL_writes hr

theorem val_L (V : Valuation τ sig (Elt F)) :
    after wL V (no_index (main_v90 : DevRef τ sig)) = l1pre (V (main_v52 : DevRef τ sig)) (V (main_v80 : DevRef τ sig)) (V (main_v77 : DevRef τ sig)) (V (main_arg8 : DevRef τ sig)) (V (main_arg9 : DevRef τ sig)) (V (main_arg10 : DevRef τ sig)) (V (main_arg11 : DevRef τ sig)) := by
  unfold wL
  after_results_simp <;> rfl

/-- The operations of the final normalization. -/
def wM : List (HloOp τ sig (Elt F)) :=
  [ TRef.binary (.of main_v90 : TRef sig ⟨S100000x64, .f32⟩) (.of main_v90 : TRef sig ⟨S100000x64, .f32⟩) main_call6.v0 mulf,
    TRef.nullary main_call6.cst (constant S_ .f32 0x00000000#32),
    TRef.binary main_call6.v0 main_call6.cst main_call6.v1 (fun x v => Host.reduceAdd x v reducesTo_S100000x64_S100000_d1 h_S_),
    TRef.unary main_call6.v1 main_call6.v2 (broadcastInDim S100000x1 ![0] bcast_S100000_S100000x1_0),
    TRef.unary main_call6.v2 main_call6.v3 Host.sqrt,
    nullary main_cst_20 (constant S_ .f32 0x358637BD#32),
    unary main_cst_20 main_v92 (broadcastInDim S100000x1 ![] bcast_S_S100000x1 : (⟨S_, .f32⟩ : BufTy).Contents (Elt F) → (⟨S100000x1, .f32⟩ : BufTy).Contents (Elt F)),
    binary main_v91 main_v92 main_v93 (maximumf : (⟨S100000x1, .f32⟩ : BufTy).Contents (Elt F) → (⟨S100000x1, .f32⟩ : BufTy).Contents (Elt F) → (⟨S100000x1, .f32⟩ : BufTy).Contents (Elt F)),
    unary main_v93 main_v94 (broadcastInDim S100000x64 ![0, 1] bcast_S100000x1_S100000x64_0_1 : (⟨S100000x1, .f32⟩ : BufTy).Contents (Elt F) → (⟨S100000x64, .f32⟩ : BufTy).Contents (Elt F)),
    binary main_v90 main_v94 main_v95 (Host.divf : (⟨S100000x64, .f32⟩ : BufTy).Contents (Elt F) → (⟨S100000x64, .f32⟩ : BufTy).Contents (Elt F) → (⟨S100000x64, .f32⟩ : BufTy).Contents (Elt F)) ]

/-- The buffers they write. -/
def WM : List (Ref sig .tc) :=
  [main_call6.v0.ref, main_call6.cst.ref, main_call6.v1.ref, main_call6.v2.ref, main_call6.v3.ref, main_cst_20, main_v92, main_v93, main_v94, main_v95]

theorem wM_writes : (wM : List (HloOp τ sig (Elt F))).Forall fun op => op.writes ⊆ (WM.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer outside them keeps its contents. -/
theorem frame_M (V : Valuation τ sig (Elt F)) {r : Ref sig .tc} (hr : r ∉ WM) :
    after wM V (no_index (Proc.devRef .tc r)) = V (Proc.devRef .tc r) :=
  after_of_writes_sub wM V wM_writes hr

theorem val_M (V : Valuation τ sig (Elt F)) :
    after wM V (no_index (main_v95 : DevRef τ sig)) = l2n (V (main_v90 : DevRef τ sig)) := by
  unfold wM
  after_results_simp <;> rfl

/-! ## The whole line -/

/-- The line is its windows in order. -/
theorem ops_split : (ops : List (HloOp τ sig (Elt F))) = wA ++ (wB ++ (wC ++ (wD ++ (wE ++ (wF ++ (wG ++ (wH ++ (wI ++ (wJ ++ (wK ++ (wL ++ (wM)))))))))))) := rfl

/-- The result buffer ends at the reference's function of the arguments' contents: each window's value read
    back through the windows after it, which leave it alone. -/
theorem out_eq (V : Valuation τ sig (Elt F)) :
    after ops V (main_v95 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [ops_split]
  simp (disch := decide) only [after_app, val_A, val_B, val_C, val_D, val_E, val_F, val_G, val_H, val_I, val_J, val_K, val_L, val_M,
    frame_A, frame_B, frame_C, frame_D, frame_E, frame_F, frame_G, frame_H, frame_I, frame_J, frame_K, frame_L, frame_M]
  rfl

/-- No argument buffer is written: each keeps its contents across every window. -/
theorem arg_eq (V : Valuation τ sig (Elt F)) {r : Ref sig .tc}
    (hr : r ∉ WA ++ (WB ++ (WC ++ (WD ++ (WE ++ (WF ++ (WG ++ (WH ++ (WI ++ (WJ ++ (WK ++ (WL ++ (WM))))))))))))) :
    after ops V (Proc.devRef .tc r) = V (Proc.devRef .tc r) := by
  simp only [List.mem_append, not_or] at hr
  obtain ⟨hA, hB, hC, hD, hE, hF, hG, hH, hI, hJ, hK, hL, hM⟩ := hr
  rw [ops_split]
  simp only [after_app]
  rw [frame_M _ hM, frame_L _ hL, frame_K _ hK, frame_J _ hJ, frame_I _ hI, frame_H _ hH, frame_G _ hG, frame_F _ hF, frame_E _ hE, frame_D _ hD, frame_C _ hC, frame_B _ hB, frame_A _ hA]

/-- From any memory with zero counters every weakly fair execution of the main function terminates with the
    result buffer at the reference's function of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v95).trans (out_eq _),
      (h c main_arg0).trans (arg_eq _ (by decide)),
      (h c main_arg1).trans (arg_eq _ (by decide)),
      (h c main_arg2).trans (arg_eq _ (by decide)),
      (h c main_arg3).trans (arg_eq _ (by decide)),
      (h c main_arg4).trans (arg_eq _ (by decide)),
      (h c main_arg5).trans (arg_eq _ (by decide)),
      (h c main_arg6).trans (arg_eq _ (by decide)),
      (h c main_arg7).trans (arg_eq _ (by decide)),
      (h c main_arg8).trans (arg_eq _ (by decide)),
      (h c main_arg9).trans (arg_eq _ (by decide)),
      (h c main_arg10).trans (arg_eq _ (by decide)),
      (h c main_arg11).trans (arg_eq _ (by decide)),
      (h c main_arg12).trans (arg_eq _ (by decide)),
      (h c main_arg13).trans (arg_eq _ (by decide)),
      (h c main_arg14).trans (arg_eq _ (by decide))⟩)
    (run_all m ρ)

end Cert.ReferenceIdeal.RefRun

end
-- ==== Proof.RefAt.lean ====
import proofs.«157232_j15032385536064_1_alg».proof.Proof.RefStages
import proofs.«157232_j15032385536064_1_alg».proof.Proof.Spec
import proofs.«157232_j15032385536064_1_alg».proof.Proof.LibPlainMatmul
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefAt

open Cert.ReferenceIdeal Cert.ReferenceIdeal.Gen Cert.ReferenceIdeal.RefStages Cert.Spec
open Idealize.ShloMosaic Idealize.ShloMosaic.ValueIdx
open scoped BigOperators

/-! # The reference's stages read at one entry

Each stage of the reference is a composition of whole-array operations. Read at the entry (r, q) every one of them
is a row-wise formula over the extended reals: a matrix product is a finite sum over the contracted axis, a
broadcast reads its operand, a concatenation reads the piece its column falls in. -/

/-! ## A plain matrix product at an entry -/

/-- The host's product of an [M, K] by a [K, N] array, the left operand's columns contracted with the right operand's
    rows and no batch axis, read at (p, q): the sum over k of l (p, k) · r (k, q). -/
theorem dot_at {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  rw [PlainMatmul.lhsIdx_plain d hlc hln hlb hr hs p q k, PlainMatmul.rhsIdx_plain d hrc hrn hrb hlb hln hr hs p q k]

/-! ## Broadcasts at an entry -/

/-- A vector of n entries laid out as one row and repeated down M rows reads, at (r, q), its entry q. -/
theorem bias_at {α : Type} {M n : ℕ} (h1 : (⟨1, ![n]⟩ : Shape).BroadcastsInDim ⟨2, ![1, n]⟩ ![1])
    (h2 : (⟨2, ![1, n]⟩ : Shape).BroadcastsInDim ⟨2, ![M, n]⟩ ![0, 1]) (a : (⟨1, ![n]⟩ : Shape).Idx → α)
    (r : Fin M) (q : Fin n) :
    broadcastInDim ⟨2, ![M, n]⟩ ![0, 1] h2 (broadcastInDim ⟨2, ![1, n]⟩ ![1] h1 a) (ix2 r q) = a (ix1 q) := by
  rw [broadcastInDim_apply ![0, 1] h2 _ (ix2 r q) (ix2 (0 : Fin 1) q) (fun b => by
    match b with
    | ⟨0, _⟩ => rfl
    | ⟨1, _⟩ =>
      show q.val = if n = 1 then 0 else q.val
      split
      · have := q.isLt; omega
      · rfl)]
  rw [broadcastInDim_apply ![1] h1 _ (ix2 (0 : Fin 1) q) (ix1 q) (fun b => by
    match b with
    | ⟨0, _⟩ =>
      show q.val = if n = 1 then 0 else q.val
      split
      · have := q.isLt; omega
      · rfl)]

/-- A column spread over n columns reads, at (r, q), the column's entry r. -/
theorem col_at {α : Type} {M n : ℕ} (h : (⟨2, ![M, 1]⟩ : Shape).BroadcastsInDim ⟨2, ![M, n]⟩ ![0, 1])
    (w : (⟨2, ![M, 1]⟩ : Shape).Idx → α) (r : Fin M) (q : Fin n) :
    broadcastInDim ⟨2, ![M, n]⟩ ![0, 1] h w (ix2 r q) = w (ix2 r (0 : Fin 1)) := by
  rw [broadcastInDim_apply ![0, 1] h _ (ix2 r q) (ix2 r (0 : Fin 1)) (fun b => by
    match b with
    | ⟨0, _⟩ =>
      show r.val = if M = 1 then 0 else r.val
      split
      · have := r.isLt; omega
      · rfl
    | ⟨1, _⟩ => rfl)]

/-- A vector of M entries stood up as a column reads, at (r, 0), its entry r. -/
theorem ascol_at {α : Type} {M : ℕ} (h : (⟨1, ![M]⟩ : Shape).BroadcastsInDim ⟨2, ![M, 1]⟩ ![0])
    (v : (⟨1, ![M]⟩ : Shape).Idx → α) (r : Fin M) (z : Fin 1) :
    broadcastInDim ⟨2, ![M, 1]⟩ ![0] h v (ix2 r z) = v (ix1 r) := by
  rw [broadcastInDim_apply ![0] h _ (ix2 r z) (ix1 r) (fun b => by
    match b with
    | ⟨0, _⟩ =>
      show r.val = if M = 1 then 0 else r.val
      split
      · have := r.isLt; omega
      · rfl)]

/-! ## The rectifier at an entry -/

/-- The leaky rectifier over an array reads, at any index, the rectifier of the entry. -/
theorem lreluV_at (S : Shape) (hb : S_.BroadcastsInDim S (![] : Fin 0 → Fin S.rank)) (x : FVec Ideal S .f32) (i : S.Idx) :
    lreluV S hb x i = lrelu (x i) := by
  unfold lreluV lrelu
  rw [select_apply, cmpf_apply, mulf_apply, broadcastInDim_scalar_apply, broadcastInDim_scalar_apply]
  rfl

/-- The host's square root over an array reads, at any index, the root of the entry. -/
theorem hostSqrt_at {s : Shape} {φ : FTy} (v : FVec Ideal s φ) (i : s.Idx) : Host.sqrt v i = Ideal.sqrt (v i) := rfl

/-! ## The row's sum of squares -/

/-- The reference's sum over the feature axis of the squares, from the zero word, read at row r. -/
theorem sumsq_at (x : FVec Ideal S100000x64 .f32) (r : Fin 100000) :
    Host.reduceAdd (mulf x x) (constant (F := Ideal) S_ .f32 0x00000000#32) reducesTo_S100000x64_S100000_d1 h_S_ (ix1 r)
      = ∑ k : Fin 64, x (ix2 r k) * x (ix2 r k) := by
  have h : S100000x64.Reduces [1] S100000 := by decide
  rw [hostReduceAdd_apply, Ideal.hostReduceAdd_single reducesTo_S100000x64_S100000_d1 h, constant_apply,
    Ideal.ofBits_zero_f32, zero_add]
  refine Finset.sum_congr rfl fun k _ => ?_
  have e : h.lift (ix1 r) k = ix2 r k := by
    funext a; apply Fin.ext
    match a with
    | ⟨0, _⟩ => rfl
    | ⟨1, _⟩ => rfl
  rw [mulf_apply, e]; rfl

/-! ## The stages without a concatenation -/

/-- The input stage at (r, q) is the row formula of row r's inputs. -/
theorem hInit_at (a0 : FVec Ideal S100000x256 .f32) (e : FVec Ideal S100000x64 .f32) (a2 : FVec Ideal S256x64 .f32)
    (a3 : FVec Ideal S64 .f32) (r : Fin 100000) (q : Fin 64) :
    hInit a0 e a2 a3 (ix2 r q) = hRow (fun k => a0 (ix2 r k)) (fun q' => e (ix2 r q')) (fun k q' => a2 (ix2 k q'))
      (fun q' => a3 (ix1 q')) q := by
  unfold hInit hRow rowMul
  rw [addf_apply, lreluV_at, addf_apply, bias_at,
    dot_at dot_S100000x256_S256x64_S100000x64_1_0_0_1_n_n rfl rfl rfl rfl rfl rfl rfl rfl]

/-- The neighbourhood mean at (r, q) is the row formula of row r's sums, features and weight. -/
theorem adj_at (s x : FVec Ideal S100000x64 .f32) (wd : FVec Ideal S100000x1 .f32) (r : Fin 100000) (q : Fin 64) :
    adj s x wd (ix2 r q) = adjRow (fun k => s (ix2 r k)) (fun k => x (ix2 r k)) (wd (ix2 r (0 : Fin 1))) q := by
  unfold adj adjRow
  rw [hostDivf_apply, subf_apply, col_at]

/-- The row normalisation at (r, q) is the row formula of row r. -/
theorem l2n_at (x : FVec Ideal S100000x64 .f32) (r : Fin 100000) (q : Fin 64) :
    l2n x (ix2 r q) = l2row (fun k => x (ix2 r k)) q := by
  unfold l2n l2row
  rw [hostDivf_apply, col_at, maximumf_apply, broadcastInDim_scalar_apply, constant_apply, hostSqrt_at, ascol_at,
    sumsq_at]

/-! ## Concatenated features at an entry -/

section Cat
variable (h ha hr' : FVec Ideal S100000x64 .f32) (r : Fin 100000) (k : Fin 64)

/-- Two feature blocks side by side: a column of the first half reads the first block, -/
theorem cat2_left :
    concatenate S100000x128 1 [⟨S100000x64, h⟩, ⟨S100000x64, ha⟩] concatenates_S100000x64_S100000x64_S100000x128_d1
      (ix2 r (Fin.castAdd 64 k)) = h (ix2 r k) :=
  concatenate_pair_apply_left (t := S100000x128) 1 h ha concatenates_S100000x64_S100000x64_S100000x128_d1
    (ix2 r (Fin.castAdd 64 k)) rfl (ix2 r k) (fun b => by
    match b with
    | ⟨0, _⟩ => rfl
    | ⟨1, _⟩ => rfl)

/-- … a column of the second half the second block. -/
theorem cat2_right :
    concatenate S100000x128 1 [⟨S100000x64, h⟩, ⟨S100000x64, ha⟩] concatenates_S100000x64_S100000x64_S100000x128_d1
      (ix2 r (Fin.natAdd 64 k)) = ha (ix2 r k) :=
  concatenate_pair_apply_right (t := S100000x128) 1 h ha concatenates_S100000x64_S100000x64_S100000x128_d1
    (ix2 r (Fin.natAdd 64 k)) rfl rfl (ix2 r k) (fun b hb => by
    match b, hb with
    | ⟨0, _⟩, _ => rfl
    | ⟨1, _⟩, hb => exact absurd rfl hb) (Nat.add_comm k.val 64)

/-- Three feature blocks side by side: a column of the first third reads the first block, -/
theorem cat3_0 :
    concatenate S100000x192 1 [⟨S100000x64, h⟩, ⟨S100000x64, ha⟩, ⟨S100000x64, hr'⟩]
      concatenates_S100000x64_S100000x64_S100000x64_S100000x192_d1
      (ix2 r (Fin.castAdd 64 (Fin.castAdd 64 k))) = h (ix2 r k) :=
  concatenate_apply_piece (t := S100000x192) 1 [⟨S100000x64, h⟩, ⟨S100000x64, ha⟩, ⟨S100000x64, hr'⟩]
    concatenates_S100000x64_S100000x64_S100000x64_S100000x192_d1 (ix2 r (Fin.castAdd 64 (Fin.castAdd 64 k))) 0 (show (0 : ℕ) < 3 by decide) S100000x64 h rfl rfl
    0 rfl (ix2 r k) (fun b hb => by
    match b, hb with
    | ⟨0, _⟩, _ => rfl
    | ⟨1, _⟩, hb => exact absurd rfl hb) (Nat.zero_add _)

/-- … of the second third the second block, -/
theorem cat3_1 :
    concatenate S100000x192 1 [⟨S100000x64, h⟩, ⟨S100000x64, ha⟩, ⟨S100000x64, hr'⟩]
      concatenates_S100000x64_S100000x64_S100000x64_S100000x192_d1
      (ix2 r (Fin.castAdd 64 (Fin.natAdd 64 k))) = ha (ix2 r k) :=
  concatenate_apply_piece (t := S100000x192) 1 [⟨S100000x64, h⟩, ⟨S100000x64, ha⟩, ⟨S100000x64, hr'⟩]
    concatenates_S100000x64_S100000x64_S100000x64_S100000x192_d1 (ix2 r (Fin.castAdd 64 (Fin.natAdd 64 k))) 1 (show (1 : ℕ) < 3 by decide) S100000x64 ha rfl rfl
    64 rfl (ix2 r k) (fun b hb => by
    match b, hb with
    | ⟨0, _⟩, _ => rfl
    | ⟨1, _⟩, hb => exact absurd rfl hb) rfl

/-- … and of the last third the third block. -/
theorem cat3_2 :
    concatenate S100000x192 1 [⟨S100000x64, h⟩, ⟨S100000x64, ha⟩, ⟨S100000x64, hr'⟩]
      concatenates_S100000x64_S100000x64_S100000x64_S100000x192_d1
      (ix2 r (Fin.natAdd 128 k)) = hr' (ix2 r k) :=
  concatenate_apply_piece (t := S100000x192) 1 [⟨S100000x64, h⟩, ⟨S100000x64, ha⟩, ⟨S100000x64, hr'⟩]
    concatenates_S100000x64_S100000x64_S100000x64_S100000x192_d1 (ix2 r (Fin.natAdd 128 k)) 2 (show (2 : ℕ) < 3 by decide) S100000x64 hr' rfl rfl
    128 rfl (ix2 r k) (fun b hb => by
    match b, hb with
    | ⟨0, _⟩, _ => rfl
    | ⟨1, _⟩, hb => exact absurd rfl hb) rfl

end Cat

/-! ## The two layers before normalisation -/

/-- The first layer's pre-normalisation array at (r, q) is the row formula of row r's features and mean: the product
    over the 128 concatenated columns splits into the two blocks' products against the two halves of the weights. -/
theorem l0pre_at (h ha : FVec Ideal S100000x64 .f32) (a4 : FVec Ideal S128x256 .f32) (a5 : FVec Ideal S256 .f32)
    (a6 : FVec Ideal S256x64 .f32) (a7 : FVec Ideal S64 .f32) (r : Fin 100000) (q : Fin 64) :
    l0pre h ha a4 a5 a6 a7 (ix2 r q)
      = p0Row (z0Row (fun k => h (ix2 r k)) (fun k => ha (ix2 r k)) (fun k j => a4 (ix2 (Fin.castAdd 64 k) j))
          (fun k j => a4 (ix2 (Fin.natAdd 64 k) j)) (fun j => a5 (ix1 j))) (fun j q' => a6 (ix2 j q'))
          (fun q' => a7 (ix1 q')) q := by
  unfold l0pre p0Row z0Row rowMul
  rw [lreluV_at, addf_apply, bias_at,
    dot_at dot_S100000x256_S256x64_S100000x64_1_0_0_1_n_n rfl rfl rfl rfl rfl rfl rfl rfl]
  congr 2
  refine Finset.sum_congr rfl fun j _ => ?_
  rw [lreluV_at, addf_apply, bias_at,
    dot_at dot_S100000x128_S128x256_S100000x256_1_0_0_1_n_n rfl rfl rfl rfl rfl rfl rfl rfl, sum_split2]
  simp only [cat2_left, cat2_right]

/-- The second layer's pre-normalisation array at (r, q) is the row formula of row r's features, mean and residual
    sums: the product over the 192 concatenated columns splits into the three blocks' products. -/
theorem l1pre_at (hn ha hr : FVec Ideal S100000x64 .f32) (a8 : FVec Ideal S192x384 .f32) (a9 : FVec Ideal S384 .f32)
    (a10 : FVec Ideal S384x64 .f32) (a11 : FVec Ideal S64 .f32) (r : Fin 100000) (q : Fin 64) :
    l1pre hn ha hr a8 a9 a10 a11 (ix2 r q)
      = p1Row (z1Row (fun k => hn (ix2 r k)) (fun k => ha (ix2 r k)) (fun k => hr (ix2 r k))
          (fun k j => a8 (ix2 (Fin.castAdd 64 (Fin.castAdd 64 k)) j))
          (fun k j => a8 (ix2 (Fin.castAdd 64 (Fin.natAdd 64 k)) j)) (fun k j => a8 (ix2 (Fin.natAdd 128 k) j))
          (fun j => a9 (ix1 j))) (fun j q' => a10 (ix2 j q')) (fun q' => a11 (ix1 q')) q := by
  unfold l1pre p1Row z1Row rowMul
  rw [addf_apply, bias_at,
    dot_at dot_S100000x384_S384x64_S100000x64_1_0_0_1_n_n rfl rfl rfl rfl rfl rfl rfl rfl]
  congr 1
  refine Finset.sum_congr rfl fun j _ => ?_
  rw [lreluV_at, addf_apply, bias_at,
    dot_at dot_S100000x192_S192x384_S100000x384_1_0_0_1_n_n rfl rfl rfl rfl rfl rfl rfl rfl, sum_split3]
  simp only [cat3_0, cat3_1, cat3_2]

end Cert.ReferenceIdeal.RefAt

end
-- ==== Proof.Bridge.lean ====
/-
  The two programs compute one function. Stage by stage, the reference's whole-array stage equals the kernel's:
  at row r and column q both are the row-wise formula of Spec.lean. The kernel multiplies by row-slices of a
  weight matrix and adds the products; the reference multiplies the concatenated features by the whole matrix —
  the same finite sum, split at the concatenation's seams. The host's edge sums, the gathered node embeddings
  and the clamped in-degree column are the same operations on both sides and are never opened.
-/
import proofs.«157232_j15032385536064_1_alg».proof.Proof.KerValue
import proofs.«157232_j15032385536064_1_alg».proof.Proof.RefStages
import proofs.«157232_j15032385536064_1_alg».proof.Proof.RefAt
import proofs.«157232_j15032385536064_1_alg».proof.Proof.Spec
import Idealize.ShloMosaic.Lib.ValueLayout
import Idealize.ShloMosaic.Lib.Pipeline.Value

set_option maxRecDepth 16384

noncomputable section

namespace Cert.Bridge

open Idealize.ShloMosaic Idealize.ShloMosaic.ValueIdx Cert.Spec
open Cert.KernelIdeal.KerValue Cert.ReferenceIdeal.RefStages Cert.ReferenceIdeal.RefAt

/-! ## The shared host chains are the same functions -/

theorem nembG_eq (a1 : FVec Ideal Cert.ReferenceIdeal.S100001x64 .f32) (a12 : IVec Cert.ReferenceIdeal.S100000 32) :
    Cert.KernelIdeal.KerRun.nembG (F := Ideal) a1 a12 = nembG a1 a12 := rfl

theorem segsum_eq (x : FVec Ideal Cert.ReferenceIdeal.S100000x64 .f32) (a13 a14 : IVec Cert.ReferenceIdeal.S1600000 32) :
    Cert.KernelIdeal.KerRun.segsum (F := Ideal) x a13 a14 = segsum x a13 a14 := rfl

theorem wden_eq (a14 : IVec Cert.ReferenceIdeal.S1600000 32) :
    Cert.KernelIdeal.KerRun.wden (F := Ideal) a14 = wden a14 := rfl

/-! ## Row-slices of a weight matrix and one-row views of a bias, at an entry -/

theorem slice4_lo (a4 : FVec Ideal Cert.KernelIdeal.S128x256 .f32) (k : Fin 64) (j : Fin 256) :
    extractStridedSlice Cert.KernelIdeal.S64x256 ![0, 0] a4 Cert.KernelIdeal.Gen.slices_S128x256_S64x256_0_0 (ix2 k j)
      = a4 (ix2 (Fin.castAdd 64 k) j) :=
  slice2_axis0_apply 0 a4 _ k j (Fin.castAdd 64 k) (by simp)

theorem slice4_hi (a4 : FVec Ideal Cert.KernelIdeal.S128x256 .f32) (k : Fin 64) (j : Fin 256) :
    extractStridedSlice Cert.KernelIdeal.S64x256 ![64, 0] a4 Cert.KernelIdeal.Gen.slices_S128x256_S64x256_64_0 (ix2 k j)
      = a4 (ix2 (Fin.natAdd 64 k) j) :=
  slice2_axis0_apply 64 a4 _ k j (Fin.natAdd 64 k) (by simp; omega)

theorem slice8_0 (a8 : FVec Ideal Cert.KernelIdeal.S192x384 .f32) (k : Fin 64) (j : Fin 384) :
    extractStridedSlice Cert.KernelIdeal.S64x384 ![0, 0] a8 Cert.KernelIdeal.Gen.slices_S192x384_S64x384_0_0 (ix2 k j)
      = a8 (ix2 (Fin.castAdd 64 (Fin.castAdd 64 k)) j) :=
  slice2_axis0_apply 0 a8 _ k j (Fin.castAdd 64 (Fin.castAdd 64 k)) (by simp)

theorem slice8_1 (a8 : FVec Ideal Cert.KernelIdeal.S192x384 .f32) (k : Fin 64) (j : Fin 384) :
    extractStridedSlice Cert.KernelIdeal.S64x384 ![64, 0] a8 Cert.KernelIdeal.Gen.slices_S192x384_S64x384_64_0 (ix2 k j)
      = a8 (ix2 (Fin.castAdd 64 (Fin.natAdd 64 k)) j) :=
  slice2_axis0_apply 64 a8 _ k j (Fin.castAdd 64 (Fin.natAdd 64 k)) (by simp; omega)

theorem slice8_2 (a8 : FVec Ideal Cert.KernelIdeal.S192x384 .f32) (k : Fin 64) (j : Fin 384) :
    extractStridedSlice Cert.KernelIdeal.S64x384 ![128, 0] a8 Cert.KernelIdeal.Gen.slices_S192x384_S64x384_128_0 (ix2 k j)
      = a8 (ix2 (Fin.natAdd 128 k) j) :=
  slice2_axis0_apply 128 a8 _ k j (Fin.natAdd 128 k) (by simp)

/-! ## The stages -/

/-- The input stage. -/
theorem hInit_eq (a0 : FVec Ideal Cert.KernelIdeal.S100000x256 .f32) (e : FVec Ideal Cert.KernelIdeal.S100000x64 .f32)
    (a2 : FVec Ideal Cert.KernelIdeal.S256x64 .f32) (a3 : FVec Ideal Cert.KernelIdeal.S64 .f32) :
    Cert.KernelIdeal.Reg0.G0 a0 e a2 (shapeCast Cert.KernelIdeal.S1x64 a3 Cert.KernelIdeal.Gen.shapeCasts_S64_S1x64)
      = hInit a0 e a2 a3 := by
  funext i
  obtain ⟨r, q, rfl⟩ : ∃ (r : Fin 100000) (q : Fin 64), i = ix2 r q := ⟨i 0, i 1, eq_ix2 i⟩
  rw [hInit_at]
  unfold Cert.KernelIdeal.Reg0.G0
  simp only [shapeCast_a_1a_apply]

/-- The first layer's new features. -/
theorem new_eq (h s : FVec Ideal Cert.KernelIdeal.S100000x64 .f32) (wd : FVec Ideal Cert.KernelIdeal.S100000x1 .f32)
    (a4 : FVec Ideal Cert.KernelIdeal.S128x256 .f32) (a5 : FVec Ideal Cert.KernelIdeal.S256 .f32)
    (a6 : FVec Ideal Cert.KernelIdeal.S256x64 .f32) (a7 : FVec Ideal Cert.KernelIdeal.S64 .f32) :
    Cert.KernelIdeal.Reg1.G1new h s wd
        (extractStridedSlice Cert.KernelIdeal.S64x256 ![0, 0] a4 Cert.KernelIdeal.Gen.slices_S128x256_S64x256_0_0)
        (extractStridedSlice Cert.KernelIdeal.S64x256 ![64, 0] a4 Cert.KernelIdeal.Gen.slices_S128x256_S64x256_64_0)
        (shapeCast Cert.KernelIdeal.S1x256 a5 Cert.KernelIdeal.Gen.shapeCasts_S256_S1x256) a6
        (shapeCast Cert.KernelIdeal.S1x64 a7 Cert.KernelIdeal.Gen.shapeCasts_S64_S1x64)
      = l2n (l0pre h (adj s h wd) a4 a5 a6 a7) := by
  funext i
  obtain ⟨r, q, rfl⟩ : ∃ (r : Fin 100000) (q : Fin 64), i = ix2 r q := ⟨i 0, i 1, eq_ix2 i⟩
  rw [l2n_at]
  unfold Cert.KernelIdeal.Reg1.G1new new0Row
  simp only [l0pre_at, adj_at, slice4_lo, slice4_hi, shapeCast_a_1a_apply]

/-- The first layer's residual. -/
theorem res_eq (h s : FVec Ideal Cert.KernelIdeal.S100000x64 .f32) (wd : FVec Ideal Cert.KernelIdeal.S100000x1 .f32) :
    Cert.KernelIdeal.Reg1.G1res h s wd = l2n (adj s h wd) := by
  funext i
  obtain ⟨r, q, rfl⟩ : ∃ (r : Fin 100000) (q : Fin 64), i = ix2 r q := ⟨i 0, i 1, eq_ix2 i⟩
  rw [l2n_at]
  unfold Cert.KernelIdeal.Reg1.G1res res0Row
  simp only [adj_at]

/-- The second layer. -/
theorem out_eq (n s r : FVec Ideal Cert.KernelIdeal.S100000x64 .f32) (wd : FVec Ideal Cert.KernelIdeal.S100000x1 .f32)
    (a8 : FVec Ideal Cert.KernelIdeal.S192x384 .f32) (a9 : FVec Ideal Cert.KernelIdeal.S384 .f32)
    (a10 : FVec Ideal Cert.KernelIdeal.S384x64 .f32) (a11 : FVec Ideal Cert.KernelIdeal.S64 .f32) :
    Cert.KernelIdeal.Reg2.G2out n s r wd
        (extractStridedSlice Cert.KernelIdeal.S64x384 ![0, 0] a8 Cert.KernelIdeal.Gen.slices_S192x384_S64x384_0_0)
        (extractStridedSlice Cert.KernelIdeal.S64x384 ![64, 0] a8 Cert.KernelIdeal.Gen.slices_S192x384_S64x384_64_0)
        (extractStridedSlice Cert.KernelIdeal.S64x384 ![128, 0] a8 Cert.KernelIdeal.Gen.slices_S192x384_S64x384_128_0)
        (shapeCast Cert.KernelIdeal.S1x384 a9 Cert.KernelIdeal.Gen.shapeCasts_S384_S1x384) a10
        (shapeCast Cert.KernelIdeal.S1x64 a11 Cert.KernelIdeal.Gen.shapeCasts_S64_S1x64)
      = l2n (l1pre n (adj s n wd) r a8 a9 a10 a11) := by
  funext i
  obtain ⟨p, q, rfl⟩ : ∃ (p : Fin 100000) (q : Fin 64), i = ix2 p q := ⟨i 0, i 1, eq_ix2 i⟩
  rw [l2n_at]
  unfold Cert.KernelIdeal.Reg2.G2out out1Row
  simp only [l1pre_at, adj_at, slice8_0, slice8_1, slice8_2, shapeCast_a_1a_apply]

/-! ## The programs -/

theorem kH_eq (a0 : FVec Ideal Cert.KernelIdeal.S100000x256 .f32) (a1 : FVec Ideal Cert.KernelIdeal.S100001x64 .f32)
    (a2 : FVec Ideal Cert.KernelIdeal.S256x64 .f32) (a3 : FVec Ideal Cert.KernelIdeal.S64 .f32)
    (a12 : IVec Cert.KernelIdeal.S100000 32) : kH a0 a1 a2 a3 a12 = rH a0 a1 a2 a3 a12 := by
  unfold kH rH
  rw [hInit_eq, nembG_eq]

theorem kN_eq (h : FVec Ideal Cert.KernelIdeal.S100000x64 .f32) (a4 : FVec Ideal Cert.KernelIdeal.S128x256 .f32)
    (a5 : FVec Ideal Cert.KernelIdeal.S256 .f32) (a6 : FVec Ideal Cert.KernelIdeal.S256x64 .f32)
    (a7 : FVec Ideal Cert.KernelIdeal.S64 .f32) (a13 a14 : IVec Cert.KernelIdeal.S1600000 32) :
    kN h a4 a5 a6 a7 a13 a14 = rN h a4 a5 a6 a7 a13 a14 := by
  unfold kN rN
  rw [new_eq, segsum_eq, wden_eq]

theorem kR_eq (h : FVec Ideal Cert.KernelIdeal.S100000x64 .f32) (a13 a14 : IVec Cert.KernelIdeal.S1600000 32) :
    kR h a13 a14 = rR h a13 a14 := by
  unfold kR rR
  rw [res_eq, segsum_eq, wden_eq]

theorem kO_eq (n r : FVec Ideal Cert.KernelIdeal.S100000x64 .f32) (a8 : FVec Ideal Cert.KernelIdeal.S192x384 .f32)
    (a9 : FVec Ideal Cert.KernelIdeal.S384 .f32) (a10 : FVec Ideal Cert.KernelIdeal.S384x64 .f32)
    (a11 : FVec Ideal Cert.KernelIdeal.S64 .f32) (a13 a14 : IVec Cert.KernelIdeal.S1600000 32) :
    kO n r a8 a9 a10 a11 a13 a14 = rO n r a8 a9 a10 a11 a13 a14 := by
  unfold kO rO
  rw [out_eq, segsum_eq, segsum_eq, wden_eq]

/-- The kernel program and the reference program are one function of the fifteen arguments. -/
theorem kout_eq (a0 : FVec Ideal Cert.KernelIdeal.S100000x256 .f32) (a1 : FVec Ideal Cert.KernelIdeal.S100001x64 .f32)
    (a2 : FVec Ideal Cert.KernelIdeal.S256x64 .f32) (a3 : FVec Ideal Cert.KernelIdeal.S64 .f32)
    (a4 : FVec Ideal Cert.KernelIdeal.S128x256 .f32) (a5 : FVec Ideal Cert.KernelIdeal.S256 .f32)
    (a6 : FVec Ideal Cert.KernelIdeal.S256x64 .f32) (a7 : FVec Ideal Cert.KernelIdeal.S64 .f32)
    (a8 : FVec Ideal Cert.KernelIdeal.S192x384 .f32) (a9 : FVec Ideal Cert.KernelIdeal.S384 .f32)
    (a10 : FVec Ideal Cert.KernelIdeal.S384x64 .f32) (a11 : FVec Ideal Cert.KernelIdeal.S64 .f32)
    (a12 : IVec Cert.KernelIdeal.S100000 32) (a13 a14 : IVec Cert.KernelIdeal.S1600000 32) :
    kout a0 a1 a2 a3 a4 a5 a6 a7 a8 a9 a10 a11 a12 a13 a14 = out a0 a1 a2 a3 a4 a5 a6 a7 a8 a9 a10 a11 a12 a13 a14 := by
  unfold kout out
  rw [kH_eq, kN_eq, kR_eq, kO_eq]

end Cert.Bridge

end
-- ==== Proof.lean ====
/-
  The certificate of a two-layer graph network: the Pallas program (three row-tiled kernels among the host's
  gathers and edge sums) against its jnp reference.

  Frames: the kernel program's two frames are the generated several-region frames; the reference's is its run
  (RefRun.lean: the host program's operations in order, called functions written out at their call sites).
  The idealization rewrote no operation, so nothing is owed for it.

  Values, over the extended reals: the kernel program's result is the three row-wise stages of Spec.lean composed
  through the host's edge sums (KerRun.lean: the run with its result array named, and what each region finds in
  its operands; KerPay.lean: each kernel body at one entry; Region0–2.lean: each region's output as one function
  of whole arrays; KerValue.lean: the composition). The reference's result is the same composition
  (RefStages.lean, RefAt.lean), and the two are one function of the fifteen arguments (Bridge.lean): where the
  kernel adds matrix products over row-slices of a weight, the reference takes one product over the concatenated
  features — a finite sum split at the seams, in the commutative monoid (EReal, +). No finiteness of the inputs
  is used.
-/
import proofs.«157232_j15032385536064_1_alg».proof.Defs
import proofs.«157232_j15032385536064_1_alg».proof.Proof.Gen.Kernel
import proofs.«157232_j15032385536064_1_alg».proof.Proof.Gen.Kernel.Frame
import proofs.«157232_j15032385536064_1_alg».proof.Proof.Gen.KernelIdeal
import proofs.«157232_j15032385536064_1_alg».proof.Proof.Gen.KernelIdeal.Frame
import proofs.«157232_j15032385536064_1_alg».proof.Proof.Gen.ReferenceIdeal
import proofs.«157232_j15032385536064_1_alg».proof.Proof.Gen.Pre_finite_inputs
import proofs.«157232_j15032385536064_1_alg».proof.Proof.KerRun
import proofs.«157232_j15032385536064_1_alg».proof.Proof.KerValue
import proofs.«157232_j15032385536064_1_alg».proof.Proof.RefRun
import proofs.«157232_j15032385536064_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the same result array: the kernel program's is the composed stages of its arguments,
    the reference's the same function of arguments that agree. -/
theorem algebraic : Cert.algebraic_KernelIdeal_ReferenceIdeal := by
  intro m ρ m' ρ' _ hagree
  refine ⟨fun c => Cert.KernelIdeal.KerValue.kout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KerValue.value m ρ c), (h c).2⟩)
      (Cert.KernelIdeal.KerRun.run_named (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    exact (Cert.Bridge.kout_eq _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
